-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v87)) (v2 : (c : Dev Cert.KernelIdeal.nD) → Buf (Elt Ideal) ((c.tc : Thread Cert.KernelIdeal.nD Cert.KernelIdeal.τ).loc Cert.KernelIdeal.main_v88)) (v3 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_v88) = v2 c
          ∧ r.2.mem ((c.tc : Thread Cert.KernelIdeal.nD Cert.KernelIdeal.τ).loc Cert.KernelIdeal.main_v89) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S1x32000 : Shape := ⟨2, ![1, 32000]⟩
abbrev S1 : Shape := ⟨1, ![1]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S1x32000 : S_.BroadcastsInDim S1x32000 (![] : Fin 0 → Fin S1x32000.rank)
  reducesTo_S1x32000_S_d0_1 : S1x32000.ReducesTo [0, 1] S_
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg5 : IVec S1x32000 32) (main_v32 : IVec S_ 1) (main_c_12 : IVec S_ 32) : IVec S_ 1 :=
  let main_v33 : IVec S1x32000 32 := broadcastInDim S1x32000 ![] bcast_S_S1x32000 main_c_12
  let main_v34 : IVec S1x32000 1 := cmpi .sge main_arg5 main_v33
  let main_c_13 : IVec S_ 32 := constantI S_ 32 32000#32
  let main_v35 : IVec S1x32000 32 := broadcastInDim S1x32000 ![] bcast_S_S1x32000 main_c_13
  let main_v36 : IVec S1x32000 1 := cmpi .slt main_arg5 main_v35
  let main_v37 : IVec S1x32000 1 := andi main_v34 main_v36
  let main_c_14 : IVec S_ 1 := constantI S_ 1 1#1
  let main_v38 : IVec S_ 1 := (fun x v => Host.reduce IntOp.andi x v reducesTo_S1x32000_S_d0_1 h_S_) main_v37 main_c_14
  let main_v39 : IVec S_ 1 := andi main_v32 main_v38
  main_v39

def fn_part1 {F : FTy → Type} [FloatOps F] (main_arg1 : IVec S4096 32) (main_arg3 : IVec S1x32000 32) (main_arg5 : IVec S1x32000 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S4096 32 := broadcastInDim S4096 ![] bcast_S_S4096 main_c_6
  let main_v20 : IVec S4096 1 := cmpi .sge main_arg1 main_v19
  let main_c_7 : IVec S_ 32 := constantI S_ 32 32000#32
  let main_v21 : IVec S4096 32 := broadcastInDim S4096 ![] bcast_S_S4096 main_c_7
  let main_v22 : IVec S4096 1 := cmpi .slt main_arg1 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  let main_c_9 : IVec S_ 32 := constantI S_ 32 0#32
  let main_v26 : IVec S1x32000 32 := broadcastInDim S1x32000 ![] bcast_S_S1x32000 main_c_9
  let main_v27 : IVec S1x32000 1 := cmpi .sge main_arg3 main_v26
  let main_c_10 : IVec S_ 32 := constantI S_ 32 32000#32
  let main_v28 : IVec S1x32000 32 := broadcastInDim S1x32000 ![] bcast_S_S1x32000 main_c_10
  let main_v29 : IVec S1x32000 1 := cmpi .slt main_arg3 main_v28
  let main_v30 : IVec S1x32000 1 := andi main_v27 main_v29
  let main_c_11 : IVec S_ 1 := constantI S_ 1 1#1
  let main_v31 : IVec S_ 1 := (fun x v => Host.reduce IntOp.andi x v reducesTo_S1x32000_S_d0_1 h_S_) main_v30 main_c_11
  let main_v32 : IVec S_ 1 := andi main_v25 main_v31
  let main_c_12 : IVec S_ 32 := constantI S_ 32 0#32
  fn_part2 (F := F) main_arg5 main_v32 main_c_12

def fn {F : FTy → Type} [FloatOps F] (main_arg0 : FVec F S4096x32000 .f32) (main_arg1 : IVec S4096 32) (main_arg2 : FVec F S1x32000 .f32) (main_arg3 : IVec S1x32000 32) (main_arg4 : FVec F S1x32000 .f32) (main_arg5 : IVec S1x32000 32) (main_arg6 : FVec F S1 .f32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S1x32000 .f32 := Host.absf main_arg2
  let main_cst_0 : FVec F S_ .f32 := constant S_ .f32 0x7F800000#32
  let main_v5 : FVec F S1x32000 .f32 := broadcastInDim S1x32000 ![] bcast_S_S1x32000 main_cst_0
  let main_v6 : IVec S1x32000 1 := cmpf .olt main_v4 main_v5
  let main_c_1 : IVec S_ 1 := constantI S_ 1 1#1
  let main_v7 : IVec S_ 1 := (fun x v => Host.reduce IntOp.andi x v reducesTo_S1x32000_S_d0_1 h_S_) main_v6 main_c_1
  let main_v8 : IVec S_ 1 := andi main_v3 main_v7
  let main_v9 : FVec F S1x32000 .f32 := Host.absf main_arg4
  let main_cst_2 : FVec F S_ .f32 := constant S_ .f32 0x7F800000#32
  let main_v10 : FVec F S1x32000 .f32 := broadcastInDim S1x32000 ![] bcast_S_S1x32000 main_cst_2
  let main_v11 : IVec S1x32000 1 := cmpf .olt main_v9 main_v10
  let main_c_3 : IVec S_ 1 := constantI S_ 1 1#1
  let main_v12 : IVec S_ 1 := (fun x v => Host.reduce IntOp.andi x v reducesTo_S1x32000_S_d0_1 h_S_) main_v11 main_c_3
  let main_v13 : IVec S_ 1 := andi main_v8 main_v12
  let main_v14 : FVec F S1 .f32 := Host.absf main_arg6
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg3 main_arg5 main_v13 main_v16
-- ==== Kernel.lean ====
abbrev S4096x32000 : Shape := ⟨2, ![4096, 32000]⟩
abbrev S4096 : Shape := ⟨1, ![4096]⟩
abbrev S1x32000 : Shape := ⟨2, ![1, 32000]⟩
abbrev S1 : Shape := ⟨1, ![1]⟩
abbrev S4096x1 : Shape := ⟨2, ![4096, 1]⟩
abbrev S512x3200 : Shape := ⟨2, ![512, 3200]⟩
abbrev S512x1 : Shape := ⟨2, ![512, 1]⟩
abbrev S512 : Shape := ⟨1, ![512]⟩
abbrev S_ : Shape := ⟨0, ![]⟩
abbrev S4096x2 : Shape := ⟨2, ![4096, 2]⟩
abbrev S4096x1x1 : Shape := ⟨3, ![4096, 1, 1]⟩
abbrev S1x1x1 : Shape := ⟨3, ![1, 1, 1]⟩
abbrev S1x1 : Shape := ⟨2, ![1, 1]⟩

abbrev nBuf : Space → Nat
  | .hbm => 188
  | .vmem => 6
  | .smem => 0
  | _ => 0

abbrev hbmTy0_0 (i : Nat) : BufTy := match i % 128 with
  | 0 => ⟨S4096x32000, .f32⟩
  | 1 => ⟨S4096, .i32⟩
  | 2 => ⟨S1x32000, .f32⟩
  | 3 => ⟨S1x32000, .i32⟩
  | 4 => ⟨S1x32000, .f32⟩
  | 5 => ⟨S1x32000, .i32⟩
  | 6 => ⟨S1, .f32⟩
  | 7 => ⟨S4096x1, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i32⟩
  | 18 => ⟨S4096x1, .i32⟩
  | 19 => ⟨S4096x1, .i32⟩
  | 20 => ⟨S4096x2, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S_, .i32⟩
  | 30 => ⟨S4096, .i32⟩
  | 31 => ⟨S4096, .i32⟩
  | 32 => ⟨S4096x1, .i32⟩
  | 33 => ⟨S4096x1, .i32⟩
  | 34 => ⟨S4096x2, .i32⟩
  | 35 => ⟨S4096, .i32⟩
  | 36 => ⟨S4096x1, .i32⟩
  | 37 => ⟨S_, .i32⟩
  | 38 => ⟨S4096x1, .i32⟩
  | 39 => ⟨S4096x1, .i1⟩
  | 40 => ⟨S_, .i32⟩
  | 41 => ⟨S4096x1, .i32⟩
  | 42 => ⟨S4096x1, .i32⟩
  | 43 => ⟨S4096x1, .i32⟩
  | 44 => ⟨S4096x1x1, .i32⟩
  | 45 => ⟨S1, .i32⟩
  | 46 => ⟨S_, .i32⟩
  | 47 => ⟨S4096x1x1, .i32⟩
  | 48 => ⟨S4096x1x1, .i1⟩
  | 49 => ⟨S1x1x1, .i32⟩
  | 50 => ⟨S4096x1x1, .i32⟩
  | 51 => ⟨S4096x1x1, .i1⟩
  | 52 => ⟨S4096x1x1, .i1⟩
  | 53 => ⟨S_, .i1⟩
  | 54 => ⟨S4096x1, .i1⟩
  | 55 => ⟨S4096x1, .f32⟩
  | 56 => ⟨S_, .f32⟩
  | 57 => ⟨S4096x1, .f32⟩
  | 58 => ⟨S4096x1, .f32⟩
  | 59 => ⟨S4096x1, .i32⟩
  | 60 => ⟨S_, .i32⟩
  | 61 => ⟨S4096x1, .i32⟩
  | 62 => ⟨S4096x1, .i1⟩
  | 63 => ⟨S_, .i32⟩
  | 64 => ⟨S4096x1, .i32⟩
  | 65 => ⟨S4096x1, .i32⟩
  | 66 => ⟨S4096x1, .i32⟩
  | 67 => ⟨S4096x1x1, .i32⟩
  | 68 => ⟨S1, .i32⟩
  | 69 => ⟨S_, .i32⟩
  | 70 => ⟨S4096x1x1, .i32⟩
  | 71 => ⟨S4096x1x1, .i1⟩
  | 72 => ⟨S1x1x1, .i32⟩
  | 73 => ⟨S4096x1x1, .i32⟩
  | 74 => ⟨S4096x1x1, .i1⟩
  | 75 => ⟨S4096x1x1, .i1⟩
  | 76 => ⟨S_, .i1⟩
  | 77 => ⟨S4096x1, .i1⟩
  | 78 => ⟨S4096x1, .f32⟩
  | 79 => ⟨S_, .f32⟩
  | 80 => ⟨S4096x1, .f32⟩
  | 81 => ⟨S4096x1, .f32⟩
  | 82 => ⟨S4096x1, .i32⟩
  | 83 => ⟨S_, .i32⟩
  | 84 => ⟨S4096x1, .i32⟩
  | 85 => ⟨S4096x1, .i1⟩
  | 86 => ⟨S_, .i32⟩
  | 87 => ⟨S4096x1, .i32⟩
  | 88 => ⟨S4096x1, .i32⟩
  | 89 => ⟨S4096x1, .i32⟩
  | 90 => ⟨S4096x1x1, .i32⟩
  | 91 => ⟨S1, .i32⟩
  | 92 => ⟨S_, .i32⟩
  | 93 => ⟨S4096x1x1, .i32⟩
  | 94 => ⟨S4096x1x1, .i1⟩
  | 95 => ⟨S1x1x1, .i32⟩
  | 96 => ⟨S4096x1x1, .i32⟩
  | 97 => ⟨S4096x1x1, .i1⟩
  | 98 => ⟨S4096x1x1, .i1⟩
  | 99 => ⟨S_, .i1⟩
  | 100 => ⟨S4096x1, .i1⟩
  | 101 => ⟨S4096x1, .f32⟩
  | 102 => ⟨S_, .f32⟩
  | 103 => ⟨S4096x1, .f32⟩
  | 104 => ⟨S4096x1, .f32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S_, .i32⟩
  | 113 => ⟨S4096, .i32⟩
  | 114 => ⟨S4096, .i32⟩
  | 115 => ⟨S4096x1, .i32⟩
  | 116 => ⟨S4096x1, .i32⟩
  | 117 => ⟨S4096x2, .i32⟩
  | 118 => ⟨S4096, .f32⟩
  | 119 => ⟨S4096x1, .f32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S_, .i32⟩
  | _ => ⟨S4096x32000, .f32⟩

abbrev hbmTy0_1 (i : Nat) : BufTy := match i % 128 with
  | 0 => ⟨S4096, .i32⟩
  | 1 => ⟨S4096, .i32⟩
  | 2 => ⟨S4096x1, .i32⟩
  | 3 => ⟨S4096x1, .i32⟩
  | 4 => ⟨S4096x2, .i32⟩
  | 5 => ⟨S4096, .f32⟩
  | 6 => ⟨S4096x1, .f32⟩
  | 7 => ⟨S1x1, .f32⟩
  | 8 => ⟨S4096x1, .f32⟩
  | 9 => ⟨S4096x1, .f32⟩
  | 10 => ⟨S4096x1, .f32⟩
  | 11 => ⟨S4096x1, .f32⟩
  | 12 => ⟨S4096x1, .f32⟩
  | 13 => ⟨S4096x1, .f32⟩
  | 14 => ⟨S4096x1, .f32⟩
  | 15 => ⟨S4096x1, .f32⟩
  | 16 => ⟨S4096x1, .f32⟩
  | 17 => ⟨S4096x1, .f32⟩
  | 18 => ⟨S4096x1, .f32⟩
  | 19 => ⟨S4096x1, .i1⟩
  | 20 => ⟨S4096x1, .f32⟩
  | 21 => ⟨S_, .f32⟩
  | 22 => ⟨S_, .f32⟩
  | 23 => ⟨S4096x1, .f32⟩
  | 24 => ⟨S4096x1, .f32⟩
  | 25 => ⟨S4096x1, .f32⟩
  | 26 => ⟨S4096x1, .f32⟩
  | 27 => ⟨S4096x1, .f32⟩
  | 28 => ⟨S4096x1, .f32⟩
  | 29 => ⟨S4096x1, .f32⟩
  | 30 => ⟨S_, .f32⟩
  | 31 => ⟨S4096x1, .f32⟩
  | 32 => ⟨S4096x1, .i1⟩
  | 33 => ⟨S_, .f32⟩
  | 34 => ⟨S4096x1, .f32⟩
  | 35 => ⟨S4096x1, .i1⟩
  | 36 => ⟨S4096x1, .i1⟩
  | 37 => ⟨S4096x1, .i1⟩
  | 38 => ⟨S_, .f32⟩
  | 39 => ⟨S_, .f32⟩
  | 40 => ⟨S4096x1, .f32⟩
  | 41 => ⟨S4096x1, .f32⟩
  | 42 => ⟨S4096x1, .f32⟩
  | 43 => ⟨S_, .f32⟩
  | 44 => ⟨S_, .f32⟩
  | 45 => ⟨S4096x1, .f32⟩
  | 46 => ⟨S4096x1, .f32⟩
  | 47 => ⟨S4096x1, .f32⟩
  | 48 => ⟨S4096x1, .i1⟩
  | 49 => ⟨S4096x1, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | _ => ⟨S4096x32000, .f32⟩

abbrev hbmTy (i : Nat) : BufTy := match i / 128 with
  | 0 => hbmTy0_0 i
  | 1 => hbmTy0_1 i
  | _ => ⟨S4096x32000, .f32⟩

abbrev bufTy : (tb : Table) → Fin (tcTables nBuf tb) → BufTy
  | .hbm, ⟨i, _⟩ => hbmTy i
  | .local _ .vmem, ⟨0, _⟩ => ⟨S512x3200, .f32⟩
  | .local _ .vmem, ⟨1, _⟩ => ⟨S512x3200, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_cst : Ref sig .tc := ⟨.hbm, 56, rfl⟩
abbrev main_call0_v14 : Ref sig .tc := ⟨.hbm, 57, rfl⟩
abbrev main_v24 : Ref sig .tc := ⟨.hbm, 58, rfl⟩
abbrev main_v25 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_cst : Ref sig .tc := ⟨.hbm, 79, rfl⟩
abbrev main_call1_v14 : Ref sig .tc := ⟨.hbm, 80, rfl⟩
abbrev main_v26 : Ref sig .tc := ⟨.hbm, 81, rfl⟩
abbrev main_v27 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_cst : Ref sig .tc := ⟨.hbm, 102, rfl⟩
abbrev main_call2_v14 : Ref sig .tc := ⟨.hbm, 103, rfl⟩
abbrev main_v28 : Ref sig .tc := ⟨.hbm, 104, rfl⟩
abbrev main_c_5 : Ref sig .tc := ⟨.hbm, 105, rfl⟩
abbrev main_v29 : Ref sig .tc := ⟨.hbm, 106, rfl⟩
abbrev main_v30 : Ref sig .tc := ⟨.hbm, 107, rfl⟩
abbrev main_c_6 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_c_7 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_c_8 : Ref sig .tc := ⟨.hbm, 120, rfl⟩
abbrev main_v41 : Ref sig .tc := ⟨.hbm, 121, rfl⟩
abbrev main_v42 : Ref sig .tc := ⟨.hbm, 122, rfl⟩
abbrev main_c_9 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_c_10 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_v52 : Ref sig .tc := ⟨.hbm, 134, rfl⟩
abbrev main_v53 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_cst : Ref sig .tc := ⟨.hbm, 149, rfl⟩
abbrev main_call3_v0 : Ref sig .tc := ⟨.hbm, 150, rfl⟩
abbrev main_call3_v1 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_cst_11 : Ref sig .tc := ⟨.hbm, 158, rfl⟩
abbrev main_v73 : Ref sig .tc := ⟨.hbm, 159, rfl⟩
abbrev main_v74 : Ref sig .tc := ⟨.hbm, 160, rfl⟩
abbrev main_cst_12 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_cst_13 : Ref sig .tc := ⟨.hbm, 166, rfl⟩
abbrev main_call5_v0 : Ref sig .tc := ⟨.hbm, 167, rfl⟩
abbrev main_call5_v1 : Ref sig .tc := ⟨.hbm, 168, rfl⟩
abbrev main_v79 : Ref sig .tc := ⟨.hbm, 169, rfl⟩
abbrev main_v80 : Ref sig .tc := ⟨.hbm, 170, rfl⟩
abbrev main_cst_14 : Ref sig .tc := ⟨.hbm, 171, rfl⟩
abbrev main_call6_v0 : Ref sig .tc := ⟨.hbm, 172, rfl⟩
abbrev main_call6_v1 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_cst_15 : Ref sig .tc := ⟨.hbm, 178, rfl⟩
abbrev main_v85 : Ref sig .tc := ⟨.hbm, 179, rfl⟩
abbrev main_cst_16 : Ref sig .tc := ⟨.hbm, 180, rfl⟩
abbrev main_v86 : Ref sig .tc := ⟨.hbm, 181, rfl⟩
abbrev main_cst_17 : Ref sig .tc := ⟨.hbm, 182, rfl⟩
abbrev main_v87 : Ref sig .tc := ⟨.hbm, 183, rfl⟩
abbrev main_cst_18 : Ref sig .tc := ⟨.hbm, 184, rfl⟩
abbrev main_v88 : Ref sig .tc := ⟨.hbm, 185, rfl⟩
abbrev main_cst_19 : Ref sig .tc := ⟨.hbm, 186, rfl⟩
abbrev main_v89 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v25 : BitVec 1 := Scalar.cmpi .eq arg1 c9_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3200_S512x3200_0_0 : ∀ a, (![0, 0] : Fin 2 → Nat) a + S512x3200.size a ≤ S512x3200.size a
  h_S512x3200 : 0 < S512x3200.numel
  reduces_S512x3200_S512 : S512x3200.Reduces [1] S512
  shapeCasts_S512_S512x1 : S512.ShapeCasts S512x1
  broadcasts_S512x1_S512x3200 : S512x1.Broadcasts S512x3200
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S1_S1x1 : S1.ShapeCasts S1x1
  bcast_S1x1_S4096x1_0_1 : S1x1.BroadcastsInDim S4096x1 (![0, 1] : Fin 2 → Fin S4096x1.rank)
  reducesTo_S4096x1_S_d0_1 : S4096x1.ReducesTo [0, 1] S_
  gather_S1x32000_S4096x2_S4096_n_01_n_n_01_1_11_wf : GatherDims.WF S1x32000 S4096x2 S4096 [] [0, 1] [] [0, 1] [] 1 ![1, 1]
  gather_S4096x32000_S4096x1x1_S4096x1_n_1_0_0_1_2_11_wf : GatherDims.WF S4096x32000 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S4096x32000.size a
  hwx0_0 : ∀ i : grid0.Coords, EltTy.bits .f32 = 32 ∨ (Rect.block (s := S4096x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)

variable [Facts₀]

def gather_S1x32000_S4096x2_S4096_n_01_n_n_01_1_11 : GatherDims S1x32000 S4096x2 S4096 where
  offsetDims := []
  collapsedSliceDims := [0, 1]
  operandBatchingDims := []
  startIndicesBatchingDims := []
  startIndexMap := [0, 1]
  indexVectorDim := 1
  sliceSizes := ![1, 1]
  wf := gather_S1x32000_S4096x2_S4096_n_01_n_n_01_1_11_wf
def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S1x32000 : Shape := ⟨2, ![1, 32000]⟩
abbrev S1 : Shape := ⟨1, ![1]⟩
abbrev S_ : Shape := ⟨0, ![]⟩
abbrev S4096x1 : Shape := ⟨2, ![4096, 1]⟩
abbrev S4096x2 : Shape := ⟨2, ![4096, 2]⟩

abbrev nBuf : Space → Nat
  | .hbm => 183
  | .vmem => 0
  | .smem => 0
  | _ => 0

abbrev hbmTy0_0 (i : Nat) : BufTy := match i % 128 with
  | 0 => ⟨S4096x32000, .f32⟩
  | 1 => ⟨S4096, .i32⟩
  | 2 => ⟨S1x32000, .f32⟩
  | 3 => ⟨S1x32000, .i32⟩
  | 4 => ⟨S1x32000, .f32⟩
  | 5 => ⟨S1x32000, .i32⟩
  | 6 => ⟨S1, .f32⟩
  | 7 => ⟨S4096, .i32⟩
  | 8 => ⟨S_, .f32⟩
  | 9 => ⟨S4096, .f32⟩
  | 10 => ⟨S_, .f32⟩
  | 11 => ⟨S4096, .f32⟩
  | 12 => ⟨S4096, .f32⟩
  | 13 => ⟨S4096x1, .f32⟩
  | 14 => ⟨S4096x32000, .f32⟩
  | 15 => ⟨S4096x32000, .f32⟩
  | 16 => ⟨S4096x32000, .f32⟩
  | 17 => ⟨S_, .f32⟩
  | 18 => ⟨S4096, .f32⟩
  | 19 => ⟨S4096x1, .f32⟩
  | 20 => ⟨S4096x1, .f32⟩
  | 21 => ⟨S4096x32000, .f32⟩
  | 22 => ⟨S4096x32000, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i32⟩
  | 36 => ⟨S4096, .i32⟩
  | 37 => ⟨S4096x1, .i32⟩
  | 38 => ⟨S4096x1, .i32⟩
  | 39 => ⟨S4096x2, .i32⟩
  | 40 => ⟨S4096, .f32⟩
  | 41 => ⟨S4096, .f32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S_, .i32⟩
  | 50 => ⟨S4096, .i32⟩
  | 51 => ⟨S4096, .i32⟩
  | 52 => ⟨S4096x1, .i32⟩
  | 53 => ⟨S4096x1, .i32⟩
  | 54 => ⟨S4096x2, .i32⟩
  | 55 => ⟨S4096, .i32⟩
  | 56 => ⟨S_, .i32⟩
  | 57 => ⟨S4096, .i32⟩
  | 58 => ⟨S4096, .i1⟩
  | 59 => ⟨S_, .i32⟩
  | 60 => ⟨S4096, .i32⟩
  | 61 => ⟨S4096, .i32⟩
  | 62 => ⟨S4096, .i32⟩
  | 63 => ⟨S_, .i32⟩
  | 64 => ⟨S4096, .i32⟩
  | 65 => ⟨S4096, .i32⟩
  | 66 => ⟨S4096x1, .i32⟩
  | 67 => ⟨S4096x1, .i32⟩
  | 68 => ⟨S4096x2, .i32⟩
  | 69 => ⟨S4096, .i32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i32⟩
  | 80 => ⟨S4096x1, .i32⟩
  | 81 => ⟨S4096x1, .i32⟩
  | 82 => ⟨S4096x2, .i32⟩
  | 83 => ⟨S4096, .f32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S_, .i32⟩
  | 92 => ⟨S4096, .i32⟩
  | 93 => ⟨S4096, .i32⟩
  | 94 => ⟨S4096x1, .i32⟩
  | 95 => ⟨S4096x1, .i32⟩
  | 96 => ⟨S4096x2, .i32⟩
  | 97 => ⟨S4096, .f32⟩
  | 98 => ⟨S_, .i32⟩
  | 99 => ⟨S4096, .i32⟩
  | 100 => ⟨S4096, .i1⟩
  | 101 => ⟨S_, .i32⟩
  | 102 => ⟨S4096, .i32⟩
  | 103 => ⟨S4096, .i32⟩
  | 104 => ⟨S4096, .i32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S4096x1, .i32⟩
  | 114 => ⟨S4096x2, .i32⟩
  | 115 => ⟨S4096, .f32⟩
  | 116 => ⟨S4096, .f32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S_, .i32⟩
  | 125 => ⟨S4096, .i32⟩
  | 126 => ⟨S4096, .i1⟩
  | 127 => ⟨S_, .i32⟩
  | _ => ⟨S4096x32000, .f32⟩

abbrev hbmTy0_1 (i : Nat) : BufTy := match i % 128 with
  | 0 => ⟨S4096, .i32⟩
  | 1 => ⟨S4096, .i32⟩
  | 2 => ⟨S4096, .i32⟩
  | 3 => ⟨S4096x1, .i32⟩
  | 4 => ⟨S4096x1, .i32⟩
  | 5 => ⟨S4096x2, .i32⟩
  | 6 => ⟨S4096, .f32⟩
  | 7 => ⟨S4096, .f32⟩
  | 8 => ⟨S_, .f32⟩
  | 9 => ⟨S4096, .f32⟩
  | 10 => ⟨S4096, .f32⟩
  | 11 => ⟨S4096, .f32⟩
  | 12 => ⟨S4096, .f32⟩
  | 13 => ⟨S4096, .f32⟩
  | 14 => ⟨S4096, .i1⟩
  | 15 => ⟨S4096, .f32⟩
  | 16 => ⟨S_, .f32⟩
  | 17 => ⟨S_, .f32⟩
  | 18 => ⟨S4096, .f32⟩
  | 19 => ⟨S4096, .f32⟩
  | 20 => ⟨S4096, .f32⟩
  | 21 => ⟨S4096, .f32⟩
  | 22 => ⟨S4096, .f32⟩
  | 23 => ⟨S4096, .f32⟩
  | 24 => ⟨S4096, .f32⟩
  | 25 => ⟨S_, .f32⟩
  | 26 => ⟨S4096, .f32⟩
  | 27 => ⟨S4096, .i1⟩
  | 28 => ⟨S_, .f32⟩
  | 29 => ⟨S4096, .f32⟩
  | 30 => ⟨S4096, .i1⟩
  | 31 => ⟨S4096, .i1⟩
  | 32 => ⟨S4096, .i1⟩
  | 33 => ⟨S_, .f32⟩
  | 34 => ⟨S_, .f32⟩
  | 35 => ⟨S4096, .f32⟩
  | 36 => ⟨S4096, .f32⟩
  | 37 => ⟨S4096, .f32⟩
  | 38 => ⟨S_, .f32⟩
  | 39 => ⟨S_, .f32⟩
  | 40 => ⟨S4096, .f32⟩
  | 41 => ⟨S4096, .f32⟩
  | 42 => ⟨S4096, .f32⟩
  | 43 => ⟨S4096, .i1⟩
  | 44 => ⟨S4096, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | _ => ⟨S4096x32000, .f32⟩

abbrev hbmTy (i : Nat) : BufTy := match i / 128 with
  | 0 => hbmTy0_0 i
  | 1 => hbmTy0_1 i
  | _ => ⟨S4096x32000, .f32⟩

abbrev bufTy : (tb : Table) → Fin (tcTables nBuf tb) → BufTy
  | .hbm, ⟨i, _⟩ => hbmTy i
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_c_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_8 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_9 : Ref sig .tc := ⟨.hbm, 70, rfl⟩
abbrev main_v39 : Ref sig .tc := ⟨.hbm, 71, rfl⟩
abbrev main_v40 : Ref sig .tc := ⟨.hbm, 72, rfl⟩
abbrev main_c_10 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_11 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_12 : Ref sig .tc := ⟨.hbm, 84, rfl⟩
abbrev main_v50 : Ref sig .tc := ⟨.hbm, 85, rfl⟩
abbrev main_v51 : Ref sig .tc := ⟨.hbm, 86, rfl⟩
abbrev main_c_13 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_14 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_15 : Ref sig .tc := ⟨.hbm, 98, rfl⟩
abbrev main_v61 : Ref sig .tc := ⟨.hbm, 99, rfl⟩
abbrev main_v62 : Ref sig .tc := ⟨.hbm, 100, rfl⟩
abbrev main_c_16 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_c_17 : Ref sig .tc := ⟨.hbm, 105, rfl⟩
abbrev main_v66 : Ref sig .tc := ⟨.hbm, 106, rfl⟩
abbrev main_v67 : Ref sig .tc := ⟨.hbm, 107, rfl⟩
abbrev main_c_18 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_19 : Ref sig .tc := ⟨.hbm, 117, rfl⟩
abbrev main_v76 : Ref sig .tc := ⟨.hbm, 118, rfl⟩
abbrev main_v77 : Ref sig .tc := ⟨.hbm, 119, rfl⟩
abbrev main_c_20 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_21 : Ref sig .tc := ⟨.hbm, 124, rfl⟩
abbrev main_v81 : Ref sig .tc := ⟨.hbm, 125, rfl⟩
abbrev main_v82 : Ref sig .tc := ⟨.hbm, 126, rfl⟩
abbrev main_c_22 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst : Ref sig .tc := ⟨.hbm, 144, rfl⟩
abbrev main_call1_v0 : Ref sig .tc := ⟨.hbm, 145, rfl⟩
abbrev main_call1_v1 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_cst_23 : Ref sig .tc := ⟨.hbm, 153, rfl⟩
abbrev main_v105 : Ref sig .tc := ⟨.hbm, 154, rfl⟩
abbrev main_v106 : Ref sig .tc := ⟨.hbm, 155, rfl⟩
abbrev main_cst_24 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_cst_25 : Ref sig .tc := ⟨.hbm, 161, rfl⟩
abbrev main_call3_v0 : Ref sig .tc := ⟨.hbm, 162, rfl⟩
abbrev main_call3_v1 : Ref sig .tc := ⟨.hbm, 163, rfl⟩
abbrev main_v111 : Ref sig .tc := ⟨.hbm, 164, rfl⟩
abbrev main_v112 : Ref sig .tc := ⟨.hbm, 165, rfl⟩
abbrev main_cst_26 : Ref sig .tc := ⟨.hbm, 166, rfl⟩
abbrev main_call4_v0 : Ref sig .tc := ⟨.hbm, 167, rfl⟩
abbrev main_call4_v1 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_27 : Ref sig .tc := ⟨.hbm, 173, rfl⟩
abbrev main_v117 : Ref sig .tc := ⟨.hbm, 174, rfl⟩
abbrev main_cst_28 : Ref sig .tc := ⟨.hbm, 175, rfl⟩
abbrev main_v118 : Ref sig .tc := ⟨.hbm, 176, rfl⟩
abbrev main_cst_29 : Ref sig .tc := ⟨.hbm, 177, rfl⟩
abbrev main_v119 : Ref sig .tc := ⟨.hbm, 178, rfl⟩
abbrev main_cst_30 : Ref sig .tc := ⟨.hbm, 179, rfl⟩
abbrev main_v120 : Ref sig .tc := ⟨.hbm, 180, rfl⟩
abbrev main_cst_31 : Ref sig .tc := ⟨.hbm, 181, rfl⟩
abbrev main_v121 : Ref sig .tc := ⟨.hbm, 182, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  concatenates_S4096x1_S4096x1_S4096x2_d1 : Shape.Concatenates [S4096x1, S4096x1] S4096x2 1
  shapeCasts_S1_S_ : S1.ShapeCasts S_
  reducesTo_S4096_S_d0 : S4096.ReducesTo [0] S_
  gather_S4096x32000_S4096x2_S4096_n_01_n_n_01_1_11_wf : GatherDims.WF S4096x32000 S4096x2 S4096 [] [0, 1] [] [0, 1] [] 1 ![1, 1]
  gather_S1x32000_S4096x2_S4096_n_01_n_n_01_1_11_wf : GatherDims.WF S1x32000 S4096x2 S4096 [] [0, 1] [] [0, 1] [] 1 ![1, 1]

variable [Facts₀]

def gather_S4096x32000_S4096x2_S4096_n_01_n_n_01_1_11 : GatherDims S4096x32000 S4096x2 S4096 where
  offsetDims := []
  collapsedSliceDims := [0, 1]
  operandBatchingDims := []
  startIndicesBatchingDims := []
  startIndexMap := [0, 1]
  indexVectorDim := 1
  sliceSizes := ![1, 1]
  wf := gather_S4096x32000_S4096x2_S4096_n_01_n_n_01_1_11_wf
def gather_S1x32000_S4096x2_S4096_n_01_n_n_01_1_11 : GatherDims S1x32000 S4096x2 S4096 where
  offsetDims := []
  collapsedSliceDims := [0, 1]
  operandBatchingDims := []
  startIndicesBatchingDims := []
  startIndexMap := [0, 1]
  indexVectorDim := 1
  sliceSizes := ![1, 1]
  wf := gather_S1x32000_S4096x2_S4096_n_01_n_n_01_1_11_wf

class Facts : Prop extends Facts₀ where

variable [Facts]
-- ==== Proof.KBKit.lean ====
/-
  The streaming log-sum-exp kernel's program around its one region: what the region finds in memory, the host
  operations that follow it (fifteen stretches: the index columns, three gathers of logits, the epilogue, four sums),
  the two conditions of the body (first column block of a row block: reset the running maximum and sum; last
  column block: write the row block's log-sum-exp), and where the output window is idle.
-/
import proofs.«178677_j88021059764894_2_alg».proof.Proof.Gen.Kernel.Launch
import proofs.«178677_j88021059764894_2_alg».proof.Proof.Gen.Kernel.Skeleton
import proofs.«178677_j88021059764894_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: the launch memory (no host operation comes before). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor

/-- @main is the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later stretches touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the row block's first column block" (program_id(1) == 0), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "This is the row block's last column block" (program_id(1) == 9). -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The staging and scratch memrefs -/

abbrev VO0_1 : View sig .tc .vmem S512x1 .f32 := (Memref.whole cc0_stg1_0 : Memref sig .tc .vmem S512x1 .f32).view
abbrev ms0_0 (t : Fin cfg0.N) : Memref sig .tc .vmem S512x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
/-- The running maximum's and the running sum's scratch buffers. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.KBRunA.lean ====
/-
  The kernel body at a row block's FIRST column block: the running maximum and sum are reset (to −∞ and 0), then
  the block is folded in; the output window is left as it was.
-/
import proofs.«178677_j88021059764894_2_alg».proof.Proof.KBKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output and in the two scratch buffers, as pieces, at a first column block,
    with the body's triple: the input at its block, the output handed back untouched, the scratch buffers at anything. -/
noncomputable def kernelRun0_A (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) :
    Σ' (L1 : List (View.Piece (Elt F) S512x1 .f32)) (LS0 : List (View.Piece (Elt F) S512x1 .f32)), { LS1 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__kernel i arg2 harg2 arg3 harg3 arg4 harg4 arg5 harg5) K } := by
  refine ⟨[], ?_, ?_, fun xi1 E K => ?run⟩
  case run =>
    simp only [cc0__kernel_eq_skeleton]; unfold cc0__kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.Kernel.Fr

end
-- ==== Proof.KBRunB.lean ====
/-
  The kernel body at a MIDDLE column block: the block is folded into the running maximum and sum the point
  before left; the output window is left as it was.
-/
import proofs.«178677_j88021059764894_2_alg».proof.Proof.KBKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) :
    Σ' (L1 : List (View.Piece (Elt F) S512x1 .f32)) (LS0 : List (View.Piece (Elt F) S512x1 .f32)), { LS1 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__kernel i arg2 harg2 arg3 harg3 arg4 harg4 arg5 harg5) K } := by
  refine ⟨[], ?_, ?_, fun xi1 E K => ?run⟩
  case run =>
    simp only [cc0__kernel_eq_skeleton]; unfold cc0__kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.Kernel.Fr

end
-- ==== Proof.KBRunC.lean ====
/-
  The kernel body at a row block's LAST column block: the block is folded in, and the row block's
  log-sum-exp (maximum + log of the sum) is stored into the output window.
-/
import proofs.«178677_j88021059764894_2_alg».proof.Proof.KBKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) :
    Σ' (L1 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__kernel i arg2 harg2 arg3 harg3 arg4 harg4 arg5 harg5) K } := by
  refine ⟨?_, ?_, ?_, fun E K => ?run⟩
  case run =>
    simp only [cc0__kernel_eq_skeleton]; unfold cc0__kernel_skel
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]
    · iexists _; iexact H1
    isplitl [HS0]
    · iexists _; iexact HS0
    iexists _; iexact HS1

end Cert.Kernel.Fr

end
-- ==== Proof.KBKeeps.lean ====
/-
  No host operation after the region writes an argument array or the region's result (the per-row log-sum-exp):
  each writes its own result buffer only.
-/
import proofs.«178677_j88021059764894_2_alg».proof.Proof.KBKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seven arguments and the region's result. -/
abbrev keptRefs : List (Ref sig .tc) := [main_arg0, main_arg1, main_arg2, main_arg3, main_arg4, main_arg5, main_arg6, main_v0]

theorem hostOps1_keeps : ∀ op ∈ (hostOps1 : List (HloOp τ sig (Elt F))), ∀ b ∈ keptRefs, Proc.devRef (τ := τ) .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_1_keeps : ∀ op ∈ (hostOps1_1 : List (HloOp τ sig (Elt F))), ∀ b ∈ keptRefs, Proc.devRef (τ := τ) .tc b ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_2_keeps : ∀ op ∈ (hostOps1_2 : List (HloOp τ sig (Elt F))), ∀ b ∈ keptRefs, Proc.devRef (τ := τ) .tc b ∉ op.writes := by
  intro op hop
  simp only [hostOps1_2, List.mem_cons, List.mem_nil_iff, or_false] at hop
  rcases hop with rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_3_keeps : ∀ op ∈ (hostOps1_3 : List (HloOp τ sig (Elt F))), ∀ b ∈ keptRefs, Proc.devRef (τ := τ) .tc b ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_4_keeps : ∀ op ∈ (hostOps1_4 : List (HloOp τ sig (Elt F))), ∀ b ∈ keptRefs, Proc.devRef (τ := τ) .tc b ∉ op.writes := by
  intro op hop
  simp only [hostOps1_4, List.mem_cons, List.mem_nil_iff, or_false] at hop
  rcases hop with rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_5_keeps : ∀ op ∈ (hostOps1_5 : List (HloOp τ sig (Elt F))), ∀ b ∈ keptRefs, Proc.devRef (τ := τ) .tc b ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_6_keeps : ∀ op ∈ (hostOps1_6 : List (HloOp τ sig (Elt F))), ∀ b ∈ keptRefs, Proc.devRef (τ := τ) .tc b ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_7_keeps : ∀ op ∈ (hostOps1_7 : List (HloOp τ sig (Elt F))), ∀ b ∈ keptRefs, Proc.devRef (τ := τ) .tc b ∉ op.writes := by
  intro op hop
  simp only [hostOps1_7, List.mem_cons, List.mem_nil_iff, or_false] at hop
  rcases hop with rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_8_keeps : ∀ op ∈ (hostOps1_8 : List (HloOp τ sig (Elt F))), ∀ b ∈ keptRefs, Proc.devRef (τ := τ) .tc b ∉ op.writes := by
  intro op hop
  simp only [hostOps1_8, List.mem_cons, List.mem_nil_iff, or_false] at hop
  rcases hop with rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_9_keeps : ∀ op ∈ (hostOps1_9 : List (HloOp τ sig (Elt F))), ∀ b ∈ keptRefs, Proc.devRef (τ := τ) .tc b ∉ op.writes := by
  intro op hop
  simp only [hostOps1_9, List.mem_cons, List.mem_nil_iff, or_false] at hop
  rcases hop with rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_10_keeps : ∀ op ∈ (hostOps1_10 : List (HloOp τ sig (Elt F))), ∀ b ∈ keptRefs, Proc.devRef (τ := τ) .tc b ∉ op.writes := by
  intro op hop
  simp only [hostOps1_10, List.mem_cons, List.mem_nil_iff, or_false] at hop
  rcases hop with rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_11_keeps : ∀ op ∈ (hostOps1_11 : List (HloOp τ sig (Elt F))), ∀ b ∈ keptRefs, Proc.devRef (τ := τ) .tc b ∉ op.writes := by
  intro op hop
  simp only [hostOps1_11, List.mem_cons, List.mem_nil_iff, or_false] at hop
  rcases hop with rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_12_keeps : ∀ op ∈ (hostOps1_12 : List (HloOp τ sig (Elt F))), ∀ b ∈ keptRefs, Proc.devRef (τ := τ) .tc b ∉ op.writes := by
  intro op hop
  simp only [hostOps1_12, List.mem_cons, List.mem_nil_iff, or_false] at hop
  rcases hop with rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_13_keeps : ∀ op ∈ (hostOps1_13 : List (HloOp τ sig (Elt F))), ∀ b ∈ keptRefs, Proc.devRef (τ := τ) .tc b ∉ op.writes := by
  intro op hop
  simp only [hostOps1_13, List.mem_cons, List.mem_nil_iff, or_false] at hop
  rcases hop with rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_14_keeps : ∀ op ∈ (hostOps1_14 : List (HloOp τ sig (Elt F))), ∀ b ∈ keptRefs, Proc.devRef (τ := τ) .tc b ∉ op.writes := by
  intro op hop
  simp only [hostOps1_14, List.mem_cons, List.mem_nil_iff, or_false] at hop
  rcases hop with rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

/-- No operation of the later stretches writes a kept buffer. -/
theorem tail_keeps : ∀ op ∈ List.flatten (tailOps : List (List (HloOp τ sig (Elt F)))), ∀ b ∈ keptRefs, Proc.devRef (τ := τ) .tc b ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop
  · exact hostOps1_13_keeps op hop
  · exact hostOps1_14_keeps op hop

/-- The later stretches write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  refine tail_keeps op (List.mem_flatten.mpr ⟨ops, hops, hop⟩) _ ?_
  fin_cases w <;> simp [keptRefs, Pipeline.arrRef, spec0]

end Cert.Kernel.Fr

end
-- ==== Proof.KBFrame.lean ====
/-
  The frame of the streaming log-sum-exp program: what the two scratch buffers (running maximum, running sum) and
  the output window hold after each grid point, by recursion on the point — a row block's first column block starts
  from the reset values, every other block from what the point before left, and the last block of a row block also
  fills the output window —, the proof data of the pipeline, the body obligation, and the run of @main.
-/
import proofs.«178677_j88021059764894_2_alg».proof.Proof.KBRunA
import proofs.«178677_j88021059764894_2_alg».proof.Proof.KBRunB
import proofs.«178677_j88021059764894_2_alg».proof.Proof.KBRunC
import proofs.«178677_j88021059764894_2_alg».proof.Proof.KBKeeps

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) (y : S512x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S512x1.size (by sl_kernel_rfl) y
theorem scover0_A_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) (y : S512x1.Idx) :
    ∃ pc ∈ (kernelRun0_A c i arg2 harg2 arg3 harg3 arg4 harg4 arg5 harg5 hc0 hc1 x0).2.2.1, y ∈ pc.1.set :=
  View.cover_of_tiledL (kernelRun0_A c i arg2 harg2 arg3 harg3 arg4 harg4 arg5 harg5 hc0 hc1 x0).2.2.1 S512x1.size (by sl_kernel_rfl) y
theorem scover0_B_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) (y : S512x1.Idx) :
    ∃ pc ∈ (kernelRun0_B c i arg2 harg2 arg3 harg3 arg4 harg4 arg5 harg5 hc0 hc1 x0 xs0 xs1).2.1, y ∈ pc.1.set :=
  View.cover_of_tiledL (kernelRun0_B c i arg2 harg2 arg3 harg3 arg4 harg4 arg5 harg5 hc0 hc1 x0 xs0 xs1).2.1 S512x1.size (by sl_kernel_rfl) y
theorem scover0_B_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) (y : S512x1.Idx) :
    ∃ pc ∈ (kernelRun0_B c i arg2 harg2 arg3 harg3 arg4 harg4 arg5 harg5 hc0 hc1 x0 xs0 xs1).2.2.1, y ∈ pc.1.set :=
  View.cover_of_tiledL (kernelRun0_B c i arg2 harg2 arg3 harg3 arg4 harg4 arg5 harg5 hc0 hc1 x0 xs0 xs1).2.2.1 S512x1.size (by sl_kernel_rfl) y
theorem scover0_C_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).2.1, y ∈ pc.1.set :=
  View.cover_of_tiledL (kernelRun0_C c i arg2 harg2 arg3 harg3 arg4 harg4 arg5 harg5 hc0 hc1 x0 xs0 xs1).2.1 S512x1.size (by sl_kernel_rfl) y
theorem scover0_C_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).2.2.1, y ∈ pc.1.set :=
  View.cover_of_tiledL (kernelRun0_C c i arg2 harg2 arg3 harg3 arg4 harg4 arg5 harg5 hc0 hc1 x0 xs0 xs1).2.2.1 S512x1.size (by sl_kernel_rfl) y
theorem cover0_C_o (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).1, y ∈ pc.1.set :=
  View.cover_of_tiledL (kernelRun0_C c i arg2 harg2 arg3 harg3 arg4 harg4 arg5 harg5 hc0 hc1 x0 xs0 xs1).1 S512x1.size (by sl_kernel_rfl) y

/-- A first column block stores nothing into the output window: a placeholder nothing consults. -/
def out0_A_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) : Vec F S512x1 .f32 :=
  VO0_1.read (Elt F) (VO0_1.writes (Elt F) VO0_1.junk (kernelRun0_A c i arg2 harg2 arg3 harg3 arg4 harg4 arg5 harg5 hc0 hc1 x0).1)
/-- The running maximum after a first column block. -/
def sout0_A_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) : Vec F S512x1 .f32 :=
  VS0_0.read (Elt F) (VS0_0.writes (Elt F) VS0_0.junk (kernelRun0_A c i arg2 harg2 arg3 harg3 arg4 harg4 arg5 harg5 hc0 hc1 x0).2.1)
/-- The running sum after a first column block. -/
def sout0_A_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) : Vec F S512x1 .f32 :=
  VS0_1.read (Elt F) (VS0_1.writes (Elt F) VS0_1.junk (kernelRun0_A c i arg2 harg2 arg3 harg3 arg4 harg4 arg5 harg5 hc0 hc1 x0).2.2.1)
/-- A middle column block stores nothing into the output window either. -/
def out0_B_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) : Vec F S512x1 .f32 :=
  VO0_1.read (Elt F) (VO0_1.writes (Elt F) VO0_1.junk (kernelRun0_B c i arg2 harg2 arg3 harg3 arg4 harg4 arg5 harg5 hc0 hc1 x0 xs0 xs1).1)
/-- The running maximum after a middle column block. -/
def sout0_B_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) : Vec F S512x1 .f32 :=
  VS0_0.read (Elt F) (VS0_0.writes (Elt F) VS0_0.junk (kernelRun0_B c i arg2 harg2 arg3 harg3 arg4 harg4 arg5 harg5 hc0 hc1 x0 xs0 xs1).2.1)
/-- The running sum after a middle column block. -/
def sout0_B_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) : Vec F S512x1 .f32 :=
  VS0_1.read (Elt F) (VS0_1.writes (Elt F) VS0_1.junk (kernelRun0_B c i arg2 harg2 arg3 harg3 arg4 harg4 arg5 harg5 hc0 hc1 x0 xs0 xs1).2.2.1)
/-- The output window after a last column block: the row block's log-sum-exp. -/
def out0_C_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) : Vec F S512x1 .f32 :=
  VO0_1.read (Elt F) (VO0_1.writes (Elt F) VO0_1.junk (kernelRun0_C c i arg2 harg2 arg3 harg3 arg4 harg4 arg5 harg5 hc0 hc1 x0 xs0 xs1).1)
/-- The running maximum after a last column block. -/
def sout0_C_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) : Vec F S512x1 .f32 :=
  VS0_0.read (Elt F) (VS0_0.writes (Elt F) VS0_0.junk (kernelRun0_C c i arg2 harg2 arg3 harg3 arg4 harg4 arg5 harg5 hc0 hc1 x0 xs0 xs1).2.1)
/-- The running sum after a last column block. -/
def sout0_C_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) : Vec F S512x1 .f32 :=
  VS0_1.read (Elt F) (VS0_1.writes (Elt F) VS0_1.junk (kernelRun0_C c i arg2 harg2 arg3 harg3 arg4 harg4 arg5 harg5 hc0 hc1 x0 xs0 xs1).2.2.1)

/-! ## Point by point -/

/-- (output window, running maximum, running sum) after a first column block at point `t`. -/
def ptA (c : Dev nD) (t : Fin cfg0.N) (h0 : t.val % 10 = 0) (h1 : ¬t.val % 10 = 9) : Vec F S512x1 .f32 × Vec F S512x1 .f32 × Vec F S512x1 .f32 :=
  (out0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t),
   sout0_A_0 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t),
   sout0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t))

/-- The same after a middle column block, from the running maximum `p0` and sum `p1` the point before left. -/
def ptB (c : Dev nD) (t : Fin cfg0.N) (h0 : ¬t.val % 10 = 0) (h1 : ¬t.val % 10 = 9) (p0 p1 : Vec F S512x1 .f32) : Vec F S512x1 .f32 × Vec F S512x1 .f32 × Vec F S512x1 .f32 :=
  (out0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) p0 p1,
   sout0_B_0 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) p0 p1,
   sout0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) p0 p1)

/-- The same after a last column block. -/
def ptC (c : Dev nD) (t : Fin cfg0.N) (h0 : ¬t.val % 10 = 0) (h1 : t.val % 10 = 9) (p0 p1 : Vec F S512x1 .f32) : Vec F S512x1 .f32 × Vec F S512x1 .f32 × Vec F S512x1 .f32 :=
  (out0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) p0 p1,
   sout0_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) p0 p1,
   sout0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) p0 p1)

/-- THE ACCUMULATION: (output window, running maximum, running sum) after the body at position `n`. -/
def outsAt0 (c : Dev nD) : (n : ℕ) → n < cfg0.N → Vec F S512x1 .f32 × Vec F S512x1 .f32 × Vec F S512x1 .f32
  | 0, hn => ptA m c ⟨0, hn⟩ (Nat.zero_mod _) (fun h => by have h' : (0 : ℕ) % 10 = 9 := h; omega)
  | n + 1, hn =>
    if h0 : (n + 1) % 10 = 0 then ptA m c ⟨n + 1, hn⟩ h0 (fun h => by have h' : (n + 1) % 10 = 9 := h; omega)
    else if h1 : (n + 1) % 10 = 9 then
      ptC m c ⟨n + 1, hn⟩ h0 h1 (outsAt0 c n (Nat.lt_of_succ_lt hn)).2.1 (outsAt0 c n (Nat.lt_of_succ_lt hn)).2.2
    else
      ptB m c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 10 = 0) (h1 : ¬t.val % 10 = 9) :
    outsAt0 m c t.val t.isLt = ptA m c t h0 h1 := by
  obtain ⟨n, hn⟩ := t
  cases n with
  | zero => rfl
  | succ n => exact dif_pos h0

theorem outsAt0_B (c : Dev nD) (t : Fin cfg0.N) (h0 : ¬t.val % 10 = 0) (h1 : ¬t.val % 10 = 9) :
    outsAt0 m c t.val t.isLt = ptB m c t h0 h1 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 10 = 0) (h1 : t.val % 10 = 9) :
    outsAt0 m c t.val t.isLt = ptC m c t h0 h1 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h1)

/-- The region invariant before position `n`: before the first point the class's (the scratch buffers at anything);
    afterwards the two scratch buffers at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's memref holds its block; the point's position among its row block's ten column
    blocks says which case it is in; the invariant hands the body the scratch buffers (at anything at the very first
    point, at what the point before left afterwards) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 80 := lt_of_lt_of_eq t.isLt (show cfg0.N = 80 from N_0)
  rw [show (dats m 0 c).leavesExact 0 t = owns (c : Thread nD τ) (ms0_0 t) fullShare ((dats m 0 c).after 0 t) from by
    unfold Dat.leavesExact; rw [liveAt0_0 t], after0_0]
  by_cases h0 : t.val % 10 = 0
  · have h1 : ¬t.val % 10 = 9 := by omega
    rw [Dat.leavesExact_idle (dats m 0 c) 1 t (idleAt0_1 t (fun h => h1 ((hcond0_1 t).mp h))) (noFlush0_1 t (fun h => h1 ((hcond0_1 t).mp h)))]
    rw [outsAt0_A m c t h0 h1]
    unfold ptA sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩⟩
      iapply ((kernelRun0_A c (grid0.coords t) _ _ _ _ _ _ _ _ ((hcond0_0 t).mpr h0) (fun h => h1 ((hcond0_1 t).mp h)) (iblk m c 0 t)).2.2.2 _ Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _)
          · unfold owns; iexists _; isplitr
            swap; · iexact HS1
            ipureintro; exact View.read_writes_of_cover _ _ _ _ _ (scover0_A_1 c _ _ _ _ _ _ _ _ _ _ _ _)
        iexact Hg
      isplitl [Ho]; · iexact Ho
      isplitl [H0]; · iexact H0
      iexists _; iexact H1
    · rw [PhiS_castSucc m c t, PhiS_pos m c _ _ hz]
      iintro ⟨⟨⟨HS0, HS1⟩, Hg⟩, Ho, ⟨%d0, H0⟩, ⟨%d1, H1⟩⟩
      iapply ((kernelRun0_A c (grid0.coords t) _ _ _ _ _ _ _ _ ((hcond0_0 t).mpr h0) (fun h => h1 ((hcond0_1 t).mp h)) (iblk m c 0 t)).2.2.2 _ Set.univ _)
      isplitl [H0]; · iexact H0
      isplitl [H1]; · iexact H1
      isplitl [HS0]; · iexists _; iexact HS0
      isplitl [HS1]; · iexists _; iexact HS1
      iintro ⟨H0, H1, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _)
          · unfold owns; iexists _; isplitr
            swap; · iexact HS1
            ipureintro; exact View.read_writes_of_cover _ _ _ _ _ (scover0_A_1 c _ _ _ _ _ _ _ _ _ _ _ _)
        iexact Hg
      isplitl [Ho]; · iexact Ho
      isplitl [H0]; · iexact H0
      iexists _; iexact H1
  · have hz : t.val ≠ 0 := fun h => h0 (by rw [h])
    by_cases h1 : t.val % 10 = 9
    · rw [show (dats m 0 c).leavesExact 1 t = owns (c : Thread nD τ) (ms0_1 t) fullShare ((dats m 0 c).after 1 t) from by
        unfold Dat.leavesExact; rw [liveAt0_1 t ((hcond0_1 t).mpr h1)], after0_1]
      rw [outsAt0_C m c t h0 h1]
      unfold ptC out0_C_1 sout0_C_0 sout0_C_1; (try dsimp only)
      rw [PhiS_castSucc m c t, PhiS_pos m c _ _ hz]
      iintro ⟨⟨⟨HS0, HS1⟩, Hg⟩, Ho, ⟨%d0, H0⟩, ⟨%d1, H1⟩⟩
      iapply ((kernelRun0_C c (grid0.coords t) _ _ _ _ _ _ _ _ (fun h => h0 ((hcond0_0 t).mp h)) ((hcond0_1 t).mpr h1) (iblk m c 0 t) _ _).2.2.2 Set.univ _)
      isplitl [H0]; · iexact H0
      isplitl [H1]; · iexists _; iexact H1
      isplitl [HS0]; · iexact HS0
      isplitl [HS1]; · iexact HS1
      iintro ⟨H0, ⟨%e1, H1⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover0_C_o c _ _ _ _ _ _ _ _ _ _ _ _ _ _)
    · rw [Dat.leavesExact_idle (dats m 0 c) 1 t (idleAt0_1 t (fun h => h1 ((hcond0_1 t).mp h))) (noFlush0_1 t (fun h => h1 ((hcond0_1 t).mp h)))]
      rw [outsAt0_B m c t h0 h1]
      unfold ptB sout0_B_0 sout0_B_1; (try dsimp only)
      rw [PhiS_castSucc m c t, PhiS_pos m c _ _ hz]
      iintro ⟨⟨⟨HS0, HS1⟩, Hg⟩, Ho, ⟨%d0, H0⟩, ⟨%d1, H1⟩⟩
      iapply ((kernelRun0_B c (grid0.coords t) _ _ _ _ _ _ _ _ (fun h => h0 ((hcond0_0 t).mp h)) (fun h => h1 ((hcond0_1 t).mp h)) (iblk m c 0 t) _ _).2.2.2 _ Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _)
        iexact Hg
      isplitl [Ho]; · iexact Ho
      isplitl [H0]; · iexact H0
      iexists _; iexact H1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 80 := N_0; omega)

/-! ## The run and the frame -/

set_option backward.isDefEq.respectTransparency.types false in
/-- Every weakly fair execution of @main terminates, and every final state has the two arrays of the pipeline at what
    the proof data says and every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.Kernel.Fr

end
-- ==== Proof.KBClaim.lean ====
/-
  The frame of the streaming log-sum-exp program: @main terminates, nothing faults, and the seven argument arrays end
  unchanged — the logits because the pipeline only reads them, the other six because neither the region nor any
  host operation after it writes them.
-/
import proofs.«178677_j88021059764894_2_alg».proof.Proof.KBFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem tail_main_arg1 (c : Dev nD) :
    Pipeline.afterTail₀ cfgs (dats m) 0 (V0 m) tailOps c main_arg1 = m ((c.tc : Thread nD τ).loc main_arg1) := by
  unfold Pipeline.afterTail₀
  refine (StableHlo.after_of_forall_not_mem _ _ fun op hop => tail_keeps op hop main_arg1 (by simp [keptRefs])).trans ?_
  exact Pipeline.withArrays_of_ne spec0 c _ _ main_arg1 (by decide)

theorem tail_main_arg2 (c : Dev nD) :
    Pipeline.afterTail₀ cfgs (dats m) 0 (V0 m) tailOps c main_arg2 = m ((c.tc : Thread nD τ).loc main_arg2) := by
  unfold Pipeline.afterTail₀
  refine (StableHlo.after_of_forall_not_mem _ _ fun op hop => tail_keeps op hop main_arg2 (by simp [keptRefs])).trans ?_
  exact Pipeline.withArrays_of_ne spec0 c _ _ main_arg2 (by decide)

theorem tail_main_arg3 (c : Dev nD) :
    Pipeline.afterTail₀ cfgs (dats m) 0 (V0 m) tailOps c main_arg3 = m ((c.tc : Thread nD τ).loc main_arg3) := by
  unfold Pipeline.afterTail₀
  refine (StableHlo.after_of_forall_not_mem _ _ fun op hop => tail_keeps op hop main_arg3 (by simp [keptRefs])).trans ?_
  exact Pipeline.withArrays_of_ne spec0 c _ _ main_arg3 (by decide)

theorem tail_main_arg4 (c : Dev nD) :
    Pipeline.afterTail₀ cfgs (dats m) 0 (V0 m) tailOps c main_arg4 = m ((c.tc : Thread nD τ).loc main_arg4) := by
  unfold Pipeline.afterTail₀
  refine (StableHlo.after_of_forall_not_mem _ _ fun op hop => tail_keeps op hop main_arg4 (by simp [keptRefs])).trans ?_
  exact Pipeline.withArrays_of_ne spec0 c _ _ main_arg4 (by decide)

theorem tail_main_arg5 (c : Dev nD) :
    Pipeline.afterTail₀ cfgs (dats m) 0 (V0 m) tailOps c main_arg5 = m ((c.tc : Thread nD τ).loc main_arg5) := by
  unfold Pipeline.afterTail₀
  refine (StableHlo.after_of_forall_not_mem _ _ fun op hop => tail_keeps op hop main_arg5 (by simp [keptRefs])).trans ?_
  exact Pipeline.withArrays_of_ne spec0 c _ _ main_arg5 (by decide)

theorem tail_main_arg6 (c : Dev nD) :
    Pipeline.afterTail₀ cfgs (dats m) 0 (V0 m) tailOps c main_arg6 = m ((c.tc : Thread nD τ).loc main_arg6) := by
  unfold Pipeline.afterTail₀
  refine (StableHlo.after_of_forall_not_mem _ _ fun op hop => tail_keeps op hop main_arg6 (by simp [keptRefs])).trans ?_
  exact Pipeline.withArrays_of_ne spec0 c _ _ main_arg6 (by decide)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (tail_main_arg1 m c),
      ((h c).2 main_arg2 (Pipeline.mem_restRefs_of main_arg2 (by decide) (by decide))).trans (tail_main_arg2 m c),
      ((h c).2 main_arg3 (Pipeline.mem_restRefs_of main_arg3 (by decide) (by decide))).trans (tail_main_arg3 m c),
      ((h c).2 main_arg4 (Pipeline.mem_restRefs_of main_arg4 (by decide) (by decide))).trans (tail_main_arg4 m c),
      ((h c).2 main_arg5 (Pipeline.mem_restRefs_of main_arg5 (by decide) (by decide))).trans (tail_main_arg5 m c),
      ((h c).2 main_arg6 (Pipeline.mem_restRefs_of main_arg6 (by decide) (by decide))).trans (tail_main_arg6 m c)⟩) (run_main m ρ)

end Cert.Kernel.Fr

end
-- ==== Proof.KIKit.lean ====
/-
  The streaming log-sum-exp kernel's program around its one region: what the region finds in memory, the host
  operations that follow it (fifteen stretches: the index columns, three gathers of logits, the epilogue, four sums),
  the two conditions of the body (first column block of a row block: reset the running maximum and sum; last
  column block: write the row block's log-sum-exp), and where the output window is idle.
-/
import proofs.«178677_j88021059764894_2_alg».proof.Proof.Gen.KernelIdeal.Launch
import proofs.«178677_j88021059764894_2_alg».proof.Proof.Gen.KernelIdeal.Skeleton
import proofs.«178677_j88021059764894_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: the launch memory (no host operation comes before). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor

/-- @main is the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- The later stretches touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the row block's first column block" (program_id(1) == 0), from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "This is the row block's last column block" (program_id(1) == 9). -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-! ## The staging and scratch memrefs -/

abbrev VO0_1 : View sig .tc .vmem S512x1 .f32 := (Memref.whole cc0_stg1_0 : Memref sig .tc .vmem S512x1 .f32).view
abbrev ms0_0 (t : Fin cfg0.N) : Memref sig .tc .vmem S512x3200 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
/-- The running maximum's and the running sum's scratch buffers. -/
abbrev scM0_0 : Memref sig .tc .vmem S512x1 .f32 := Memref.whole cc0_scratch0
abbrev scM0_1 : Memref sig .tc .vmem S512x1 .f32 := Memref.whole cc0_scratch1
abbrev VS0_0 : View sig .tc .vmem S512x1 .f32 := scM0_0.view
abbrev VS0_1 : View sig .tc .vmem S512x1 .f32 := scM0_1.view

/-- The class invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KIRunA.lean ====
/-
  The kernel body at a row block's FIRST column block: the running maximum and sum are reset (to −∞ and 0), then
  the block is folded in; the output window is left as it was.
-/
import proofs.«178677_j88021059764894_2_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output and in the two scratch buffers, as pieces, at a first column block,
    with the body's triple: the input at its block, the output handed back untouched, the scratch buffers at anything. -/
noncomputable def kernelRun0_A (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) :
    Σ' (L1 : List (View.Piece (Elt F) S512x1 .f32)) (LS0 : List (View.Piece (Elt F) S512x1 .f32)), { LS1 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__kernel i arg2 harg2 arg3 harg3 arg4 harg4 arg5 harg5) K } := by
  refine ⟨[], ?_, ?_, fun xi1 E K => ?run⟩
  case run =>
    simp only [cc0__kernel_eq_skeleton]; unfold cc0__kernel_skel
    unfold owns
    iintro ⟨⟨%f0, %hf0, H0⟩, ⟨%f1, %hf1, H1⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.KernelIdeal.Fr

end
-- ==== Proof.KIRunB.lean ====
/-
  The kernel body at a MIDDLE column block: the block is folded into the running maximum and sum the point
  before left; the output window is left as it was.
-/
import proofs.«178677_j88021059764894_2_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) :
    Σ' (L1 : List (View.Piece (Elt F) S512x1 .f32)) (LS0 : List (View.Piece (Elt F) S512x1 .f32)), { LS1 : List (View.Piece (Elt F) S512x1 .f32) //
      ∀ (xi1 : Vec F S512x1 .f32) (E : Set ℕ) (K : PUnit → sProp 𝕄),
        iprop(owns (c : Thread nD τ) arg2 fullShare x0 ∗ owns (c : Thread nD τ) arg3 fullShare xi1 ∗ owns (c : Thread nD τ) arg4 fullShare xs0 ∗ owns (c : Thread nD τ) arg5 fullShare xs1
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__kernel i arg2 harg2 arg3 harg3 arg4 harg4 arg5 harg5) K } := by
  refine ⟨[], ?_, ?_, fun xi1 E K => ?run⟩
  case run =>
    simp only [cc0__kernel_eq_skeleton]; unfold cc0__kernel_skel
    unfold owns
    iintro ⟨⟨%f0, %hf0, H0⟩, ⟨%f1, %hf1, H1⟩, ⟨%fs0, %hfs0, HS0⟩, ⟨%fs1, %hfs1, HS1⟩, Hk⟩
    obtain rfl := harg2.eq_unread hf0; obtain rfl := harg3.eq_unread hf1; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HS0]
    · iexists _; iexact HS0
    iexists _; iexact HS1

end Cert.KernelIdeal.Fr

end
-- ==== Proof.KIRunC.lean ====
/-
  The kernel body at a row block's LAST column block: the block is folded in, and the row block's
  log-sum-exp (maximum + log of the sum) is stored into the output window.
-/
import proofs.«178677_j88021059764894_2_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) :
    Σ' (L1 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0 ∗ owns (c : Thread nD τ) arg5 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__kernel i arg2 harg2 arg3 harg3 arg4 harg4 arg5 harg5) K } := by
  refine ⟨?_, ?_, ?_, fun E K => ?run⟩
  case run =>
    simp only [cc0__kernel_eq_skeleton]; unfold cc0__kernel_skel
    unfold owns
    iintro ⟨⟨%f0, %hf0, H0⟩, ⟨%d1, %f1, -, H1⟩, ⟨%fs0, %hfs0, HS0⟩, ⟨%fs1, %hfs1, HS1⟩, Hk⟩
    obtain rfl := harg2.eq_unread hf0; obtain rfl := harg4.eq_unread hfs0; obtain rfl := harg5.eq_unread hfs1
    sl_exec (disch := first | exact hc0 | exact hc1)
    sl_step
    iapply Hk
    isplitl [H0]
    · iexists _; isplitr; · ipureintro; exact harg2.read_unread _
      iexact H0
    isplitl [H1]
    · iexists _; iexact H1
    isplitl [HS0]
    · iexists _; iexact HS0
    iexists _; iexact HS1

end Cert.KernelIdeal.Fr

end
-- ==== Proof.KIKeeps.lean ====
/-
  No host operation after the region writes an argument array or the region's result (the per-row log-sum-exp):
  each writes its own result buffer only.
-/
import proofs.«178677_j88021059764894_2_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seven arguments and the region's result. -/
abbrev keptRefs : List (Ref sig .tc) := [main_arg0, main_arg1, main_arg2, main_arg3, main_arg4, main_arg5, main_arg6, main_v0]

theorem hostOps1_keeps : ∀ op ∈ (hostOps1 : List (HloOp τ sig (Elt F))), ∀ b ∈ keptRefs, Proc.devRef (τ := τ) .tc b ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_1_keeps : ∀ op ∈ (hostOps1_1 : List (HloOp τ sig (Elt F))), ∀ b ∈ keptRefs, Proc.devRef (τ := τ) .tc b ∉ op.writes := by
  intro op hop
  simp only [hostOps1_1, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_2_keeps : ∀ op ∈ (hostOps1_2 : List (HloOp τ sig (Elt F))), ∀ b ∈ keptRefs, Proc.devRef (τ := τ) .tc b ∉ op.writes := by
  intro op hop
  simp only [hostOps1_2, List.mem_cons, List.mem_nil_iff, or_false] at hop
  rcases hop with rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_3_keeps : ∀ op ∈ (hostOps1_3 : List (HloOp τ sig (Elt F))), ∀ b ∈ keptRefs, Proc.devRef (τ := τ) .tc b ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_4_keeps : ∀ op ∈ (hostOps1_4 : List (HloOp τ sig (Elt F))), ∀ b ∈ keptRefs, Proc.devRef (τ := τ) .tc b ∉ op.writes := by
  intro op hop
  simp only [hostOps1_4, List.mem_cons, List.mem_nil_iff, or_false] at hop
  rcases hop with rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_5_keeps : ∀ op ∈ (hostOps1_5 : List (HloOp τ sig (Elt F))), ∀ b ∈ keptRefs, Proc.devRef (τ := τ) .tc b ∉ op.writes := by
  intro op hop
  simp only [hostOps1_5, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_6_keeps : ∀ op ∈ (hostOps1_6 : List (HloOp τ sig (Elt F))), ∀ b ∈ keptRefs, Proc.devRef (τ := τ) .tc b ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_7_keeps : ∀ op ∈ (hostOps1_7 : List (HloOp τ sig (Elt F))), ∀ b ∈ keptRefs, Proc.devRef (τ := τ) .tc b ∉ op.writes := by
  intro op hop
  simp only [hostOps1_7, List.mem_cons, List.mem_nil_iff, or_false] at hop
  rcases hop with rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_8_keeps : ∀ op ∈ (hostOps1_8 : List (HloOp τ sig (Elt F))), ∀ b ∈ keptRefs, Proc.devRef (τ := τ) .tc b ∉ op.writes := by
  intro op hop
  simp only [hostOps1_8, List.mem_cons, List.mem_nil_iff, or_false] at hop
  rcases hop with rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_9_keeps : ∀ op ∈ (hostOps1_9 : List (HloOp τ sig (Elt F))), ∀ b ∈ keptRefs, Proc.devRef (τ := τ) .tc b ∉ op.writes := by
  intro op hop
  simp only [hostOps1_9, List.mem_cons, List.mem_nil_iff, or_false] at hop
  rcases hop with rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_10_keeps : ∀ op ∈ (hostOps1_10 : List (HloOp τ sig (Elt F))), ∀ b ∈ keptRefs, Proc.devRef (τ := τ) .tc b ∉ op.writes := by
  intro op hop
  simp only [hostOps1_10, List.mem_cons, List.mem_nil_iff, or_false] at hop
  rcases hop with rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_11_keeps : ∀ op ∈ (hostOps1_11 : List (HloOp τ sig (Elt F))), ∀ b ∈ keptRefs, Proc.devRef (τ := τ) .tc b ∉ op.writes := by
  intro op hop
  simp only [hostOps1_11, List.mem_cons, List.mem_nil_iff, or_false] at hop
  rcases hop with rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_12_keeps : ∀ op ∈ (hostOps1_12 : List (HloOp τ sig (Elt F))), ∀ b ∈ keptRefs, Proc.devRef (τ := τ) .tc b ∉ op.writes := by
  intro op hop
  simp only [hostOps1_12, List.mem_cons, List.mem_nil_iff, or_false] at hop
  rcases hop with rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_13_keeps : ∀ op ∈ (hostOps1_13 : List (HloOp τ sig (Elt F))), ∀ b ∈ keptRefs, Proc.devRef (τ := τ) .tc b ∉ op.writes := by
  intro op hop
  simp only [hostOps1_13, List.mem_cons, List.mem_nil_iff, or_false] at hop
  rcases hop with rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

theorem hostOps1_14_keeps : ∀ op ∈ (hostOps1_14 : List (HloOp τ sig (Elt F))), ∀ b ∈ keptRefs, Proc.devRef (τ := τ) .tc b ∉ op.writes := by
  intro op hop
  simp only [hostOps1_14, List.mem_cons, List.mem_nil_iff, or_false] at hop
  rcases hop with rfl | rfl | rfl | rfl | rfl | rfl | rfl | rfl | rfl | rfl | rfl | rfl | rfl
  all_goals
    intro b hb
    simp only [keptRefs, List.mem_cons, List.mem_nil_iff, or_false] at hb
    rcases hb with rfl | rfl | rfl | rfl | rfl | rfl | rfl | rfl <;> simp only [StableHlo.nullary_writes, StableHlo.unary_writes, StableHlo.binary_writes, StableHlo.ternary_writes, StableHlo.reshape_writes, Finset.mem_singleton] <;> exact StableHlo.devRef_ne_of_ne (by decide)

/-- No operation of the later stretches writes a kept buffer. -/
theorem tail_keeps : ∀ op ∈ List.flatten (tailOps : List (List (HloOp τ sig (Elt F)))), ∀ b ∈ keptRefs, Proc.devRef (τ := τ) .tc b ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl
  · exact hostOps1_keeps op hop
  · exact hostOps1_1_keeps op hop
  · exact hostOps1_2_keeps op hop
  · exact hostOps1_3_keeps op hop
  · exact hostOps1_4_keeps op hop
  · exact hostOps1_5_keeps op hop
  · exact hostOps1_6_keeps op hop
  · exact hostOps1_7_keeps op hop
  · exact hostOps1_8_keeps op hop
  · exact hostOps1_9_keeps op hop
  · exact hostOps1_10_keeps op hop
  · exact hostOps1_11_keeps op hop
  · exact hostOps1_12_keeps op hop
  · exact hostOps1_13_keeps op hop
  · exact hostOps1_14_keeps op hop

/-- The later stretches write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  refine tail_keeps op (List.mem_flatten.mpr ⟨ops, hops, hop⟩) _ ?_
  fin_cases w <;> simp [keptRefs, Pipeline.arrRef, spec0]

end Cert.KernelIdeal.Fr

end
-- ==== Proof.KIFrame.lean ====
/-
  The frame of the streaming log-sum-exp program: what the two scratch buffers (running maximum, running sum) and
  the output window hold after each grid point, by recursion on the point — a row block's first column block starts
  from the reset values, every other block from what the point before left, and the last block of a row block also
  fills the output window —, the proof data of the pipeline, the body obligation, and the run of @main.
-/
import proofs.«178677_j88021059764894_2_alg».proof.Proof.KIRunA
import proofs.«178677_j88021059764894_2_alg».proof.Proof.KIRunB
import proofs.«178677_j88021059764894_2_alg».proof.Proof.KIRunC
import proofs.«178677_j88021059764894_2_alg».proof.Proof.KIKeeps

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) (y : S512x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S512x1.size (by sl_kernel_rfl) y
theorem scover0_A_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) (y : S512x1.Idx) :
    ∃ pc ∈ (kernelRun0_A c i arg2 harg2 arg3 harg3 arg4 harg4 arg5 harg5 hc0 hc1 x0).2.2.1, y ∈ pc.1.set :=
  View.cover_of_tiledL (kernelRun0_A c i arg2 harg2 arg3 harg3 arg4 harg4 arg5 harg5 hc0 hc1 x0).2.2.1 S512x1.size (by sl_kernel_rfl) y
theorem scover0_B_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) (y : S512x1.Idx) :
    ∃ pc ∈ (kernelRun0_B c i arg2 harg2 arg3 harg3 arg4 harg4 arg5 harg5 hc0 hc1 x0 xs0 xs1).2.1, y ∈ pc.1.set :=
  View.cover_of_tiledL (kernelRun0_B c i arg2 harg2 arg3 harg3 arg4 harg4 arg5 harg5 hc0 hc1 x0 xs0 xs1).2.1 S512x1.size (by sl_kernel_rfl) y
theorem scover0_B_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) (y : S512x1.Idx) :
    ∃ pc ∈ (kernelRun0_B c i arg2 harg2 arg3 harg3 arg4 harg4 arg5 harg5 hc0 hc1 x0 xs0 xs1).2.2.1, y ∈ pc.1.set :=
  View.cover_of_tiledL (kernelRun0_B c i arg2 harg2 arg3 harg3 arg4 harg4 arg5 harg5 hc0 hc1 x0 xs0 xs1).2.2.1 S512x1.size (by sl_kernel_rfl) y
theorem scover0_C_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).2.1, y ∈ pc.1.set :=
  View.cover_of_tiledL (kernelRun0_C c i arg2 harg2 arg3 harg3 arg4 harg4 arg5 harg5 hc0 hc1 x0 xs0 xs1).2.1 S512x1.size (by sl_kernel_rfl) y
theorem scover0_C_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).2.2.1, y ∈ pc.1.set :=
  View.cover_of_tiledL (kernelRun0_C c i arg2 harg2 arg3 harg3 arg4 harg4 arg5 harg5 hc0 hc1 x0 xs0 xs1).2.2.1 S512x1.size (by sl_kernel_rfl) y
theorem cover0_C_o (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) (y : S512x1.Idx) :
    ∃ pc ∈ (kernelRun0_C c i arg2 harg2 arg3 harg3 arg4 harg4 arg5 harg5 hc0 hc1 x0 xs0 xs1).1, y ∈ pc.1.set :=
  View.cover_of_tiledL (kernelRun0_C c i arg2 harg2 arg3 harg3 arg4 harg4 arg5 harg5 hc0 hc1 x0 xs0 xs1).1 S512x1.size (by sl_kernel_rfl) y

/-- A first column block stores nothing into the output window: a placeholder nothing consults. -/
def out0_A_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) : Vec F S512x1 .f32 :=
  VO0_1.read (Elt F) (VO0_1.writes (Elt F) VO0_1.junk (kernelRun0_A c i arg2 harg2 arg3 harg3 arg4 harg4 arg5 harg5 hc0 hc1 x0).1)
/-- The running maximum after a first column block. -/
def sout0_A_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) : Vec F S512x1 .f32 :=
  VS0_0.read (Elt F) (VS0_0.writes (Elt F) VS0_0.junk (kernelRun0_A c i arg2 harg2 arg3 harg3 arg4 harg4 arg5 harg5 hc0 hc1 x0).2.1)
/-- The running sum after a first column block. -/
def sout0_A_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i)
    (x0 : Vec F S512x3200 .f32) : Vec F S512x1 .f32 :=
  VS0_1.read (Elt F) (VS0_1.writes (Elt F) VS0_1.junk (kernelRun0_A c i arg2 harg2 arg3 harg3 arg4 harg4 arg5 harg5 hc0 hc1 x0).2.2.1)
/-- A middle column block stores nothing into the output window either. -/
def out0_B_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) : Vec F S512x1 .f32 :=
  VO0_1.read (Elt F) (VO0_1.writes (Elt F) VO0_1.junk (kernelRun0_B c i arg2 harg2 arg3 harg3 arg4 harg4 arg5 harg5 hc0 hc1 x0 xs0 xs1).1)
/-- The running maximum after a middle column block. -/
def sout0_B_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) : Vec F S512x1 .f32 :=
  VS0_0.read (Elt F) (VS0_0.writes (Elt F) VS0_0.junk (kernelRun0_B c i arg2 harg2 arg3 harg3 arg4 harg4 arg5 harg5 hc0 hc1 x0 xs0 xs1).2.1)
/-- The running sum after a middle column block. -/
def sout0_B_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i)
    (x0 : Vec F S512x3200 .f32) (xs0 : Vec F S512x1 .f32) (xs1 : Vec F S512x1 .f32) : Vec F S512x1 .f32 :=
  VS0_1.read (Elt F) (VS0_1.writes (Elt F) VS0_1.junk (kernelRun0_B c i arg2 harg2 arg3 harg3 arg4 harg4 arg5 harg5 hc0 hc1 x0 xs0 xs1).2.2.1)
/-- The output window after a last column block: the row block's log-sum-exp. -/
def out0_C_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) : Vec F S512x1 .f32 :=
  VO0_1.read (Elt F) (VO0_1.writes (Elt F) VO0_1.junk (kernelRun0_C c i arg2 harg2 arg3 harg3 arg4 harg4 arg5 harg5 hc0 hc1 x0 xs0 xs1).1)
/-- The running maximum after a last column block. -/
def sout0_C_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) : Vec F S512x1 .f32 :=
  VS0_0.read (Elt F) (VS0_0.writes (Elt F) VS0_0.junk (kernelRun0_C c i arg2 harg2 arg3 harg3 arg4 harg4 arg5 harg5 hc0 hc1 x0 xs0 xs1).2.1)
/-- The running sum after a last column block. -/
def sout0_C_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i)
    (x0 : Vec F S512x3200 .f32) (xs0 : Vec F S512x1 .f32) (xs1 : Vec F S512x1 .f32) : Vec F S512x1 .f32 :=
  VS0_1.read (Elt F) (VS0_1.writes (Elt F) VS0_1.junk (kernelRun0_C c i arg2 harg2 arg3 harg3 arg4 harg4 arg5 harg5 hc0 hc1 x0 xs0 xs1).2.2.1)

/-! ## Point by point -/

/-- (output window, running maximum, running sum) after a first column block at point `t`. -/
def ptA (c : Dev nD) (t : Fin cfg0.N) (h0 : t.val % 10 = 0) (h1 : ¬t.val % 10 = 9) : Vec F S512x1 .f32 × Vec F S512x1 .f32 × Vec F S512x1 .f32 :=
  (out0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t),
   sout0_A_0 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t),
   sout0_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t))

/-- The same after a middle column block, from the running maximum `p0` and sum `p1` the point before left. -/
def ptB (c : Dev nD) (t : Fin cfg0.N) (h0 : ¬t.val % 10 = 0) (h1 : ¬t.val % 10 = 9) (p0 p1 : Vec F S512x1 .f32) : Vec F S512x1 .f32 × Vec F S512x1 .f32 × Vec F S512x1 .f32 :=
  (out0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) p0 p1,
   sout0_B_0 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) p0 p1,
   sout0_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) p0 p1)

/-- The same after a last column block. -/
def ptC (c : Dev nD) (t : Fin cfg0.N) (h0 : ¬t.val % 10 = 0) (h1 : t.val % 10 = 9) (p0 p1 : Vec F S512x1 .f32) : Vec F S512x1 .f32 × Vec F S512x1 .f32 × Vec F S512x1 .f32 :=
  (out0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) p0 p1,
   sout0_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) p0 p1,
   sout0_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) p0 p1)

/-- THE ACCUMULATION: (output window, running maximum, running sum) after the body at position `n`. -/
def outsAt0 (c : Dev nD) : (n : ℕ) → n < cfg0.N → Vec F S512x1 .f32 × Vec F S512x1 .f32 × Vec F S512x1 .f32
  | 0, hn => ptA m c ⟨0, hn⟩ (Nat.zero_mod _) (fun h => by have h' : (0 : ℕ) % 10 = 9 := h; omega)
  | n + 1, hn =>
    if h0 : (n + 1) % 10 = 0 then ptA m c ⟨n + 1, hn⟩ h0 (fun h => by have h' : (n + 1) % 10 = 9 := h; omega)
    else if h1 : (n + 1) % 10 = 9 then
      ptC m c ⟨n + 1, hn⟩ h0 h1 (outsAt0 c n (Nat.lt_of_succ_lt hn)).2.1 (outsAt0 c n (Nat.lt_of_succ_lt hn)).2.2
    else
      ptB m c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 10 = 0) (h1 : ¬t.val % 10 = 9) :
    outsAt0 m c t.val t.isLt = ptA m c t h0 h1 := by
  obtain ⟨n, hn⟩ := t
  cases n with
  | zero => rfl
  | succ n => exact dif_pos h0

theorem outsAt0_B (c : Dev nD) (t : Fin cfg0.N) (h0 : ¬t.val % 10 = 0) (h1 : ¬t.val % 10 = 9) :
    outsAt0 m c t.val t.isLt = ptB m c t h0 h1 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 10 = 0) (h1 : t.val % 10 = 9) :
    outsAt0 m c t.val t.isLt = ptC m c t h0 h1 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h1)

/-- The region invariant before position `n`: before the first point the class's (the scratch buffers at anything);
    afterwards the two scratch buffers at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's memref holds its block; the point's position among its row block's ten column
    blocks says which case it is in; the invariant hands the body the scratch buffers (at anything at the very first
    point, at what the point before left afterwards) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 80 := lt_of_lt_of_eq t.isLt (show cfg0.N = 80 from N_0)
  rw [show (dats m 0 c).leavesExact 0 t = owns (c : Thread nD τ) (ms0_0 t) fullShare ((dats m 0 c).after 0 t) from by
    unfold Dat.leavesExact; rw [liveAt0_0 t], after0_0]
  by_cases h0 : t.val % 10 = 0
  · have h1 : ¬t.val % 10 = 9 := by omega
    rw [Dat.leavesExact_idle (dats m 0 c) 1 t (idleAt0_1 t (fun h => h1 ((hcond0_1 t).mp h))) (noFlush0_1 t (fun h => h1 ((hcond0_1 t).mp h)))]
    rw [outsAt0_A m c t h0 h1]
    unfold ptA sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩⟩
      iapply ((kernelRun0_A c (grid0.coords t) _ _ _ _ _ _ _ _ ((hcond0_0 t).mpr h0) (fun h => h1 ((hcond0_1 t).mp h)) (iblk m c 0 t)).2.2.2 _ Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _)
          · unfold owns; iexists _; isplitr
            swap; · iexact HS1
            ipureintro; exact View.read_writes_of_cover _ _ _ _ _ (scover0_A_1 c _ _ _ _ _ _ _ _ _ _ _ _)
        iexact Hg
      isplitl [Ho]; · iexact Ho
      isplitl [H0]; · iexact H0
      iexists _; iexact H1
    · rw [PhiS_castSucc m c t, PhiS_pos m c _ _ hz]
      iintro ⟨⟨⟨HS0, HS1⟩, Hg⟩, Ho, ⟨%d0, H0⟩, ⟨%d1, H1⟩⟩
      iapply ((kernelRun0_A c (grid0.coords t) _ _ _ _ _ _ _ _ ((hcond0_0 t).mpr h0) (fun h => h1 ((hcond0_1 t).mp h)) (iblk m c 0 t)).2.2.2 _ Set.univ _)
      isplitl [H0]; · iexact H0
      isplitl [H1]; · iexact H1
      isplitl [HS0]; · iexists _; iexact HS0
      isplitl [HS1]; · iexists _; iexact HS1
      iintro ⟨H0, H1, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _)
          · unfold owns; iexists _; isplitr
            swap; · iexact HS1
            ipureintro; exact View.read_writes_of_cover _ _ _ _ _ (scover0_A_1 c _ _ _ _ _ _ _ _ _ _ _ _)
        iexact Hg
      isplitl [Ho]; · iexact Ho
      isplitl [H0]; · iexact H0
      iexists _; iexact H1
  · have hz : t.val ≠ 0 := fun h => h0 (by rw [h])
    by_cases h1 : t.val % 10 = 9
    · rw [show (dats m 0 c).leavesExact 1 t = owns (c : Thread nD τ) (ms0_1 t) fullShare ((dats m 0 c).after 1 t) from by
        unfold Dat.leavesExact; rw [liveAt0_1 t ((hcond0_1 t).mpr h1)], after0_1]
      rw [outsAt0_C m c t h0 h1]
      unfold ptC out0_C_1 sout0_C_0 sout0_C_1; (try dsimp only)
      rw [PhiS_castSucc m c t, PhiS_pos m c _ _ hz]
      iintro ⟨⟨⟨HS0, HS1⟩, Hg⟩, Ho, ⟨%d0, H0⟩, ⟨%d1, H1⟩⟩
      iapply ((kernelRun0_C c (grid0.coords t) _ _ _ _ _ _ _ _ (fun h => h0 ((hcond0_0 t).mp h)) ((hcond0_1 t).mpr h1) (iblk m c 0 t) _ _).2.2.2 Set.univ _)
      isplitl [H0]; · iexact H0
      isplitl [H1]; · iexists _; iexact H1
      isplitl [HS0]; · iexact HS0
      isplitl [HS1]; · iexact HS1
      iintro ⟨H0, ⟨%e1, H1⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (cover0_C_o c _ _ _ _ _ _ _ _ _ _ _ _ _ _)
    · rw [Dat.leavesExact_idle (dats m 0 c) 1 t (idleAt0_1 t (fun h => h1 ((hcond0_1 t).mp h))) (noFlush0_1 t (fun h => h1 ((hcond0_1 t).mp h)))]
      rw [outsAt0_B m c t h0 h1]
      unfold ptB sout0_B_0 sout0_B_1; (try dsimp only)
      rw [PhiS_castSucc m c t, PhiS_pos m c _ _ hz]
      iintro ⟨⟨⟨HS0, HS1⟩, Hg⟩, Ho, ⟨%d0, H0⟩, ⟨%d1, H1⟩⟩
      iapply ((kernelRun0_B c (grid0.coords t) _ _ _ _ _ _ _ _ (fun h => h0 ((hcond0_0 t).mp h)) (fun h => h1 ((hcond0_1 t).mp h)) (iblk m c 0 t) _ _).2.2.2 _ Set.univ _)
      isplitl [H0]; · iexact H0
      isplitl [H1]; · iexact H1
      isplitl [HS0]; · iexact HS0
      isplitl [HS1]; · iexact HS1
      iintro ⟨H0, H1, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _)
        iexact Hg
      isplitl [Ho]; · iexact Ho
      isplitl [H0]; · iexact H0
      iexists _; iexact H1

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 80 := N_0; omega)

/-! ## The run and the frame -/

set_option backward.isDefEq.respectTransparency.types false in
/-- Every weakly fair execution of @main terminates, and every final state has the two arrays of the pipeline at what
    the proof data says and every other unscoped buffer as the host operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

end Cert.KernelIdeal.Fr

end
-- ==== Proof.KIClaim.lean ====
/-
  The frame of the streaming log-sum-exp program: @main terminates, nothing faults, and the seven argument arrays end
  unchanged — the logits because the pipeline only reads them, the other six because neither the region nor any
  host operation after it writes them.
-/
import proofs.«178677_j88021059764894_2_alg».proof.Proof.KIFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem tail_main_arg1 (c : Dev nD) :
    Pipeline.afterTail₀ cfgs (dats m) 0 (V0 m) tailOps c main_arg1 = m ((c.tc : Thread nD τ).loc main_arg1) := by
  unfold Pipeline.afterTail₀
  refine (StableHlo.after_of_forall_not_mem _ _ fun op hop => tail_keeps op hop main_arg1 (by simp [keptRefs])).trans ?_
  exact Pipeline.withArrays_of_ne spec0 c _ _ main_arg1 (by decide)

theorem tail_main_arg2 (c : Dev nD) :
    Pipeline.afterTail₀ cfgs (dats m) 0 (V0 m) tailOps c main_arg2 = m ((c.tc : Thread nD τ).loc main_arg2) := by
  unfold Pipeline.afterTail₀
  refine (StableHlo.after_of_forall_not_mem _ _ fun op hop => tail_keeps op hop main_arg2 (by simp [keptRefs])).trans ?_
  exact Pipeline.withArrays_of_ne spec0 c _ _ main_arg2 (by decide)

theorem tail_main_arg3 (c : Dev nD) :
    Pipeline.afterTail₀ cfgs (dats m) 0 (V0 m) tailOps c main_arg3 = m ((c.tc : Thread nD τ).loc main_arg3) := by
  unfold Pipeline.afterTail₀
  refine (StableHlo.after_of_forall_not_mem _ _ fun op hop => tail_keeps op hop main_arg3 (by simp [keptRefs])).trans ?_
  exact Pipeline.withArrays_of_ne spec0 c _ _ main_arg3 (by decide)

theorem tail_main_arg4 (c : Dev nD) :
    Pipeline.afterTail₀ cfgs (dats m) 0 (V0 m) tailOps c main_arg4 = m ((c.tc : Thread nD τ).loc main_arg4) := by
  unfold Pipeline.afterTail₀
  refine (StableHlo.after_of_forall_not_mem _ _ fun op hop => tail_keeps op hop main_arg4 (by simp [keptRefs])).trans ?_
  exact Pipeline.withArrays_of_ne spec0 c _ _ main_arg4 (by decide)

theorem tail_main_arg5 (c : Dev nD) :
    Pipeline.afterTail₀ cfgs (dats m) 0 (V0 m) tailOps c main_arg5 = m ((c.tc : Thread nD τ).loc main_arg5) := by
  unfold Pipeline.afterTail₀
  refine (StableHlo.after_of_forall_not_mem _ _ fun op hop => tail_keeps op hop main_arg5 (by simp [keptRefs])).trans ?_
  exact Pipeline.withArrays_of_ne spec0 c _ _ main_arg5 (by decide)

theorem tail_main_arg6 (c : Dev nD) :
    Pipeline.afterTail₀ cfgs (dats m) 0 (V0 m) tailOps c main_arg6 = m ((c.tc : Thread nD τ).loc main_arg6) := by
  unfold Pipeline.afterTail₀
  refine (StableHlo.after_of_forall_not_mem _ _ fun op hop => tail_keeps op hop main_arg6 (by simp [keptRefs])).trans ?_
  exact Pipeline.withArrays_of_ne spec0 c _ _ main_arg6 (by decide)

/-- THE FRAME, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (tail_main_arg1 m c),
      ((h c).2 main_arg2 (Pipeline.mem_restRefs_of main_arg2 (by decide) (by decide))).trans (tail_main_arg2 m c),
      ((h c).2 main_arg3 (Pipeline.mem_restRefs_of main_arg3 (by decide) (by decide))).trans (tail_main_arg3 m c),
      ((h c).2 main_arg4 (Pipeline.mem_restRefs_of main_arg4 (by decide) (by decide))).trans (tail_main_arg4 m c),
      ((h c).2 main_arg5 (Pipeline.mem_restRefs_of main_arg5 (by decide) (by decide))).trans (tail_main_arg5 m c),
      ((h c).2 main_arg6 (Pipeline.mem_restRefs_of main_arg6 (by decide) (by decide))).trans (tail_main_arg6 m c)⟩) (run_main m ρ)

end Cert.KernelIdeal.Fr

end
-- ==== Proof.Spec.lean ====
/-
  The loss as mathematics, on the extended reals. A batch row has a target column and, through two
  class tables, two correlated columns; from the row's three softmax probabilities, its two weights and
  the temperature the loss forms four per-row terms, and the four results are their sums over the rows
  (the first divided by the number of rows). Stated once here so that both programs can be read against
  the same functions.
-/
import Idealize.ShloMosaic.PureOps.Ideal
import Idealize.ShloMosaic.Lib.ValueIdx

noncomputable section

namespace Cert.Spec

open Idealize.ShloMosaic Idealize.ShloMosaic.ValueIdx

/-- The column an index word names when it lies in 0 … 31999 (larger words are sent to the last column). -/
def col (w : BitVec 32) : Fin 32000 := ⟨min w.toNat 31999, by omega⟩

/-- An index word lies in the table: 0 ≤ w < 32000 as a signed number. -/
def InRange (w : BitVec 32) : Prop := w.toNat < 32000

/-- The row's maximum logit. -/
def rowMax (x : (⟨2, ![4096, 32000]⟩ : Shape).Idx → EReal) (r : Fin 4096) : EReal :=
  Finset.univ.fold max ⊥ fun j : Fin 32000 => x (ix2 r j)

/-- The row's sum of exponentials of the logits shifted by the maximum. -/
def rowSum (x : (⟨2, ![4096, 32000]⟩ : Shape).Idx → EReal) (r : Fin 4096) : EReal :=
  ∑ j : Fin 32000, Ideal.exp (x (ix2 r j) - rowMax x r)

/-- The correction term T·(x₁·P₁ + x₂·P₂). -/
def corr (T x1 P1 x2 P2 : EReal) : EReal :=
  FloatOps.mulf (F := Ideal) (φ := .f32) T (FloatOps.addf (F := Ideal) (φ := .f32) (FloatOps.mulf (F := Ideal) (φ := .f32) x1 P1) (FloatOps.mulf (F := Ideal) (φ := .f32) x2 P2))

/-- Is the target's probability above the correction? -/
def above (pt c : EReal) : BitVec 1 := FloatOps.cmpf (F := Ideal) (φ := .f32) .ogt pt c

/-- The row's loss: −log(p_t − corr) when p_t is above the correction, −log p_t otherwise. -/
def lossTerm (pt c : EReal) : EReal :=
  Scalar.select (above pt c)
    (FloatOps.hostNegf (F := Ideal) (φ := .f32) (FloatOps.hostUnary (F := Ideal) (φ := .f32) .log
      (Scalar.select (above pt c) (FloatOps.subf (F := Ideal) (φ := .f32) pt c) (Ideal.ofBits .f32 0x3F800000#32))))
    (FloatOps.hostNegf (F := Ideal) (φ := .f32) (FloatOps.hostUnary (F := Ideal) (φ := .f32) .log pt))

/-- The row counts as corrected: above the correction, and one of the two correlated probabilities non-zero. -/
def corrected (pt c P1 P2 : EReal) : BitVec 1 :=
  IntOp.andi (above pt c)
    (IntOp.ori (FloatOps.cmpf (F := Ideal) (φ := .f32) .une P1 (Ideal.ofBits .f32 0x00000000#32))
      (FloatOps.cmpf (F := Ideal) (φ := .f32) .une P2 (Ideal.ofBits .f32 0x00000000#32)))

/-- The corrected rows' count term. -/
def kTerm (pt c P1 P2 : EReal) : EReal := FloatOps.uitofp (F := Ideal) .f32 (corrected pt c P1 P2)

/-- The corrected rows' ratio p_t / corr. -/
def zTerm (pt c P1 P2 : EReal) : EReal :=
  Scalar.select (corrected pt c P1 P2)
    (FloatOps.hostDivf (F := Ideal) (φ := .f32) pt (Scalar.select (corrected pt c P1 P2) c (Ideal.ofBits .f32 0x3F800000#32)))
    (Ideal.ofBits .f32 0x00000000#32)

/-- The rows not above the correction, counted. -/
def jTerm (pt c : EReal) : EReal := FloatOps.uitofp (F := Ideal) .f32 (~~~(above pt c))

/-- A row's three probabilities, two weights and the temperature. -/
structure Row where
  pt : EReal
  P1 : EReal
  P2 : EReal
  x1 : EReal
  x2 : EReal
  T : EReal

def Row.c (ρ : Row) : EReal := corr ρ.T ρ.x1 ρ.P1 ρ.x2 ρ.P2

/-- The four results from the rows: mean loss, corrected count, sum of ratios, uncorrected count. -/
def resLoss (rows : Fin 4096 → Row) : EReal :=
  FloatOps.hostDivf (F := Ideal) (φ := .f32) (Ideal.ofBits .f32 0x00000000#32 + ∑ r : Fin 4096, lossTerm (rows r).pt (rows r).c) (Ideal.ofBits .f32 0x45800000#32)
def resK (rows : Fin 4096 → Row) : EReal :=
  Ideal.ofBits .f32 0x00000000#32 + ∑ r : Fin 4096, kTerm (rows r).pt (rows r).c (rows r).P1 (rows r).P2
def resZ (rows : Fin 4096 → Row) : EReal :=
  Ideal.ofBits .f32 0x00000000#32 + ∑ r : Fin 4096, zTerm (rows r).pt (rows r).c (rows r).P1 (rows r).P2
def resJ (rows : Fin 4096 → Row) : EReal :=
  Ideal.ofBits .f32 0x00000000#32 + ∑ r : Fin 4096, jTerm (rows r).pt (rows r).c

/-- The columns a row reads: its target, and the two classes the tables give for the target. -/
def tcol (tgt : (⟨1, ![4096]⟩ : Shape).Idx → BitVec 32) (r : Fin 4096) : Fin 32000 := col (tgt (ix1 r))
def ycol (Y : (⟨2, ![1, 32000]⟩ : Shape).Idx → BitVec 32) (tgt : (⟨1, ![4096]⟩ : Shape).Idx → BitVec 32) (r : Fin 4096) : Fin 32000 :=
  col (Y (ix2 0 (tcol tgt r)))

/-- A row as the kernel's program forms it: each probability is exp(logit − lse), lse the row's log-sum-exp as
    the streaming pass leaves it. -/
def kerRow (lse : Fin 4096 → EReal) (x : (⟨2, ![4096, 32000]⟩ : Shape).Idx → EReal)
    (tgt : (⟨1, ![4096]⟩ : Shape).Idx → BitVec 32) (X1 : (⟨2, ![1, 32000]⟩ : Shape).Idx → EReal)
    (Y1 : (⟨2, ![1, 32000]⟩ : Shape).Idx → BitVec 32) (X2 : (⟨2, ![1, 32000]⟩ : Shape).Idx → EReal)
    (Y2 : (⟨2, ![1, 32000]⟩ : Shape).Idx → BitVec 32) (T : (⟨1, ![1]⟩ : Shape).Idx → EReal) (r : Fin 4096) : Row where
  pt := FloatOps.hostUnary (F := Ideal) (φ := .f32) .exp (FloatOps.subf (F := Ideal) (φ := .f32) (x (ix2 r (tcol tgt r))) (lse r))
  P1 := FloatOps.hostUnary (F := Ideal) (φ := .f32) .exp (FloatOps.subf (F := Ideal) (φ := .f32) (x (ix2 r (ycol Y1 tgt r))) (lse r))
  P2 := FloatOps.hostUnary (F := Ideal) (φ := .f32) .exp (FloatOps.subf (F := Ideal) (φ := .f32) (x (ix2 r (ycol Y2 tgt r))) (lse r))
  x1 := X1 (ix2 0 (tcol tgt r))
  x2 := X2 (ix2 0 (tcol tgt r))
  T := T (ix1 0)

/-- A row as the reference forms it: each probability is exp((logit − max) − log Σ exp(logit − max)). -/
def refRow (x : (⟨2, ![4096, 32000]⟩ : Shape).Idx → EReal)
    (tgt : (⟨1, ![4096]⟩ : Shape).Idx → BitVec 32) (X1 : (⟨2, ![1, 32000]⟩ : Shape).Idx → EReal)
    (Y1 : (⟨2, ![1, 32000]⟩ : Shape).Idx → BitVec 32) (X2 : (⟨2, ![1, 32000]⟩ : Shape).Idx → EReal)
    (Y2 : (⟨2, ![1, 32000]⟩ : Shape).Idx → BitVec 32) (T : (⟨1, ![1]⟩ : Shape).Idx → EReal) (r : Fin 4096) : Row where
  pt := FloatOps.hostUnary (F := Ideal) (φ := .f32) .exp (FloatOps.subf (F := Ideal) (φ := .f32) (FloatOps.subf (F := Ideal) (φ := .f32) (x (ix2 r (tcol tgt r))) (rowMax x r)) (FloatOps.hostUnary (F := Ideal) (φ := .f32) .log (rowSum x r)))
  P1 := FloatOps.hostUnary (F := Ideal) (φ := .f32) .exp (FloatOps.subf (F := Ideal) (φ := .f32) (FloatOps.subf (F := Ideal) (φ := .f32) (x (ix2 r (ycol Y1 tgt r))) (rowMax x r)) (FloatOps.hostUnary (F := Ideal) (φ := .f32) .log (rowSum x r)))
  P2 := FloatOps.hostUnary (F := Ideal) (φ := .f32) .exp (FloatOps.subf (F := Ideal) (φ := .f32) (FloatOps.subf (F := Ideal) (φ := .f32) (x (ix2 r (ycol Y2 tgt r))) (rowMax x r)) (FloatOps.hostUnary (F := Ideal) (φ := .f32) .log (rowSum x r)))
  x1 := X1 (ix2 0 (tcol tgt r))
  x2 := X2 (ix2 0 (tcol tgt r))
  T := T (ix1 0)

/-- The log-sum-exp of a row, as the streaming pass forms it: max + log Σ exp(logit − max). -/
def lseOf (x : (⟨2, ![4096, 32000]⟩ : Shape).Idx → EReal) (r : Fin 4096) : EReal :=
  rowMax x r + Ideal.log (rowSum x r)

end Cert.Spec

end
-- ==== Proof.KerTailWords.lean ====
/-
  The kernel program's host tail, 1: what its index words, its two gathers and its layout operations read.
  A class index is a 32-bit word; in range (0 … 31999) the wrap of negative indices leaves it alone, the
  bounds mask is all ones, and a gather's clamp yields the column the word names. The class-table gather and
  the logit gather are read at a row, the broadcasts, the joined index columns and the reshapes at an index,
  and the host's sum over a column as a sum over the rows.
-/
import proofs.«178677_j88021059764894_2_alg».proof.Proof.Gen.KernelIdeal.Launch
import proofs.«178677_j88021059764894_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KerTail

open Cert.KernelIdeal Cert.KernelIdeal.Gen Idealize.ShloMosaic Idealize.ShloMosaic.ValueIdx Idealize.ShloMosaic.StableHlo

/-! ## Index words in range

A class index arrives as a 32-bit word. When it lies in 0 … 31999 the wrap of a negative index
(`w < 0 ? w + 32000 : w`) leaves it alone, the bounds test `0 ≤ w ≤ 31999` holds, and the clamp a gather
applies to its start index gives the column the word names. -/

section Words

variable {w : BitVec 32}

theorem toInt_of_inRange (h : Cert.Spec.InRange w) : w.toInt = (w.toNat : Int) := by
  unfold Cert.Spec.InRange at h
  rw [BitVec.toInt_eq_toNat_cond, if_pos (by omega)]

theorem slt_zero_of_inRange (h : Cert.Spec.InRange w) : IntOp.cmpi .slt w 0#32 = 0#1 := by
  have ht := toInt_of_inRange h
  unfold IntOp.cmpi
  have : w.slt 0#32 = false := by
    rw [BitVec.slt, ht]; simp
  simp only [this]; rfl

/-- The wrap of a negative index leaves a word in range alone. -/
theorem wrap_of_inRange (h : Cert.Spec.InRange w) :
    Scalar.select (IntOp.cmpi .slt w 0#32) (IntOp.addi w 32000#32) w = w := by
  rw [slt_zero_of_inRange h]; exact select_zero _ _

theorem sge_zero_of_inRange (h : Cert.Spec.InRange w) : IntOp.cmpi .sge w 0#32 = 1#1 := by
  have ht := toInt_of_inRange h
  unfold IntOp.cmpi
  have : (0#32 : BitVec 32).sle w = true := by
    rw [BitVec.sle, ht]; simp
  simp only [this]; rfl

theorem sle_last_of_inRange (h : Cert.Spec.InRange w) : IntOp.cmpi .sle w 31999#32 = 1#1 := by
  have ht := toInt_of_inRange h
  unfold Cert.Spec.InRange at h
  unfold IntOp.cmpi
  have : w.sle 31999#32 = true := by
    rw [BitVec.sle, ht]; simp; omega
  simp only [this]; rfl

/-- The bounds test of a word in range is all ones. -/
theorem inBounds_of_inRange (h : Cert.Spec.InRange w) :
    IntOp.andi (IntOp.cmpi .sge w 0#32) (IntOp.cmpi .sle w 31999#32) = 1#1 := by
  rw [sge_zero_of_inRange h, sle_last_of_inRange h]; rfl

/-- A gather's clamp of a word in range is the column the word names. -/
theorem clamp_of_inRange (h : Cert.Spec.InRange w) : min w.toInt.toNat 31999 = (Cert.Spec.col w).val := by
  rw [toInt_of_inRange h]; rfl

end Words

/-! ## The two gathers read at a row -/

section Gathers

variable {α : Type}

/-- The class-table gather: row `r` reads the one-row table at the column its start index `idx[r, 1]` names, clamped
    (the start index's first component is clamped to the table's only row). -/
theorem gatherTable_apply (x : S1x32000.Idx → α) (idx : IVec S4096x2 32) (r : Fin 4096) :
    Host.gather gather_S1x32000_S4096x2_S4096_n_01_n_n_01_1_11 x idx (ix1 r)
      = x (ix2 0 ⟨min (idx (ix2 r 1)).toInt.toNat 31999, by omega⟩) := by
  unfold Host.gather
  congr 1
  have key : ∀ a : Fin 2, (gather_S1x32000_S4096x2_S4096_n_01_n_n_01_1_11.operandIdx (ix1 r) idx a).val
      = ((ix2 0 ⟨min (idx (ix2 r 1)).toInt.toNat 31999, by omega⟩ : S1x32000.Idx) a).val := by
    refine Fin.forall_fin_two.mpr ⟨?_, ?_⟩
    · show gather_S1x32000_S4096x2_S4096_n_01_n_n_01_1_11.start (ix1 r) idx 0
        + gather_S1x32000_S4096x2_S4096_n_01_n_n_01_1_11.batchCoord (ix1 r) 0
        + gather_S1x32000_S4096x2_S4096_n_01_n_n_01_1_11.offCoord (ix1 r) 0 = 0
      rw [GatherDims.batchCoord_eq_zero _ _ _ List.not_mem_nil,
        GatherDims.offCoord_eq_zero _ _ _ (fun h => ((GatherDims.mem_sKept _ _).mp h).1 (by decide))]
      simp only [Nat.add_zero]
      have := gather_S1x32000_S4096x2_S4096_n_01_n_n_01_1_11.start_le (ix1 r) idx 0
      have h1 : S1x32000.size 0 - gather_S1x32000_S4096x2_S4096_n_01_n_n_01_1_11.sliceSizes 0 = 0 := rfl
      omega
    · show gather_S1x32000_S4096x2_S4096_n_01_n_n_01_1_11.start (ix1 r) idx 1
        + gather_S1x32000_S4096x2_S4096_n_01_n_n_01_1_11.batchCoord (ix1 r) 1
        + gather_S1x32000_S4096x2_S4096_n_01_n_n_01_1_11.offCoord (ix1 r) 1 = min (idx (ix2 r 1)).toInt.toNat 31999
      rw [GatherDims.batchCoord_eq_zero _ _ _ List.not_mem_nil,
        GatherDims.offCoord_eq_zero _ _ _ (fun h => ((GatherDims.mem_sKept _ _).mp h).1 (by decide))]
      simp only [Nat.add_zero]
      unfold GatherDims.start
      rw [dif_pos (show (1 : Fin 2) ∈ gather_S1x32000_S4096x2_S4096_n_01_n_n_01_1_11.startIndexMap from by decide)]
      have hsi : gather_S1x32000_S4096x2_S4096_n_01_n_n_01_1_11.siIdx (ix1 r)
          ⟨List.idxOf (1 : Fin 2) gather_S1x32000_S4096x2_S4096_n_01_n_n_01_1_11.startIndexMap,
            List.idxOf_lt_length_iff.2 (by decide)⟩ = ix2 r 1 := by
        funext b; refine Fin.ext ?_
        match b with
        | ⟨0, _⟩ => rfl
        | ⟨1, _⟩ => rfl
      rw [hsi]
      rfl
  exact funext fun a => Fin.ext (key a)

/-- The logit gather: row `r` reads its own row of the logits (the batching axis) at the column its start index
    `idx[r, 0, 0]` names, clamped. -/
theorem gatherRow_apply (x : S4096x32000.Idx → α) (idx : IVec S4096x1x1 32) (r : Fin 4096) :
    Host.gather gather_S4096x32000_S4096x1x1_S4096x1_n_1_0_0_1_2_11 x idx (ix2 r 0)
      = x (ix2 r ⟨min (idx (ix3 r 0 0)).toInt.toNat 31999, by omega⟩) := by
  unfold Host.gather
  congr 1
  have key : ∀ a : Fin 2, (gather_S4096x32000_S4096x1x1_S4096x1_n_1_0_0_1_2_11.operandIdx (ix2 r 0) idx a).val
      = ((ix2 r ⟨min (idx (ix3 r 0 0)).toInt.toNat 31999, by omega⟩ : S4096x32000.Idx) a).val := by
    refine Fin.forall_fin_two.mpr ⟨?_, ?_⟩
    · show gather_S4096x32000_S4096x1x1_S4096x1_n_1_0_0_1_2_11.start (ix2 r 0) idx 0
        + gather_S4096x32000_S4096x1x1_S4096x1_n_1_0_0_1_2_11.batchCoord (ix2 r 0) 0
        + gather_S4096x32000_S4096x1x1_S4096x1_n_1_0_0_1_2_11.offCoord (ix2 r 0) 0 = r.val
      rw [GatherDims.start_batching _ _ _ _ (by decide),
        GatherDims.offCoord_eq_zero _ _ _ (fun h => ((GatherDims.mem_sKept _ _).mp h).2 (by decide))]
      simp only [Nat.add_zero, Nat.zero_add]
      unfold GatherDims.batchCoord
      rw [dif_pos (show (0 : Fin 2) ∈ gather_S4096x32000_S4096x1x1_S4096x1_n_1_0_0_1_2_11.operandBatchingDims from by decide)]
      rfl
    · show gather_S4096x32000_S4096x1x1_S4096x1_n_1_0_0_1_2_11.start (ix2 r 0) idx 1
        + gather_S4096x32000_S4096x1x1_S4096x1_n_1_0_0_1_2_11.batchCoord (ix2 r 0) 1
        + gather_S4096x32000_S4096x1x1_S4096x1_n_1_0_0_1_2_11.offCoord (ix2 r 0) 1 = min (idx (ix3 r 0 0)).toInt.toNat 31999
      rw [GatherDims.batchCoord_eq_zero _ _ _ (by decide),
        GatherDims.offCoord_eq_zero _ _ _ (fun h => ((GatherDims.mem_sKept _ _).mp h).1 (by decide))]
      simp only [Nat.add_zero]
      unfold GatherDims.start
      rw [dif_pos (show (1 : Fin 2) ∈ gather_S4096x32000_S4096x1x1_S4096x1_n_1_0_0_1_2_11.startIndexMap from by decide)]
      have hsi : gather_S4096x32000_S4096x1x1_S4096x1_n_1_0_0_1_2_11.siIdx (ix2 r 0)
          ⟨List.idxOf (1 : Fin 2) gather_S4096x32000_S4096x1x1_S4096x1_n_1_0_0_1_2_11.startIndexMap,
            List.idxOf_lt_length_iff.2 (by decide)⟩ = ix3 r 0 0 := by
        funext b; refine Fin.ext ?_
        match b with
        | ⟨0, _⟩ => rfl
        | ⟨1, _⟩ => rfl
        | ⟨2, _⟩ => rfl
      rw [hsi]
      rfl
  exact funext fun a => Fin.ext (key a)

end Gathers

/-! ## A conjunction of ones, the casts of a typed reference, the reshapes -/

section Misc

/-- An `and`-reduction whose operand and initial value are all ones is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize (List.finRange s.numel).filter (fun n => h.drop (s.rowMajor.symm n) = j) = l
  induction l with
  | nil => rfl
  | cons n l ih =>
    rw [List.foldl_cons, hx]
    exact ih

variable {Val : EltTy → Type}

/-- Contents carried to a typed reference's buffer and back are the contents. -/
theorem ofBuf_toBuf {T : BufTy} (x : TRef sig T) (v : T.Contents Val) : x.ofBuf (x.toBuf v) = v := by
  obtain ⟨r, rfl, _, _⟩ := x
  rfl

end Misc

/-! ## Layout operations of the tail read at a row -/

section Layout

variable {α : Type}

/-- A scalar broadcast reads the scalar. -/
theorem bcastScalar_apply {t : Shape} (dims : Fin S_.rank → Fin t.rank) (h : S_.BroadcastsInDim t dims)
    (x : S_.Idx → α) (j : t.Idx) : broadcastInDim t dims h x j = x ix0 :=
  broadcastInDim_apply dims h x j ix0 (fun a => a.elim0)

/-- A vector broadcast to a column reads the vector at the row. -/
theorem bcastCol_apply (x : S4096.Idx → α) (r : Fin 4096) (c : Fin 1) :
    broadcastInDim S4096x1 ![0] bcast_S4096_S4096x1_0 x (ix2 r c) = x (ix1 r) :=
  broadcastInDim_apply _ bcast_S4096_S4096x1_0 x (ix2 r c) (ix1 r) (fun a => match a with
    | ⟨0, _⟩ => by show r.val = if (4096 : Nat) = 1 then 0 else r.val; rw [if_neg (by decide)])

theorem bcastLast_apply (x : S1.Idx → α) (j : S1x1x1.Idx) :
    broadcastInDim S1x1x1 ![2] bcast_S1_S1x1x1_2 x j = x (ix1 0) :=
  broadcastInDim_apply _ bcast_S1_S1x1x1_2 x j (ix1 0) (fun a => match a with
    | ⟨0, _⟩ => by show 0 = if (1 : Nat) = 1 then 0 else (j 2).val; rw [if_pos rfl])

theorem bcastUnit3_apply (x : S1x1x1.Idx → α) (j : S4096x1x1.Idx) :
    broadcastInDim S4096x1x1 ![0, 1, 2] bcast_S1x1x1_S4096x1x1_0_1_2 x j = x (ix3 0 0 0) :=
  broadcastInDim_apply _ bcast_S1x1x1_S4096x1x1_0_1_2 x j (ix3 0 0 0) (fun a => match a with
    | ⟨0, _⟩ => by show 0 = if (1 : Nat) = 1 then 0 else (j 0).val; rw [if_pos rfl]
    | ⟨1, _⟩ => by show 0 = if (1 : Nat) = 1 then 0 else (j 1).val; rw [if_pos rfl]
    | ⟨2, _⟩ => by show 0 = if (1 : Nat) = 1 then 0 else (j 2).val; rw [if_pos rfl])

theorem bcastUnit2_apply (x : S1x1.Idx → α) (j : S4096x1.Idx) :
    broadcastInDim S4096x1 ![0, 1] bcast_S1x1_S4096x1_0_1 x j = x (ix2 0 0) :=
  broadcastInDim_apply _ bcast_S1x1_S4096x1_0_1 x j (ix2 0 0) (fun a => match a with
    | ⟨0, _⟩ => by show 0 = if (1 : Nat) = 1 then 0 else (j 0).val; rw [if_pos rfl]
    | ⟨1, _⟩ => by show 0 = if (1 : Nat) = 1 then 0 else (j 1).val; rw [if_pos rfl])

/-- The second column of a pair of columns joined side by side. -/
theorem concatPair_right (a b : S4096x1.Idx → α) (r : Fin 4096) :
    concatenate S4096x2 1 [⟨S4096x1, a⟩, ⟨S4096x1, b⟩] concatenates_S4096x1_S4096x1_S4096x2_d1 (ix2 r 1) = b (ix2 r 0) :=
by
  refine concatenate_pair_apply_right (t := S4096x2) (s₁ := S4096x1) (s₂ := S4096x1) (1 : Fin 2) a b
    concatenates_S4096x1_S4096x1_S4096x2_d1 (ix2 r 1) rfl rfl (ix2 r 0) ?_ ?_
  · intro b' hb
    match b', hb with
    | ⟨0, _⟩, _ => rfl
    | ⟨1, _⟩, hb => exact absurd rfl hb
  · rfl

/-- A column reshaped to a unit third axis reads the column at the row. -/
theorem reshapeCol_apply (x : S4096x1.Idx → α) (r : Fin 4096) :
    shapeCast S4096x1x1 x shapeCasts_S4096x1_S4096x1x1 (ix3 r 0 0) = x (ix2 r 0) :=
  shapeCast_apply x _ (ix3 r 0 0) (ix2 r 0) (by
    rw [Shape.rowMajor_val_two, Shape.rowMajor_val_three]
    show r.val * 1 + 0 = (r.val * 1 + 0) * 1 + 0
    omega)

theorem reshapeUnit_apply (x : S1.Idx → α) :
    shapeCast S1x1 x shapeCasts_S1_S1x1 (ix2 0 0) = x (ix1 0) :=
  shapeCast_apply x _ (ix2 0 0) (ix1 0) (by
    rw [Shape.rowMajor_val_one, Shape.rowMajor_val_two]
    rfl)

/-- A column's index is its row and the one column. -/
theorem eq_ix2_col (i : S4096x1.Idx) : i = ix2 (i 0) 0 := by
  have h1 : (i 1).val < 1 := (i 1).isLt
  have e1 : i 1 = (0 : Fin 1) := Fin.ext (by show (i 1).val = 0; omega)
  conv_lhs => rw [eq_ix2 i, e1]
  rfl

theorem eq_ix3_col (i : S4096x1x1.Idx) : i = ix3 (i 0) 0 0 := by
  have h1 : (i 1).val < 1 := (i 1).isLt
  have h2 : (i 2).val < 1 := (i 2).isLt
  have e1 : i 1 = (0 : Fin 1) := Fin.ext (by show (i 1).val = 0; omega)
  have e2 : i 2 = (0 : Fin 1) := Fin.ext (by show (i 2).val = 0; omega)
  conv_lhs => rw [eq_ix3 i, e1, e2]
  rfl

/-- Every index of a column, or of a column with a unit third axis, is a row's. -/
theorem exists_ix2_col (i : S4096x1.Idx) : ∃ r : Fin 4096, i = ix2 r 0 := ⟨i 0, eq_ix2_col i⟩
theorem exists_ix3_col (i : S4096x1x1.Idx) : ∃ r : Fin 4096, i = ix3 r 0 0 := ⟨i 0, eq_ix3_col i⟩

end Layout

/-! ## The tail's two index patterns

A table look-up `Y[0, tgt]`: the index column is the wrapped target beside a zero column, the gather clamps.
A `take_along_axis` of the logits along the class axis: the wrapped index column reshaped to a unit third axis, a
bounds mask reduced over that axis selecting the gathered logit or a filler. With every index word in range the first
reads the table at the word's column, and the second reads the row's logit at the word's column (the filler is never
taken). -/

section Patterns

variable {α : Type}

/-- The wrap of a vector of words in range, read at a row. -/
theorem wrapVec_apply (tgt : IVec S4096 32) (h : ∀ i, Cert.Spec.InRange (tgt i)) (i : S4096.Idx) :
    (select (cmpi .slt tgt (broadcastInDim S4096 ![] bcast_S_S4096 (constantI S_ 32 0#32)))
      (addi tgt (broadcastInDim S4096 ![] bcast_S_S4096 (constantI S_ 32 32000#32))) tgt) i = tgt i := by
  show Scalar.select (IntOp.cmpi .slt (tgt i) (broadcastInDim S4096 ![] bcast_S_S4096 (constantI S_ 32 0#32) i))
      (IntOp.addi (tgt i) (broadcastInDim S4096 ![] bcast_S_S4096 (constantI S_ 32 32000#32) i)) (tgt i) = tgt i
  rw [bcastScalar_apply, bcastScalar_apply]
  exact wrap_of_inRange (h i)

/-- The wrap of a column of words in range, read at a row. -/
theorem wrapCol_apply (c : IVec S4096x1 32) (h : ∀ i, Cert.Spec.InRange (c i)) (i : S4096x1.Idx) :
    (select (cmpi .slt c (broadcastInDim S4096x1 ![] bcast_S_S4096x1 (constantI S_ 32 0#32)))
      (addi c (broadcastInDim S4096x1 ![] bcast_S_S4096x1 (constantI S_ 32 32000#32))) c) i = c i := by
  show Scalar.select (IntOp.cmpi .slt (c i) (broadcastInDim S4096x1 ![] bcast_S_S4096x1 (constantI S_ 32 0#32) i))
      (IntOp.addi (c i) (broadcastInDim S4096x1 ![] bcast_S_S4096x1 (constantI S_ 32 32000#32) i)) (c i) = c i
  rw [bcastScalar_apply, bcastScalar_apply]
  exact wrap_of_inRange (h i)

/-- The table look-up at a row: the table at the column the row's index word names. -/
theorem tableRead (x : S1x32000.Idx → α) (a b : IVec S4096x1 32) (w : Fin 4096 → BitVec 32)
    (hb : ∀ r, b (ix2 r 0) = w r) (h : ∀ r, Cert.Spec.InRange (w r)) (r : Fin 4096) :
    Host.gather gather_S1x32000_S4096x2_S4096_n_01_n_n_01_1_11 x
        (concatenate S4096x2 1 [⟨S4096x1, a⟩, ⟨S4096x1, b⟩] concatenates_S4096x1_S4096x1_S4096x2_d1) (ix1 r)
      = x (ix2 0 (Cert.Spec.col (w r))) := by
  have e : concatenate S4096x2 1 [⟨S4096x1, a⟩, ⟨S4096x1, b⟩] concatenates_S4096x1_S4096x1_S4096x2_d1 (ix2 r 1) = w r :=
    (concatPair_right a b r).trans (hb r)
  rw [gatherTable_apply]
  refine congrArg (fun c => x (ix2 0 c)) (Fin.ext ?_)
  show min (concatenate S4096x2 1 [⟨S4096x1, a⟩, ⟨S4096x1, b⟩] concatenates_S4096x1_S4096x1_S4096x2_d1 (ix2 r 1)).toInt.toNat 31999 = _
  rw [e]
  exact clamp_of_inRange (h r)

/-- The `take_along_axis` at a row: the row's logit at the column the row's index word names. -/
theorem takeRead (x : S4096x32000.Idx → α) (v5 : IVec S4096x1x1 32) (nan : S4096x1.Idx → α) (w : Fin 4096 → BitVec 32)
    (hv5 : ∀ r, v5 (ix3 r 0 0) = w r) (h : ∀ r, Cert.Spec.InRange (w r)) (r : Fin 4096) :
    select (Host.reduce IntOp.andi
        (andi (cmpi .sge v5 (broadcastInDim S4096x1x1 ![] bcast_S_S4096x1x1 (constantI S_ 32 0#32)))
          (cmpi .sle v5 (broadcastInDim S4096x1x1 ![0, 1, 2] bcast_S1x1x1_S4096x1x1_0_1_2
            (broadcastInDim S1x1x1 ![2] bcast_S1_S1x1x1_2 (constantI S1 32 31999#32)))))
        (constantI S_ 1 1#1) reducesTo_S4096x1x1_S4096x1_d2 h_S_)
      (Host.gather gather_S4096x32000_S4096x1x1_S4096x1_n_1_0_0_1_2_11 x v5) nan (ix2 r 0)
      = x (ix2 r (Cert.Spec.col (w r))) := by
  have hmask : ∀ i, (andi (cmpi .sge v5 (broadcastInDim S4096x1x1 ![] bcast_S_S4096x1x1 (constantI S_ 32 0#32)))
          (cmpi .sle v5 (broadcastInDim S4096x1x1 ![0, 1, 2] bcast_S1x1x1_S4096x1x1_0_1_2
            (broadcastInDim S1x1x1 ![2] bcast_S1_S1x1x1_2 (constantI S1 32 31999#32))))) i = 1#1 := fun i => by
    obtain ⟨q, rfl⟩ := exists_ix3_col i
    show IntOp.andi (IntOp.cmpi .sge (v5 (ix3 q 0 0))
          (broadcastInDim S4096x1x1 ![] bcast_S_S4096x1x1 (constantI S_ 32 0#32) (ix3 q 0 0)))
        (IntOp.cmpi .sle (v5 (ix3 q 0 0)) (broadcastInDim S4096x1x1 ![0, 1, 2] bcast_S1x1x1_S4096x1x1_0_1_2
            (broadcastInDim S1x1x1 ![2] bcast_S1_S1x1x1_2 (constantI S1 32 31999#32)) (ix3 q 0 0))) = 1#1
    rw [hv5, bcastScalar_apply, bcastUnit3_apply, bcastLast_apply]
    exact inBounds_of_inRange (h _)
  show Scalar.select (Host.reduce IntOp.andi _ (constantI S_ 1 1#1) reducesTo_S4096x1x1_S4096x1_d2 h_S_ (ix2 r 0))
      (Host.gather gather_S4096x32000_S4096x1x1_S4096x1_n_1_0_0_1_2_11 x v5 (ix2 r 0)) (nan (ix2 r 0)) = _
  rw [reduce_andi_ones _ (constantI S_ 1 1#1) _ _ hmask (fun _ => rfl), select_one, gatherRow_apply]
  refine congrArg (fun c => x (ix2 r c)) (Fin.ext ?_)
  show min (v5 (ix3 r 0 0)).toInt.toNat 31999 = _
  rw [hv5]
  exact clamp_of_inRange (h r)

end Patterns

/-! ## The same reads, array by array, and the sum over the rows -/

section Arrays

variable {α : Type}

theorem bcastScalar_eq {t : Shape} (dims : Fin S_.rank → Fin t.rank) (h : S_.BroadcastsInDim t dims)
    (x : S_.Idx → α) : broadcastInDim t dims h x = fun _ => x ix0 :=
  funext (bcastScalar_apply dims h x)

theorem bcastUnit2_eq (x : S1x1.Idx → α) :
    broadcastInDim S4096x1 ![0, 1] bcast_S1x1_S4096x1_0_1 x = fun _ => x (ix2 0 0) :=
  funext (bcastUnit2_apply x)

/-- A table look-up broadcast to a column: row `r` holds the table at the column the row's target names. -/
theorem tableCol_eq (tgt : IVec S4096 32) (h : ∀ i, Cert.Spec.InRange (tgt i)) (x : S1x32000.Idx → α) (a : IVec S4096x1 32) :
    broadcastInDim S4096x1 ![0] bcast_S4096_S4096x1_0
      (Host.gather gather_S1x32000_S4096x2_S4096_n_01_n_n_01_1_11 x
        (concatenate S4096x2 1 [⟨S4096x1, a⟩, ⟨S4096x1, broadcastInDim S4096x1 ![0] bcast_S4096_S4096x1_0
          (select (cmpi .slt tgt (broadcastInDim S4096 ![] bcast_S_S4096 (constantI S_ 32 0#32)))
            (addi tgt (broadcastInDim S4096 ![] bcast_S_S4096 (constantI S_ 32 32000#32))) tgt)⟩]
          concatenates_S4096x1_S4096x1_S4096x2_d1))
      = fun i => x (ix2 0 (Cert.Spec.col (tgt (ix1 (i 0))))) := by
  funext i
  obtain ⟨r, rfl⟩ := exists_ix2_col i
  rw [bcastCol_apply]
  exact tableRead x a _ (fun q => tgt (ix1 q)) (fun q => (bcastCol_apply _ q 0).trans (wrapVec_apply tgt h _))
    (fun q => h _) r

/-- The host's sum of a column over all its entries is the initial value plus the sum over the rows. -/
theorem reduceAdd_col (L : FVec Ideal S4096x1 .f32) (c : S_.Idx → EReal) (i : S_.Idx) :
    Host.reduceAdd (F := Ideal) L c reducesTo_S4096x1_S_d0_1 h_S_ i = c ix0 + ∑ r : Fin 4096, L (ix2 r 0) := by
  simp only [Host.reduceAdd, Ideal.hostReduceAdd_def]
  rw [Ideal.hostReduceAdd_total reducesTo_S4096x1_S_d0_1 (fun b => b.elim0) L _ i]
  have e0 : Shape.Idx.first h_S_ = ix0 := funext fun a => a.elim0
  rw [e0]
  congr 1
  let e : S4096x1.Idx ≃ Fin 4096 :=
    { toFun := fun j => j 0, invFun := fun r => ix2 r 0,
      left_inv := fun j => (eq_ix2_col j).symm, right_inv := fun r => rfl }
  exact Fintype.sum_equiv e L (fun r => L (ix2 r 0)) (fun j => congrArg L (eq_ix2_col j))

end Arrays

/-! ## The tail's three stages and the row its epilogue forms

The first stretch of host operations forms the index columns; the next five gather the three logits per row; the last
nine are the epilogue and the four sums. -/

section Stages

/-- Two columns joined side by side depend only on the two columns: the congruence for rewriting either of them
    inside the pair. -/
theorem concat_pair_congr {α : Type} {a a' b b' : S4096x1.Idx → α} (ha : a = a') (hb : b = b') :
    concatenate S4096x2 1 [⟨S4096x1, a⟩, ⟨S4096x1, b⟩] concatenates_S4096x1_S4096x1_S4096x2_d1
      = concatenate S4096x2 1 [⟨S4096x1, a'⟩, ⟨S4096x1, b'⟩] concatenates_S4096x1_S4096x1_S4096x2_d1 := by
  subst ha; subst hb; rfl

/-- The three `take_along_axis` calls and the two index columns formed between them. -/
abbrev ops2 : List (HloOp τ sig (Elt Ideal)) := hostOps1_1 ++ hostOps1_2 ++ hostOps1_3 ++ hostOps1_4 ++ hostOps1_5

/-- The epilogue and the four sums. -/
abbrev ops3 : List (HloOp τ sig (Elt Ideal)) :=
  hostOps1_6 ++ hostOps1_7 ++ hostOps1_8 ++ hostOps1_9 ++ hostOps1_10 ++ hostOps1_11 ++ hostOps1_12 ++ hostOps1_13 ++ hostOps1_14

/-- The row the epilogue forms from the buffers it reads: the three gathered logits, the row's log-sum-exp, the two
    weight tables at the target's column, and the temperature. -/
def epiRow (V : Valuation τ sig (Elt Ideal)) (r : Fin 4096) : Cert.Spec.Row where
  pt := FloatOps.hostUnary (F := Ideal) (φ := .f32) .exp (FloatOps.subf (F := Ideal) (φ := .f32)
    ((V (Proc.devRef .tc main_v24) : S4096x1.Idx → EReal) (ix2 r 0)) ((V (Proc.devRef .tc main_v0) : S4096x1.Idx → EReal) (ix2 r 0)))
  P1 := FloatOps.hostUnary (F := Ideal) (φ := .f32) .exp (FloatOps.subf (F := Ideal) (φ := .f32)
    ((V (Proc.devRef .tc main_v26) : S4096x1.Idx → EReal) (ix2 r 0)) ((V (Proc.devRef .tc main_v0) : S4096x1.Idx → EReal) (ix2 r 0)))
  P2 := FloatOps.hostUnary (F := Ideal) (φ := .f32) .exp (FloatOps.subf (F := Ideal) (φ := .f32)
    ((V (Proc.devRef .tc main_v28) : S4096x1.Idx → EReal) (ix2 r 0)) ((V (Proc.devRef .tc main_v0) : S4096x1.Idx → EReal) (ix2 r 0)))
  x1 := (V (Proc.devRef .tc main_arg2) : S1x32000.Idx → EReal) (ix2 0 (Cert.Spec.tcol (V (Proc.devRef .tc main_arg1)) r))
  x2 := (V (Proc.devRef .tc main_arg4) : S1x32000.Idx → EReal) (ix2 0 (Cert.Spec.tcol (V (Proc.devRef .tc main_arg1)) r))
  T := (V (Proc.devRef .tc main_arg6) : S1.Idx → EReal) (ix1 0)

end Stages

end Cert.KerTail
end
-- ==== Proof.KerTailIdx.lean ====
/-
  The kernel program's host tail, 2: the index columns. After the first stretch of host operations the two
  class-table look-ups hold, at row r, the tables at the column the row's target names, and the target column holds
  the targets; the arguments and the rows' log-sum-exp are untouched.
-/
import proofs.«178677_j88021059764894_2_alg».proof.Proof.KerTailWords

noncomputable section

namespace Cert.KerTail

open Cert.KernelIdeal Cert.KernelIdeal.Gen Idealize.ShloMosaic Idealize.ShloMosaic.ValueIdx Idealize.ShloMosaic.StableHlo

attribute [local congr] concat_pair_congr

variable (V : Valuation τ sig (Elt Ideal))

/-! ## The index columns (the first stretch of @main) -/

section Stage1

variable (h1 : ∀ i, Cert.Spec.InRange ((V (Proc.devRef .tc main_arg1) : S4096.Idx → BitVec 32) i))
include h1

set_option maxRecDepth 4096 in
theorem s1_v11 (r : Fin 4096) :
    (after hostOps1 V (Proc.devRef .tc main_v11) : S4096.Idx → BitVec 32) (ix1 r)
      = (V (Proc.devRef .tc main_arg3) : S1x32000.Idx → BitVec 32) (ix2 0 (Cert.Spec.tcol (V (Proc.devRef .tc main_arg1)) r)) := by
  after_results_simp
  exact tableRead _ _ _ (fun q => (V (Proc.devRef .tc main_arg1) : S4096.Idx → BitVec 32) (ix1 q))
    (fun q => (bcastCol_apply _ q 0).trans (wrapVec_apply _ h1 _)) (fun q => h1 _) r

set_option maxRecDepth 4096 in
theorem s1_v22 (r : Fin 4096) :
    (after hostOps1 V (Proc.devRef .tc main_v22) : S4096.Idx → BitVec 32) (ix1 r)
      = (V (Proc.devRef .tc main_arg5) : S1x32000.Idx → BitVec 32) (ix2 0 (Cert.Spec.tcol (V (Proc.devRef .tc main_arg1)) r)) := by
  after_results_simp
  exact tableRead _ _ _ (fun q => (V (Proc.devRef .tc main_arg1) : S4096.Idx → BitVec 32) (ix1 q))
    (fun q => (bcastCol_apply _ q 0).trans (wrapVec_apply _ h1 _)) (fun q => h1 _) r

end Stage1

set_option maxRecDepth 4096 in
theorem s1_v23 (r : Fin 4096) :
    (after hostOps1 V (Proc.devRef .tc main_v23) : S4096x1.Idx → BitVec 32) (ix2 r 0)
      = (V (Proc.devRef .tc main_arg1) : S4096.Idx → BitVec 32) (ix1 r) := by
  after_results_simp
  exact bcastCol_apply _ r 0

set_option maxRecDepth 4096 in
theorem s1_keep :
    after hostOps1 V (Proc.devRef .tc main_arg0) = V (Proc.devRef .tc main_arg0)
    ∧ after hostOps1 V (Proc.devRef .tc main_arg1) = V (Proc.devRef .tc main_arg1)
    ∧ after hostOps1 V (Proc.devRef .tc main_arg2) = V (Proc.devRef .tc main_arg2)
    ∧ after hostOps1 V (Proc.devRef .tc main_arg4) = V (Proc.devRef .tc main_arg4)
    ∧ after hostOps1 V (Proc.devRef .tc main_arg6) = V (Proc.devRef .tc main_arg6)
    ∧ after hostOps1 V (Proc.devRef .tc main_v0) = V (Proc.devRef .tc main_v0) := by
  refine ⟨?_, ?_, ?_, ?_, ?_, ?_⟩ <;> after_results_simp

end Cert.KerTail
end
-- ==== Proof.KerTailTake.lean ====
/-
  The kernel program's host tail, 3: the three gathered logits. Each `take_along_axis` call, fed a column of class
  indices in range, leaves at row r the row's logit at the column the row's index names (its bounds mask is all ones,
  so the filler is never taken); the two index columns formed between the calls are the table look-ups of the first
  stretch, broadcast.
-/
import proofs.«178677_j88021059764894_2_alg».proof.Proof.KerTailWords

noncomputable section

namespace Cert.KerTail

open Cert.KernelIdeal Cert.KernelIdeal.Gen Idealize.ShloMosaic Idealize.ShloMosaic.ValueIdx Idealize.ShloMosaic.StableHlo

variable (V : Valuation τ sig (Elt Ideal))

set_option maxRecDepth 8192 in
set_option maxHeartbeats 1000000 in
theorem s2_v24 (h : ∀ i, Cert.Spec.InRange ((V (Proc.devRef .tc main_v23) : S4096x1.Idx → BitVec 32) i)) (r : Fin 4096) :
    (after ops2 V (Proc.devRef .tc main_v24) : S4096x1.Idx → EReal) (ix2 r 0)
      = (V (Proc.devRef .tc main_arg0) : S4096x32000.Idx → EReal)
          (ix2 r (Cert.Spec.col ((V (Proc.devRef .tc main_v23) : S4096x1.Idx → BitVec 32) (ix2 r 0)))) := by
  simp only [ops2, List.cons_append, List.nil_append]
  after_results_simp
  simp only [ofBuf_toBuf]
  exact takeRead _ _ _ (fun q => (V (Proc.devRef .tc main_v23) : S4096x1.Idx → BitVec 32) (ix2 q 0))
    (fun q => (reshapeCol_apply _ q).trans (wrapCol_apply _ h _)) (fun q => h _) r

/-- A vector of words in range, broadcast to a column, is a column of words in range. -/
theorem inRange_bcastCol (v : IVec S4096 32) (h : ∀ i, Cert.Spec.InRange (v i)) (i : S4096x1.Idx) :
    Cert.Spec.InRange (broadcastInDim S4096x1 ![0] bcast_S4096_S4096x1_0 v i) := by
  obtain ⟨q, rfl⟩ := exists_ix2_col i
  rw [bcastCol_apply]
  exact h _

set_option maxRecDepth 8192 in
set_option maxHeartbeats 1000000 in
theorem s2_v26 (h : ∀ i, Cert.Spec.InRange ((V (Proc.devRef .tc main_v11) : S4096.Idx → BitVec 32) i)) (r : Fin 4096) :
    (after ops2 V (Proc.devRef .tc main_v26) : S4096x1.Idx → EReal) (ix2 r 0)
      = (V (Proc.devRef .tc main_arg0) : S4096x32000.Idx → EReal)
          (ix2 r (Cert.Spec.col ((V (Proc.devRef .tc main_v11) : S4096.Idx → BitVec 32) (ix1 r)))) := by
  simp only [ops2, List.cons_append, List.nil_append]
  after_results_simp
  simp only [ofBuf_toBuf]
  exact takeRead _ _ _ (fun q => (V (Proc.devRef .tc main_v11) : S4096.Idx → BitVec 32) (ix1 q))
    (fun q => (reshapeCol_apply _ q).trans ((wrapCol_apply _ (inRange_bcastCol _ h) _).trans (bcastCol_apply _ q 0)))
    (fun q => h _) r

set_option maxRecDepth 8192 in
set_option maxHeartbeats 1000000 in
theorem s2_v28 (h : ∀ i, Cert.Spec.InRange ((V (Proc.devRef .tc main_v22) : S4096.Idx → BitVec 32) i)) (r : Fin 4096) :
    (after ops2 V (Proc.devRef .tc main_v28) : S4096x1.Idx → EReal) (ix2 r 0)
      = (V (Proc.devRef .tc main_arg0) : S4096x32000.Idx → EReal)
          (ix2 r (Cert.Spec.col ((V (Proc.devRef .tc main_v22) : S4096.Idx → BitVec 32) (ix1 r)))) := by
  simp only [ops2, List.cons_append, List.nil_append]
  after_results_simp
  simp only [ofBuf_toBuf]
  exact takeRead _ _ _ (fun q => (V (Proc.devRef .tc main_v22) : S4096.Idx → BitVec 32) (ix1 q))
    (fun q => (reshapeCol_apply _ q).trans ((wrapCol_apply _ (inRange_bcastCol _ h) _).trans (bcastCol_apply _ q 0)))
    (fun q => h _) r

end Cert.KerTail
end
-- ==== Proof.KerTailTakeKeep.lean ====
/-
  The kernel program's host tail, 3′: the gathers of the logits leave the target words, the two weight tables, the
  temperature and the rows' log-sum-exp untouched.
-/
import proofs.«178677_j88021059764894_2_alg».proof.Proof.KerTailWords

noncomputable section

namespace Cert.KerTail

open Cert.KernelIdeal Cert.KernelIdeal.Gen Idealize.ShloMosaic Idealize.ShloMosaic.ValueIdx Idealize.ShloMosaic.StableHlo

variable (V : Valuation τ sig (Elt Ideal))

set_option maxRecDepth 8192 in
set_option maxHeartbeats 1000000 in
theorem s2_keep :
    after ops2 V (Proc.devRef .tc main_arg1) = V (Proc.devRef .tc main_arg1)
    ∧ after ops2 V (Proc.devRef .tc main_arg2) = V (Proc.devRef .tc main_arg2)
    ∧ after ops2 V (Proc.devRef .tc main_arg4) = V (Proc.devRef .tc main_arg4)
    ∧ after ops2 V (Proc.devRef .tc main_arg6) = V (Proc.devRef .tc main_arg6)
    ∧ after ops2 V (Proc.devRef .tc main_v0) = V (Proc.devRef .tc main_v0) := by
  simp only [ops2, List.cons_append, List.nil_append]
  refine ⟨?_, ?_, ?_, ?_, ?_⟩ <;> after_results_simp

end Cert.KerTail
end
-- ==== Proof.KerTailEpiA.lean ====
/-
  The kernel program's host tail, 4a: the epilogue and its sums. With the target words in range the two weight
  columns are the weight tables at the target's column; every other operation of the epilogue acts entry by entry, so
  at row r its entries are the specification's terms of the row the epilogue forms; each result is the host's sum of
  a column, the initial zero plus the sum over the rows.
-/
import proofs.«178677_j88021059764894_2_alg».proof.Proof.KerTailWords

noncomputable section

namespace Cert.KerTail

open Cert.KernelIdeal Cert.KernelIdeal.Gen Idealize.ShloMosaic Idealize.ShloMosaic.ValueIdx Idealize.ShloMosaic.StableHlo

attribute [local congr] concat_pair_congr

variable (V : Valuation τ sig (Elt Ideal))
variable (h1 : ∀ i, Cert.Spec.InRange ((V (Proc.devRef .tc main_arg1) : S4096.Idx → BitVec 32) i))
include h1

set_option maxRecDepth 8192 in
set_option maxHeartbeats 2000000 in
/-- The mean loss. -/
theorem s3_v86 :
    (after ops3 V (Proc.devRef .tc main_v86) : S_.Idx → EReal) = fun _ => Cert.Spec.resLoss (epiRow V) := by
  simp only [ops3, List.cons_append, List.nil_append]
  after_results_simp
  simp only [ofBuf_toBuf]
  simp only [tableCol_eq _ h1]
  simp only [bcastScalar_eq, id]
  erw [bcastUnit2_eq]
  beta_reduce
  erw [reshapeUnit_apply]
  funext i
  refine (congrArg (fun s => FloatOps.hostDivf (F := Ideal) (φ := .f32) s _) (reduceAdd_col _ _ i)).trans ?_
  exact congrArg (fun s => FloatOps.hostDivf (F := Ideal) (φ := .f32) (Ideal.ofBits .f32 0x00000000#32 + s) (Ideal.ofBits .f32 0x45800000#32))
    (Finset.sum_congr rfl fun r _ => rfl)

set_option maxRecDepth 8192 in
set_option maxHeartbeats 2000000 in
/-- The count of corrected rows. -/
theorem s3_v87 :
    (after ops3 V (Proc.devRef .tc main_v87) : S_.Idx → EReal) = fun _ => Cert.Spec.resK (epiRow V) := by
  simp only [ops3, List.cons_append, List.nil_append]
  after_results_simp
  simp only [tableCol_eq _ h1]
  simp only [bcastScalar_eq, id]
  erw [bcastUnit2_eq]
  beta_reduce
  erw [reshapeUnit_apply]
  funext i
  refine (reduceAdd_col _ _ i).trans ?_
  exact congrArg (fun s => Ideal.ofBits .f32 0x00000000#32 + s) (Finset.sum_congr rfl fun r _ => rfl)

end Cert.KerTail
end
-- ==== Proof.KerTailEpiB.lean ====
/-
  The kernel program's host tail, 4b: the epilogue and its sums. With the target words in range the two weight
  columns are the weight tables at the target's column; every other operation of the epilogue acts entry by entry, so
  at row r its entries are the specification's terms of the row the epilogue forms; each result is the host's sum of
  a column, the initial zero plus the sum over the rows.
-/
import proofs.«178677_j88021059764894_2_alg».proof.Proof.KerTailWords

noncomputable section

namespace Cert.KerTail

open Cert.KernelIdeal Cert.KernelIdeal.Gen Idealize.ShloMosaic Idealize.ShloMosaic.ValueIdx Idealize.ShloMosaic.StableHlo

attribute [local congr] concat_pair_congr

variable (V : Valuation τ sig (Elt Ideal))
variable (h1 : ∀ i, Cert.Spec.InRange ((V (Proc.devRef .tc main_arg1) : S4096.Idx → BitVec 32) i))
include h1

set_option maxRecDepth 8192 in
set_option maxHeartbeats 2000000 in
/-- The sum of the corrected rows' ratios. -/
theorem s3_v88 :
    (after ops3 V (Proc.devRef .tc main_v88) : S_.Idx → EReal) = fun _ => Cert.Spec.resZ (epiRow V) := by
  simp only [ops3, List.cons_append, List.nil_append]
  after_results_simp
  simp only [ofBuf_toBuf]
  simp only [tableCol_eq _ h1]
  simp only [bcastScalar_eq, id]
  erw [bcastUnit2_eq]
  beta_reduce
  erw [reshapeUnit_apply]
  funext i
  refine (reduceAdd_col _ _ i).trans ?_
  exact congrArg (fun s => Ideal.ofBits .f32 0x00000000#32 + s) (Finset.sum_congr rfl fun r _ => rfl)

set_option maxRecDepth 8192 in
set_option maxHeartbeats 2000000 in
/-- The count of rows not above the correction. -/
theorem s3_v89 :
    (after ops3 V (Proc.devRef .tc main_v89) : S_.Idx → EReal) = fun _ => Cert.Spec.resJ (epiRow V) := by
  simp only [ops3, List.cons_append, List.nil_append]
  after_results_simp
  simp only [tableCol_eq _ h1]
  erw [bcastUnit2_eq]
  beta_reduce
  erw [reshapeUnit_apply]
  funext i
  refine (reduceAdd_col _ _ i).trans ?_
  exact congrArg (fun s => Ideal.ofBits .f32 0x00000000#32 + s) (Finset.sum_congr rfl fun r _ => rfl)

end Cert.KerTail
end
-- ==== Proof.KerTail.lean ====
/-
  The kernel program's host tail: from the rows' log-sum-exp that the streaming pass leaves and the arguments, the
  fifteen stretches of host operations that follow the kernel compute the specification's four results of the rows
  `Cert.Spec.kerRow` — each probability exp(logit − lse), the logits gathered at the target's column and at the two
  columns the class tables give for it — provided every target word and every class-table word is in range.
  The stretches are read in three stages (the index columns, the three gathered logits, the epilogue and the sums);
  this module joins them.
-/
import proofs.«178677_j88021059764894_2_alg».proof.Proof.KerTailIdx
import proofs.«178677_j88021059764894_2_alg».proof.Proof.KerTailTake
import proofs.«178677_j88021059764894_2_alg».proof.Proof.KerTailTakeKeep
import proofs.«178677_j88021059764894_2_alg».proof.Proof.KerTailEpiA
import proofs.«178677_j88021059764894_2_alg».proof.Proof.KerTailEpiB

noncomputable section

namespace Cert.KerTail

open Cert.KernelIdeal Cert.KernelIdeal.Gen Idealize.ShloMosaic Idealize.ShloMosaic.ValueIdx Idealize.ShloMosaic.StableHlo

/-- The row the epilogue reads after the gathers is the specification's row of the arguments: the three logits sit at
    the target's column and at the columns the two class tables give for it. -/
theorem rows_eq (W : Valuation τ sig (Elt Ideal))
    (h1 : ∀ i, Cert.Spec.InRange ((W (Proc.devRef .tc main_arg1) : S4096.Idx → BitVec 32) i))
    (h3 : ∀ i, Cert.Spec.InRange ((W (Proc.devRef .tc main_arg3) : S1x32000.Idx → BitVec 32) i))
    (h5 : ∀ i, Cert.Spec.InRange ((W (Proc.devRef .tc main_arg5) : S1x32000.Idx → BitVec 32) i)) :
    epiRow (after ops2 (after hostOps1 W))
      = Cert.Spec.kerRow (fun r => (W (Proc.devRef .tc main_v0) : S4096x1.Idx → EReal) (ix2 r 0))
        (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6)) := by
  obtain ⟨k0, k1, k2, k4, k6, kv0⟩ := s1_keep W
  obtain ⟨j1, j2, j4, j6, jv0⟩ := s2_keep (after hostOps1 W)
  have hv23 : ∀ i, Cert.Spec.InRange ((after hostOps1 W (Proc.devRef .tc main_v23) : S4096x1.Idx → BitVec 32) i) := fun i => by
    obtain ⟨q, rfl⟩ := exists_ix2_col i
    rw [s1_v23 W q]; exact h1 _
  have hv11 : ∀ i, Cert.Spec.InRange ((after hostOps1 W (Proc.devRef .tc main_v11) : S4096.Idx → BitVec 32) i) := fun i => by
    obtain ⟨q, rfl⟩ : ∃ q : Fin 4096, i = ix1 q := ⟨i 0, eq_ix1 i⟩
    rw [s1_v11 W h1 q]; exact h3 _
  have hv22 : ∀ i, Cert.Spec.InRange ((after hostOps1 W (Proc.devRef .tc main_v22) : S4096.Idx → BitVec 32) i) := fun i => by
    obtain ⟨q, rfl⟩ : ∃ q : Fin 4096, i = ix1 q := ⟨i 0, eq_ix1 i⟩
    rw [s1_v22 W h1 q]; exact h5 _
  funext r
  have e24 := s2_v24 (after hostOps1 W) hv23 r
  have e26 := s2_v26 (after hostOps1 W) hv11 r
  have e28 := s2_v28 (after hostOps1 W) hv22 r
  rw [k0, s1_v23 W r] at e24
  rw [k0, s1_v11 W h1 r] at e26
  rw [k0, s1_v22 W h1 r] at e28
  unfold epiRow Cert.Spec.kerRow
  rw [e24, e26, e28, jv0, kv0, j1, k1, j2, k2, j4, k4, j6, k6]
  rfl

open Cert.KernelIdeal Cert.KernelIdeal.Gen Idealize.ShloMosaic Idealize.ShloMosaic.ValueIdx in
theorem results (W : Valuation τ sig (Elt Ideal))
    (h1 : ∀ i, Cert.Spec.InRange ((W (Proc.devRef .tc main_arg1) : (⟨1, ![4096]⟩ : Shape).Idx → BitVec 32) i))
    (h3 : ∀ i, Cert.Spec.InRange ((W (Proc.devRef .tc main_arg3) : (⟨2, ![1, 32000]⟩ : Shape).Idx → BitVec 32) i))
    (h5 : ∀ i, Cert.Spec.InRange ((W (Proc.devRef .tc main_arg5) : (⟨2, ![1, 32000]⟩ : Shape).Idx → BitVec 32) i)) :
    let W' := StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14]) W
    let rows := Cert.Spec.kerRow (fun r => (W (Proc.devRef .tc main_v0) : (⟨2, ![4096, 1]⟩ : Shape).Idx → EReal) (ix2 r 0))
        (W (Proc.devRef .tc main_arg0)) (W (Proc.devRef .tc main_arg1)) (W (Proc.devRef .tc main_arg2)) (W (Proc.devRef .tc main_arg3))
        (W (Proc.devRef .tc main_arg4)) (W (Proc.devRef .tc main_arg5)) (W (Proc.devRef .tc main_arg6))
    (W' (Proc.devRef .tc main_v86) : (⟨0, ![]⟩ : Shape).Idx → EReal) = (fun _ => Cert.Spec.resLoss rows)
    ∧ (W' (Proc.devRef .tc main_v87) : (⟨0, ![]⟩ : Shape).Idx → EReal) = (fun _ => Cert.Spec.resK rows)
    ∧ (W' (Proc.devRef .tc main_v88) : (⟨0, ![]⟩ : Shape).Idx → EReal) = (fun _ => Cert.Spec.resZ rows)
    ∧ (W' (Proc.devRef .tc main_v89) : (⟨0, ![]⟩ : Shape).Idx → EReal) = (fun _ => Cert.Spec.resJ rows) := by
  intro W' rows
  have eW : W' = after ops3 (after ops2 (after hostOps1 W)) := by
    show after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14]) W = _
    simp only [ops2, ops3, List.flatten_cons, List.flatten_nil, List.append_nil, after_append]
  have hr : epiRow (after ops2 (after hostOps1 W)) = rows := rows_eq W h1 h3 h5
  have h1' : ∀ i, Cert.Spec.InRange ((after ops2 (after hostOps1 W) (Proc.devRef .tc main_arg1) : S4096.Idx → BitVec 32) i) := by
    obtain ⟨-, k1, -⟩ := s1_keep W
    obtain ⟨j1, -⟩ := s2_keep (after hostOps1 W)
    rw [j1, k1]; exact h1
  rw [eW, ← hr]
  exact ⟨s3_v86 _ h1', s3_v87 _ h1', s3_v88 _ h1', s3_v89 _ h1'⟩

end Cert.KerTail

end
-- ==== Proof.KIValuePieces.lean ====
/-
  What the body's stores leave, as values. At a first column block the running maximum and sum are first reset
  (to the −∞ block and the zero block) and read back, so the point leaves the new maximum and new sum formed from the
  reset values; at every other block they are formed from what the point before left; a last column block also
  leaves, in the output window, maximum + log(sum) of the pair it has just formed. Each is the payload of the last
  store into its buffer, a store through the whole buffer; a load of a buffer reads what the last store left there.
-/
import proofs.«178677_j88021059764894_2_alg».proof.Proof.KIFrame
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL.Sem

variable {F : FTy → Type} [FloatOps F]

theorem hz : (![0, 0] : Fin 2 → Nat) = fun _ => 0 := funext fun a => by fin_cases a <;> rfl

/-- First column block: the running maximum left is the new maximum from the reset value. -/
theorem sout_A_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i) (x0 : Vec F S512x3200 .f32) :
    sout0_A_0 c i arg2 harg2 arg3 harg3 arg4 harg4 arg5 harg5 hc0 hc1 x0 = k0_pay5 x0 k0_pay1 := by
  unfold sout0_A_0
  rw [View.read_writes_eq_canon _ _ _ (scover0_A_0 c i arg2 harg2 arg3 harg3 arg4 harg4 arg5 harg5 hc0 hc1 x0)]
  unfold kernelRun0_A
  dsimp only
  sl_unfold_words
  rw [View.canon_cons_unit_zero (S := S512x1) hz]
  simp only [View.readCov_unit_zero (S := S512x1) _ hz, View.readAt_eq_ld, harg2.read_unread, harg4.read_unread, harg5.read_unread,
    View.ld_unit_zero (S := S512x3200) hz, View.ld_unit_zero (S := S512x1) hz]

/-- First column block: the running sum left is the new sum from the reset values. -/
theorem sout_A_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i) (x0 : Vec F S512x3200 .f32) :
    sout0_A_1 c i arg2 harg2 arg3 harg3 arg4 harg4 arg5 harg5 hc0 hc1 x0 = k0_pay4 x0 k0_pay1 k0_pay2 k0_pay1 := by
  unfold sout0_A_1
  rw [View.read_writes_eq_canon _ _ _ (scover0_A_1 c i arg2 harg2 arg3 harg3 arg4 harg4 arg5 harg5 hc0 hc1 x0)]
  unfold kernelRun0_A
  dsimp only
  sl_unfold_words
  rw [View.canon_cons_unit_zero (S := S512x1) hz]
  simp only [View.readCov_unit_zero (S := S512x1) _ hz, View.readAt_eq_ld, harg2.read_unread, harg4.read_unread, harg5.read_unread,
    View.ld_unit_zero (S := S512x3200) hz, View.ld_unit_zero (S := S512x1) hz]

/-- Middle column block: the new maximum from the one the point before left. -/
theorem sout_B_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i) (x0 : Vec F S512x3200 .f32) (xs0 xs1 : Vec F S512x1 .f32) :
    sout0_B_0 c i arg2 harg2 arg3 harg3 arg4 harg4 arg5 harg5 hc0 hc1 x0 xs0 xs1 = k0_pay5 x0 xs0 := by
  unfold sout0_B_0
  rw [View.read_writes_eq_canon _ _ _ (scover0_B_0 c i arg2 harg2 arg3 harg3 arg4 harg4 arg5 harg5 hc0 hc1 x0 xs0 xs1)]
  unfold kernelRun0_B
  dsimp only
  sl_unfold_words
  rw [View.canon_cons_unit_zero (S := S512x1) hz]
  simp only [View.readCov_unit_zero (S := S512x1) _ hz, View.readAt_eq_ld, harg2.read_unread, harg4.read_unread, harg5.read_unread,
    View.ld_unit_zero (S := S512x3200) hz, View.ld_unit_zero (S := S512x1) hz]

/-- Middle column block: the new sum from the pair the point before left. -/
theorem sout_B_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i) (x0 : Vec F S512x3200 .f32) (xs0 xs1 : Vec F S512x1 .f32) :
    sout0_B_1 c i arg2 harg2 arg3 harg3 arg4 harg4 arg5 harg5 hc0 hc1 x0 xs0 xs1 = k0_pay4 x0 xs0 xs1 xs0 := by
  unfold sout0_B_1
  rw [View.read_writes_eq_canon _ _ _ (scover0_B_1 c i arg2 harg2 arg3 harg3 arg4 harg4 arg5 harg5 hc0 hc1 x0 xs0 xs1)]
  unfold kernelRun0_B
  dsimp only
  sl_unfold_words
  rw [View.canon_cons_unit_zero (S := S512x1) hz]
  simp only [View.readCov_unit_zero (S := S512x1) _ hz, View.readAt_eq_ld, harg2.read_unread, harg4.read_unread, harg5.read_unread,
    View.ld_unit_zero (S := S512x3200) hz, View.ld_unit_zero (S := S512x1) hz]

/-- Last column block: the new maximum. -/
theorem sout_C_0 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i) (x0 : Vec F S512x3200 .f32) (xs0 xs1 : Vec F S512x1 .f32) :
    sout0_C_0 c i arg2 harg2 arg3 harg3 arg4 harg4 arg5 harg5 hc0 hc1 x0 xs0 xs1 = k0_pay5 x0 xs0 := by
  unfold sout0_C_0
  rw [View.read_writes_eq_canon _ _ _ (scover0_C_0 c i arg2 harg2 arg3 harg3 arg4 harg4 arg5 harg5 hc0 hc1 x0 xs0 xs1)]
  unfold kernelRun0_C
  dsimp only
  sl_unfold_words
  rw [View.canon_cons_unit_zero (S := S512x1) hz]
  simp only [View.readCov_unit_zero (S := S512x1) _ hz, View.readAt_eq_ld, harg2.read_unread, harg4.read_unread, harg5.read_unread,
    View.ld_unit_zero (S := S512x3200) hz, View.ld_unit_zero (S := S512x1) hz]

/-- Last column block: the new sum. -/
theorem sout_C_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i) (x0 : Vec F S512x3200 .f32) (xs0 xs1 : Vec F S512x1 .f32) :
    sout0_C_1 c i arg2 harg2 arg3 harg3 arg4 harg4 arg5 harg5 hc0 hc1 x0 xs0 xs1 = k0_pay4 x0 xs0 xs1 xs0 := by
  unfold sout0_C_1
  rw [View.read_writes_eq_canon _ _ _ (scover0_C_1 c i arg2 harg2 arg3 harg3 arg4 harg4 arg5 harg5 hc0 hc1 x0 xs0 xs1)]
  unfold kernelRun0_C
  dsimp only
  sl_unfold_words
  rw [View.canon_cons_unit_zero (S := S512x1) hz]
  simp only [View.readCov_unit_zero (S := S512x1) _ hz, View.readAt_eq_ld, harg2.read_unread, harg4.read_unread, harg5.read_unread,
    View.ld_unit_zero (S := S512x3200) hz, View.ld_unit_zero (S := S512x1) hz]

/-- Last column block: the output window is left at maximum + log(sum) of the new pair. -/
theorem out_C_1 (c : Dev nD) (i : grid0.Coords) (arg2 : Memref sig .tc .vmem S512x3200 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i) (x0 : Vec F S512x3200 .f32) (xs0 xs1 : Vec F S512x1 .f32) :
    out0_C_1 c i arg2 harg2 arg3 harg3 arg4 harg4 arg5 harg5 hc0 hc1 x0 xs0 xs1 = k0_pay6 (k0_pay5 x0 xs0) (k0_pay4 x0 xs0 xs1 xs0) := by
  unfold out0_C_1
  rw [View.read_writes_eq_canon _ _ _ (cover0_C_o c i arg2 harg2 arg3 harg3 arg4 harg4 arg5 harg5 hc0 hc1 x0 xs0 xs1)]
  unfold kernelRun0_C
  dsimp only
  sl_unfold_words
  rw [View.canon_cons_unit_zero (S := S512x1) hz]
  simp only [View.readCov_unit_zero (S := S512x1) _ hz, View.readAt_eq_ld, harg2.read_unread, harg4.read_unread, harg5.read_unread,
    View.ld_unit_zero (S := S512x3200) hz, View.ld_unit_zero (S := S512x1) hz]

end Cert.KernelIdeal.Val

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.KIPay.lean ====
/-
  The kernel body's arithmetic at the extended reals, read at a row of the block: the block's row maximum is a fold
  of max over its 3200 lanes, the new running maximum the larger of the old one and that; the new running sum is the old
  one rescaled by exp(old maximum − new maximum) plus the lanes' exponentials shifted by the new maximum; the value
  written out is maximum + log(sum).
-/
import proofs.«178677_j88021059764894_2_alg».proof.Proof.Gen.KernelIdeal.Skeleton
import proofs.«178677_j88021059764894_2_alg».proof.Proof.LibKeepDims
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The reduced index `i` of a row with the lane `k` put back on the reduced axis is `(i, k)`. -/
theorem lift_eq (h : S512x3200.Reduces [1] S512) (i : Fin 512) (k : Fin 3200) : h.lift (ix1 i) k = ix2 i k := by
  funext a
  apply Fin.ext
  match a with
  | ⟨0, _⟩ => rfl
  | ⟨1, _⟩ => rfl

/-- The word of −∞ denotes the bottom element. -/
theorem ofBits_neg_inf : Ideal.ofBits .f32 0xFF800000#32 = ⊥ := by
  simp [Ideal.ofBits, Ideal.ieee]

/-- The zero word denotes zero. -/
theorem ofBits_zero : Ideal.ofBits .f32 0x00000000#32 = 0 := Ideal.ofBits_zero_f32

/-- A block's row maximum. -/
theorem rowmax_apply (v3 : FVec Ideal S512x3200 .f32) (h : S512x3200.Reduces [1] S512) (hφ : FKind.Formats .f32)
    (hacc : (0xFF800000#32 : BitVec 32) = FKind.maximumf.neutral .f32 hφ) (i : Fin 512) :
    multiReduction (F := Ideal) .maximumf [1] S512 v3 0xFF800000#32 h hφ hacc (ix1 i)
      = Finset.univ.fold max ⊥ (fun j : Fin 3200 => v3 (ix2 i j)) := by
  refine (Ideal.multiReduction_maximumf_single v3 _ h hφ hacc (ix1 i)).trans ?_
  rw [Ideal.ofBits_def, ofBits_neg_inf]
  refine congrArg (Finset.univ.fold max ⊥) (funext fun k => ?_)
  exact congrArg v3 (lift_eq h i k)

/-- A block's row sum of a lane-wise value. -/
theorem rowsum_apply (v : FVec Ideal S512x3200 .f32) (h : S512x3200.Reduces [1] S512) (hφ : FKind.Formats .f32)
    (hacc : (0x00000000#32 : BitVec 32) = FKind.add.neutral .f32 hφ) (i : Fin 512) :
    multiReduction (F := Ideal) .add [1] S512 v 0x00000000#32 h hφ hacc (ix1 i) = ∑ j : Fin 3200, v (ix2 i j) := by
  refine (Ideal.multiReduction_add_single v _ h hφ hacc (ix1 i)).trans ?_
  exact Finset.sum_congr rfl fun k _ => congrArg v (lift_eq h i k)

theorem pay1_apply (y : S512x1.Idx) : k0_pay1 (F := Ideal) y = ⊥ := by
  unfold k0_pay1
  (try dsimp only)
  rw [shapeCast_self]
  exact ofBits_neg_inf

theorem pay2_apply (y : S512x1.Idx) : k0_pay2 (F := Ideal) y = 0 := by
  unfold k0_pay2
  (try dsimp only)
  rw [shapeCast_self]
  exact ofBits_zero

/-- The new running maximum at row `i`. -/
theorem pay3_apply (v3 : Vec Ideal S512x3200 .f32) (v6 : Vec Ideal S512x1 .f32) (i : Fin 512) :
    k0_pay3 (F := Ideal) v3 v6 (ix2 i 0)
      = max (v6 (ix2 i 0)) (Finset.univ.fold max ⊥ (fun j : Fin 3200 => v3 (ix2 i j))) := by
  unfold k0_pay3
  (try dsimp only)
  refine (maximumf_apply _ _ _).trans (congrArg (max _) ?_)
  refine (Cert.Lib.KeepDims.shapeCast_a_a1_apply _ _ i 0).trans ?_
  exact rowmax_apply v3 _ _ _ i

theorem pay5_apply (v3 : Vec Ideal S512x3200 .f32) (v6 : Vec Ideal S512x1 .f32) (y : S512x1.Idx) :
    k0_pay5 (F := Ideal) v3 v6 y = k0_pay3 (F := Ideal) v3 v6 y := by
  unfold k0_pay5
  (try dsimp only)
  rw [shapeCast_self]

/-- The new running sum at row `i`. -/
theorem pay4_apply (v3 : Vec Ideal S512x3200 .f32) (v6 v8 v9 : Vec Ideal S512x1 .f32) (i : Fin 512) :
    k0_pay4 (F := Ideal) v3 v6 v8 v9 (ix2 i 0)
      = v8 (ix2 i 0) * Ideal.exp (v9 (ix2 i 0) - k0_pay3 (F := Ideal) v3 v6 (ix2 i 0))
        + ∑ j : Fin 3200, Ideal.exp (v3 (ix2 i j) - k0_pay3 (F := Ideal) v3 v6 (ix2 i 0)) := by
  unfold k0_pay4
  (try dsimp only)
  rw [shapeCast_self]
  refine (addf_apply _ _ _).trans ?_
  refine congrArg₂ (· + ·) rfl ?_
  refine (Cert.Lib.KeepDims.shapeCast_a_a1_apply _ _ i 0).trans ?_
  refine (rowsum_apply _ _ _ _ i).trans ?_
  refine Finset.sum_congr rfl fun j _ => ?_
  show Ideal.exp (v3 (ix2 i j) - broadcastTo S512x3200 (k0_pay3 (F := Ideal) v3 v6) broadcasts_S512x1_S512x3200 (ix2 i j)) = _
  rw [Cert.Lib.KeepDims.broadcastTo_a1_ab_apply]

/-- The value written out at row `i`. -/
theorem pay6_apply (v28 v29 : Vec Ideal S512x1 .f32) (y : S512x1.Idx) :
    k0_pay6 (F := Ideal) v28 v29 y = v28 y + Ideal.log (v29 y) := rfl

end Cert.KernelIdeal.Pay

end
-- ==== Proof.LibOnlineSoftmax.lean ====
/-
  General facts about finite sums and finite maxima on the extended reals, used to compare a blocked
  ("online") softmax with the plain one: a finite sum or a finite maximum of real numbers, computed in the
  extended reals, is the coercion of the same sum or maximum computed in the reals; and a sum or a maximum
  over `Fin (m + n)` splits into the part below `m` and the part from `m` on.
-/
import Idealize.ShloMosaic.PureOps.Ideal

noncomputable section

open scoped BigOperators

namespace Cert.OnlineSoftmax

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A maximum, taken from `⊥`, of finitely many (and at least one) real numbers is the coercion of their real
    maximum. -/
theorem fold_max_coe {ι : Type*} (s : Finset ι) (hs : s.Nonempty) (f : ι → ℝ) :
    s.fold max (⊥ : EReal) (fun j => ((f j : ℝ) : EReal)) = ((s.sup' hs f : ℝ) : EReal) := by
  apply le_antisymm
  · refine (Finset.fold_max_le _).2 ⟨bot_le, fun j hj => ?_⟩
    exact EReal.coe_le_coe_iff.2 (Finset.le_sup' f hj)
  · obtain ⟨j, hj, hjM⟩ := Finset.exists_mem_eq_sup' hs f
    rw [hjM]
    exact (Finset.le_fold_max _).2 (Or.inr ⟨j, hj, le_rfl⟩)

/-- A maximum over `Fin (m + n)`, from `⊥`, is the larger of the maximum over the first `m` indices and the
    maximum over the last `n`. -/
theorem fold_max_split {α : Type*} [LinearOrder α] [OrderBot α] (m n : ℕ) (f : Fin (m + n) → α) :
    (Finset.univ : Finset (Fin (m + n))).fold max ⊥ f
      = max ((Finset.univ : Finset (Fin m)).fold max ⊥ (fun k => f (Fin.castAdd n k)))
          ((Finset.univ : Finset (Fin n)).fold max ⊥ (fun k => f (Fin.natAdd m k))) := by
  apply le_antisymm
  · refine (Finset.fold_max_le _).2 ⟨bot_le, fun j _ => ?_⟩
    induction j using Fin.addCases with
    | left k => exact le_max_of_le_left ((Finset.le_fold_max _).2 (Or.inr ⟨k, Finset.mem_univ _, le_rfl⟩))
    | right k => exact le_max_of_le_right ((Finset.le_fold_max _).2 (Or.inr ⟨k, Finset.mem_univ _, le_rfl⟩))
  · refine max_le ?_ ?_
    · exact (Finset.fold_max_le _).2 ⟨bot_le, fun k _ =>
        (Finset.le_fold_max _).2 (Or.inr ⟨Fin.castAdd n k, Finset.mem_univ _, le_rfl⟩)⟩
    · exact (Finset.fold_max_le _).2 ⟨bot_le, fun k _ =>
        (Finset.le_fold_max _).2 (Or.inr ⟨Fin.natAdd m k, Finset.mem_univ _, le_rfl⟩)⟩

/-- Rescaling the first block: `exp (M₀ - M) * Σ exp (s - M₀) · v = Σ exp (s - M) · v`. -/
theorem rescale_sum {ι : Type*} (s : Finset ι) (M₀ M : ℝ) (f v : ι → ℝ) :
    Real.exp (M₀ - M) * ∑ k ∈ s, Real.exp (f k - M₀) * v k = ∑ k ∈ s, Real.exp (f k - M) * v k := by
  rw [Finset.mul_sum]
  refine Finset.sum_congr rfl fun k _ => ?_
  rw [← mul_assoc, ← Real.exp_add]
  congr 2
  ring

end Cert.OnlineSoftmax

end
-- ==== Proof.Online.lean ====
/-
  The streaming ("online") log-sum-exp of one row, on the extended reals. The row's 32000 logits are read in
  ten blocks of 3200; the pass keeps a running maximum m and a running sum l = Σ exp(logit − m) over the
  logits read so far, and on reading a block replaces m by the larger m' of m and the block's maximum and
  l by l·exp(m − m') + Σ_block exp(logit − m'). For real logits, after the ten blocks m is the row's
  maximum and l the row's sum of exponentials shifted by that maximum: the factor exp(m − m') turns each
  old term exp(a − m) into exp(a − m'). Before the first block m = −∞ and l = 0, and 0·exp(−∞ − m') = 0.
-/
import Idealize.ShloMosaic.PureOps.Ideal
import proofs.«178677_j88021059764894_2_alg».proof.Proof.LibOnlineSoftmax

noncomputable section

open scoped BigOperators

namespace Cert.Online

open Idealize.ShloMosaic

/-- Block k of a row: its entries 3200·k … 3200·k + 3199 (taken around the row's end). -/
def blk (x : Fin 32000 → EReal) (k : ℕ) (j : Fin 3200) : EReal := x ⟨(3200 * k + j.val) % 32000, Nat.mod_lt _ (by norm_num)⟩

/-- One block of the streaming pass: the new running maximum and the rescaled running sum. -/
def step (xs : Fin 3200 → EReal) (ml : EReal × EReal) : EReal × EReal :=
  (max ml.1 (Finset.univ.fold max ⊥ xs),
   ml.2 * Ideal.exp (ml.1 - max ml.1 (Finset.univ.fold max ⊥ xs)) + (0 + ∑ j : Fin 3200, Ideal.exp (xs j - max ml.1 (Finset.univ.fold max ⊥ xs))))

/-- The running maximum and sum after k blocks, from (−∞, 0). -/
def run (x : Fin 32000 → EReal) : ℕ → EReal × EReal | 0 => (⊥, 0) | k + 1 => step (blk x k) (run x k)

/-- The maximum, from −∞, of the real numbers a j over a finite set of columns. -/
def mx (a : Fin 32000 → ℝ) (s : Finset (Fin 32000)) : EReal := s.fold max ⊥ fun j => (a j : EReal)

/-- The sum over a finite set of columns of exp(a j − the set's maximum). -/
def sm (a : Fin 32000 → ℝ) (s : Finset (Fin 32000)) : EReal := ∑ j ∈ s, Ideal.exp ((a j : EReal) - mx a s)

theorem exp_coe_sub (x y : ℝ) : Ideal.exp ((x : EReal) - (y : EReal)) = ((Real.exp (x - y) : ℝ) : EReal) := by
  rw [← EReal.coe_sub]; rfl

theorem sum_exp_coe (a : Fin 32000 → ℝ) (s : Finset (Fin 32000)) (m : ℝ) :
    ∑ j ∈ s, Ideal.exp ((a j : EReal) - (m : EReal)) = ((∑ j ∈ s, Real.exp (a j - m) : ℝ) : EReal) := by
  rw [Cert.OnlineSoftmax.coe_sum]
  exact Finset.sum_congr rfl fun j _ => exp_coe_sub _ _

theorem mx_eq_sup (a : Fin 32000 → ℝ) (s : Finset (Fin 32000)) : mx a s = s.sup fun j => (a j : EReal) := rfl

theorem mx_union (a : Fin 32000 → ℝ) (s t : Finset (Fin 32000)) : mx a (s ∪ t) = max (mx a s) (mx a t) := by
  rw [mx_eq_sup, mx_eq_sup, mx_eq_sup, Finset.sup_union]

/-- The maximum of a nonempty set of reals is a real. -/
theorem mx_real (a : Fin 32000 → ℝ) (s : Finset (Fin 32000)) (hs : s.Nonempty) : mx a s = ((s.sup' hs a : ℝ) : EReal) :=
  Cert.OnlineSoftmax.fold_max_coe s hs a

/-- Reading one more (disjoint, nonempty) set of columns: the rescaled old sum plus the new terms is the sum
    over the union, shifted by the union's maximum. -/
theorem sm_union (a : Fin 32000 → ℝ) (s t : Finset (Fin 32000)) (hd : Disjoint s t) (ht : t.Nonempty) :
    sm a s * Ideal.exp (mx a s - mx a (s ∪ t)) + (0 + ∑ j ∈ t, Ideal.exp ((a j : EReal) - mx a (s ∪ t))) = sm a (s ∪ t) := by
  have hst : (s ∪ t).Nonempty := ht.mono Finset.subset_union_right
  have hR : sm a (s ∪ t) = ∑ j ∈ s, Ideal.exp ((a j : EReal) - mx a (s ∪ t)) + ∑ j ∈ t, Ideal.exp ((a j : EReal) - mx a (s ∪ t)) := by
    rw [sm, Finset.sum_union hd]
  rw [hR, zero_add]
  congr 1
  rcases s.eq_empty_or_nonempty with hs | hs
  · subst hs
    simp [sm]
  · rw [sm, mx_real a s hs, mx_real a _ hst, sum_exp_coe, exp_coe_sub, ← EReal.coe_mul, sum_exp_coe]
    congr 1
    rw [Finset.sum_mul]
    refine Finset.sum_congr rfl fun j _ => ?_
    rw [← Real.exp_add]
    congr 1
    ring

/-- The columns before block k. -/
def before (k : ℕ) : Finset (Fin 32000) := Finset.univ.filter fun j => j.val < 3200 * k

/-- The column of entry j of block k, for k < 10. -/
def bcol (k : ℕ) (hk : k < 10) (j : Fin 3200) : Fin 32000 := ⟨3200 * k + j.val, by have := j.isLt; omega⟩

/-- The columns of block k. -/
def block (k : ℕ) (hk : k < 10) : Finset (Fin 32000) := Finset.univ.image (bcol k hk)

theorem bcol_injective (k : ℕ) (hk : k < 10) : Function.Injective (bcol k hk) := by
  intro i j h
  have := congrArg Fin.val h
  simp only [bcol] at this
  exact Fin.ext (by omega)

theorem before_succ (k : ℕ) (hk : k < 10) : before (k + 1) = before k ∪ block k hk := by
  ext j
  simp only [before, block, Finset.mem_union, Finset.mem_filter, Finset.mem_univ, true_and, Finset.mem_image]
  constructor
  · intro h
    by_cases hj : j.val < 3200 * k
    · exact Or.inl hj
    · exact Or.inr ⟨⟨j.val - 3200 * k, by omega⟩, Fin.ext (by simp only [bcol]; omega)⟩
  · rintro (h | ⟨i, rfl⟩)
    · omega
    · have := i.isLt
      simp only [bcol]
      omega

theorem before_disjoint (k : ℕ) (hk : k < 10) : Disjoint (before k) (block k hk) := by
  rw [Finset.disjoint_left]
  intro j hj hb
  simp only [before, Finset.mem_filter, Finset.mem_univ, true_and] at hj
  simp only [block, Finset.mem_image, Finset.mem_univ, true_and] at hb
  obtain ⟨i, rfl⟩ := hb
  simp only [bcol] at hj
  omega

theorem block_nonempty (k : ℕ) (hk : k < 10) : (block k hk).Nonempty :=
  ⟨bcol k hk ⟨0, by norm_num⟩, Finset.mem_image_of_mem _ (Finset.mem_univ _)⟩

theorem blk_eq (a : Fin 32000 → ℝ) (k : ℕ) (hk : k < 10) (j : Fin 3200) :
    blk (fun j => (a j : EReal)) k j = (a (bcol k hk j) : EReal) := by
  have hj := j.isLt
  have h : (⟨(3200 * k + j.val) % 32000, Nat.mod_lt _ (by norm_num)⟩ : Fin 32000) = bcol k hk j :=
    Fin.ext (by simp only [bcol]; exact Nat.mod_eq_of_lt (by omega))
  simp only [blk]
  rw [h]

theorem fold_blk (a : Fin 32000 → ℝ) (k : ℕ) (hk : k < 10) :
    Finset.univ.fold max ⊥ (blk (fun j => (a j : EReal)) k) = mx a (block k hk) := by
  rw [mx_eq_sup, block, Finset.sup_image]
  show Finset.univ.sup (blk (fun j => (a j : EReal)) k) = _
  exact Finset.sup_congr rfl fun j _ => blk_eq a k hk j

theorem sum_blk (a : Fin 32000 → ℝ) (k : ℕ) (hk : k < 10) (M : EReal) :
    ∑ j : Fin 3200, Ideal.exp (blk (fun j => (a j : EReal)) k j - M) = ∑ j ∈ block k hk, Ideal.exp ((a j : EReal) - M) := by
  rw [block, Finset.sum_image fun i _ j _ h => bcol_injective k hk h]
  exact Finset.sum_congr rfl fun j _ => by rw [blk_eq a k hk j]

/-- After k ≤ 10 blocks the running maximum and sum are those of the columns read so far. -/
theorem run_before (a : Fin 32000 → ℝ) : ∀ k, k ≤ 10 → run (fun j => (a j : EReal)) k = (mx a (before k), sm a (before k))
  | 0, _ => by
    have h : before 0 = ∅ := by
      ext j; simp [before]
    rw [h]
    simp [run, mx, sm]
  | k + 1, hk => by
    have hk' : k < 10 := hk
    rw [run, run_before a k (by omega), step]
    simp only
    rw [fold_blk a k hk', sum_blk a k hk', ← mx_union, ← before_succ k hk']
    refine Prod.ext rfl ?_
    simp only
    rw [before_succ k hk']
    exact sm_union a _ _ (before_disjoint k hk') (block_nonempty k hk')

theorem before_ten : before 10 = Finset.univ := by
  ext j
  have := j.isLt
  simp only [before, Finset.mem_filter, Finset.mem_univ, true_and, iff_true]
  omega

/-- After the ten blocks the pass holds the row's maximum and the row's sum of exponentials shifted by it. -/
theorem run_ten (a : Fin 32000 → ℝ) : run (fun j => (a j : EReal)) 10
    = (Finset.univ.fold max ⊥ (fun j : Fin 32000 => (a j : EReal)), ∑ j : Fin 32000, Ideal.exp ((a j : EReal) - Finset.univ.fold max ⊥ (fun j : Fin 32000 => (a j : EReal)))) := by
  rw [run_before a 10 le_rfl, before_ten]
  rfl

end Cert.Online

end
-- ==== Proof.KIValueStep.lean ====
/-
  One grid point of the streaming pass, read at a row of the block, is one step of the online recurrence: the body's
  new running maximum and new running sum at row i, from the block's 3200 lanes of that row and the old maximum and
  sum at that row, are the pair the recurrence forms from the same data. A first column block starts from the reset
  values −∞ and 0, the recurrence's start.
-/
import proofs.«178677_j88021059764894_2_alg».proof.Proof.KIPay
import proofs.«178677_j88021059764894_2_alg».proof.Proof.Online

noncomputable section

namespace Cert.KernelIdeal.Val

open Cert.KernelIdeal Cert.KernelIdeal.Gen Idealize.ShloMosaic Idealize.ShloMosaic.ValueIdx

/-- The body's new (maximum, sum) at row i is the recurrence's step from the old pair over the row's lanes. -/
theorem step_eq (x0 : Vec Ideal S512x3200 .f32) (p0 p1 : Vec Ideal S512x1 .f32) (i : Fin 512) :
    ((k0_pay5 (F := Ideal) x0 p0 (ix2 i 0), k0_pay4 (F := Ideal) x0 p0 p1 p0 (ix2 i 0)) : EReal × EReal)
      = Cert.Online.step (fun j : Fin 3200 => x0 (ix2 i j)) (p0 (ix2 i 0), p1 (ix2 i 0)) := by
  rw [Pay.pay5_apply, Pay.pay4_apply, Pay.pay3_apply]
  unfold Cert.Online.step
  simp only [zero_add]

/-- From the reset values the step is the recurrence's first. -/
theorem step_reset (x0 : Vec Ideal S512x3200 .f32) (i : Fin 512) :
    ((k0_pay5 (F := Ideal) x0 (k0_pay1 (F := Ideal)) (ix2 i 0), k0_pay4 (F := Ideal) x0 (k0_pay1 (F := Ideal)) (k0_pay2 (F := Ideal)) (k0_pay1 (F := Ideal)) (ix2 i 0)) : EReal × EReal)
      = Cert.Online.step (fun j : Fin 3200 => x0 (ix2 i j)) (⊥, 0) := by
  rw [step_eq, Pay.pay1_apply, Pay.pay2_apply]

end Cert.KernelIdeal.Val

end
-- ==== Proof.KIValueBlk.lean ====
/-
  The input window's block at a grid point, element by element: point t = 10·b + k reads row block b and column
  block k of the logits, so its element (i, j) is the logit at row 512·b + i, column 3200·k + j.
-/
import proofs.«178677_j88021059764894_2_alg».proof.Proof.KIKit
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The input window's block index at point t: row block t / 10, column block t % 10. -/
theorem idx0 : ∀ t : Fin cfg0.N, win0_0.index t 0 = t.val / 10 ∧ win0_0.index t 1 = t.val % 10 :=
  (by decide +kernel : ∀ t : Fin grid0.N, win0_0.index t 0 = t.val / 10 ∧ win0_0.index t 1 = t.val % 10)

/-- Element (i, j) of the input block at point t is the logit at row 512·(t/10) + i, column 3200·(t%10) + j. -/
theorem iblk_apply (c : Dev nD) (t : Fin cfg0.N) (i : Fin 512) (j : Fin 3200) (r : Fin 4096) (q : Fin 32000)
    (hr : r.val = 512 * (t.val / 10) + i.val) (hq : q.val = 3200 * (t.val % 10) + j.val) :
    (iblk m c 0 t : Vec F S512x3200 .f32) (ix2 i j) = (V m c main_arg0 : (⟨2, ![4096, 32000]⟩ : Shape).Idx → F .f32) (ix2 r q) := by
  unfold iblk
  rw [View.read_apply]
  show V m c main_arg0 _ = V m c main_arg0 _
  congr 1
  funext a
  apply Fin.ext
  obtain ⟨e0, e1⟩ := idx0 t
  match a with
  | ⟨0, _⟩ => show win0_0.index t 0 * 512 + 1 * i.val = r.val; rw [e0, hr]; omega
  | ⟨1, _⟩ => show win0_0.index t 1 * 3200 + 1 * j.val = q.val; rw [e1, hq]; omega

end Cert.KernelIdeal.Val

end
-- ==== Proof.KIValue.lean ====
/-
  The kernel region's value at the extended reals. By induction on the grid point: after point t = 10·b + k the two
  scratch buffers hold, at row i of the block, the online recurrence's pair after k + 1 column blocks of row 512·b + i
  of the logits (a first column block starts the recurrence afresh; every other continues from the point before, which
  has the same row block). At k = 9 the body also leaves maximum + log(sum) of that pair in the output window, and for a
  row of real logits the recurrence after ten blocks holds the row's maximum and its sum of shifted exponentials: the
  window is left at the row block's log-sum-exp. The ten-th points' blocks tile the output array.
-/
import proofs.«178677_j88021059764894_2_alg».proof.Proof.KIValuePieces
import proofs.«178677_j88021059764894_2_alg».proof.Proof.KIValueStep
import proofs.«178677_j88021059764894_2_alg».proof.Proof.KIValueBlk
import proofs.«178677_j88021059764894_2_alg».proof.Proof.Spec
import proofs.«178677_j88021059764894_2_alg».proof.Proof.Online

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- Row r of the logits as the region finds them. -/
abbrev row (c : Dev nD) (r : Fin 4096) : Fin 32000 → EReal :=
  fun q => (V (F := Ideal) m c main_arg0 : (⟨2, ![4096, 32000]⟩ : Shape).Idx → EReal) (ix2 r q)

/-- Row i of the input block at point t is column block t % 10 of row 512·(t/10) + i. -/
theorem lanes_eq (c : Dev nD) (t : Fin cfg0.N) (i : Fin 512) (r : Fin 4096) (hr : r.val = 512 * (t.val / 10) + i.val) :
    (fun j : Fin 3200 => ((iblk (F := Ideal) m c 0 t : Vec Ideal S512x3200 .f32) (ix2 i j) : EReal))
      = Cert.Online.blk (row m c r) (t.val % 10) := by
  funext j
  have hj := j.isLt
  have ht : t.val % 10 < 10 := Nat.mod_lt _ (by norm_num)
  exact iblk_apply m c t i j r ⟨(3200 * (t.val % 10) + j.val) % 32000, Nat.mod_lt _ (by norm_num)⟩ hr (Nat.mod_eq_of_lt (by omega))

/-- A first column block leaves the recurrence's first step. -/
theorem ptA_acc (c : Dev nD) (t : Fin cfg0.N) (h0 : t.val % 10 = 0) (h1 : ¬t.val % 10 = 9) (i : Fin 512) :
    (((ptA (F := Ideal) m c t h0 h1).2.1 (ix2 i 0), (ptA (F := Ideal) m c t h0 h1).2.2 (ix2 i 0)) : EReal × EReal)
      = Cert.Online.step (fun j : Fin 3200 => ((iblk (F := Ideal) m c 0 t : Vec Ideal S512x3200 .f32) (ix2 i j) : EReal)) (⊥, 0) := by
  unfold ptA
  dsimp only
  refine (congrArg₂ Prod.mk (congrFun (sout_A_0 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)) (ix2 i 0))
    (congrFun (sout_A_1 c (grid0.coords t) (ms0_0 t) (hs0_0 t) (ms0_1 t) (hs0_1 t) scM0_0 (Memref.isWhole_whole _) scM0_1 (Memref.isWhole_whole _) ((hcond0_0 t).mpr h0) (fun h => h1 ((hcond0_1 t).mp h)) (iblk m c 0 t)) (ix2 i 0))).trans ?_
  exact step_reset _ i

/-- A middle column block steps the recurrence from the pair it finds. -/
theorem ptB_acc (c : Dev nD) (t : Fin cfg0.N) (h0 : ¬t.val % 10 = 0) (h1 : ¬t.val % 10 = 9) (p0 p1 : Vec Ideal S512x1 .f32) (i : Fin 512) :
    (((ptB (F := Ideal) m c t h0 h1 p0 p1).2.1 (ix2 i 0), (ptB (F := Ideal) m c t h0 h1 p0 p1).2.2 (ix2 i 0)) : EReal × EReal)
      = Cert.Online.step (fun j : Fin 3200 => ((iblk (F := Ideal) m c 0 t : Vec Ideal S512x3200 .f32) (ix2 i j) : EReal)) (p0 (ix2 i 0), p1 (ix2 i 0)) := by
  unfold ptB
  dsimp only
  refine (congrArg₂ Prod.mk (congrFun (sout_B_0 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) p0 p1) (ix2 i 0))
    (congrFun (sout_B_1 c (grid0.coords t) (ms0_0 t) (hs0_0 t) (ms0_1 t) (hs0_1 t) scM0_0 (Memref.isWhole_whole _) scM0_1 (Memref.isWhole_whole _) (fun h => h0 ((hcond0_0 t).mp h)) (fun h => h1 ((hcond0_1 t).mp h)) (iblk m c 0 t) p0 p1) (ix2 i 0))).trans ?_
  exact step_eq _ p0 p1 i

/-- So does a last column block, -/
theorem ptC_acc (c : Dev nD) (t : Fin cfg0.N) (h0 : ¬t.val % 10 = 0) (h1 : t.val % 10 = 9) (p0 p1 : Vec Ideal S512x1 .f32) (i : Fin 512) :
    (((ptC (F := Ideal) m c t h0 h1 p0 p1).2.1 (ix2 i 0), (ptC (F := Ideal) m c t h0 h1 p0 p1).2.2 (ix2 i 0)) : EReal × EReal)
      = Cert.Online.step (fun j : Fin 3200 => ((iblk (F := Ideal) m c 0 t : Vec Ideal S512x3200 .f32) (ix2 i j) : EReal)) (p0 (ix2 i 0), p1 (ix2 i 0)) := by
  unfold ptC
  dsimp only
  refine (congrArg₂ Prod.mk (congrFun (sout_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) p0 p1) (ix2 i 0))
    (congrFun (sout_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) p0 p1) (ix2 i 0))).trans ?_
  exact step_eq _ p0 p1 i

/-- and it leaves maximum + log(sum) of the new pair in the output window. -/
theorem ptC_out (c : Dev nD) (t : Fin cfg0.N) (h0 : ¬t.val % 10 = 0) (h1 : t.val % 10 = 9) (p0 p1 : Vec Ideal S512x1 .f32) (y : S512x1.Idx) :
    ((ptC (F := Ideal) m c t h0 h1 p0 p1).1 y : EReal)
      = (ptC (F := Ideal) m c t h0 h1 p0 p1).2.1 y + Ideal.log ((ptC (F := Ideal) m c t h0 h1 p0 p1).2.2 y) := by
  unfold ptC
  dsimp only
  rw [out_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) p0 p1, sout_C_0 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) p0 p1, sout_C_1 c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h1) (iblk m c 0 t) p0 p1]
  rfl

/-- THE INVARIANT: after point n the scratch buffers hold, at row i, the recurrence after n % 10 + 1 blocks of row
    512·(n/10) + i. -/
theorem acc_eq (c : Dev nD) : ∀ (n : ℕ) (hn : n < cfg0.N) (i : Fin 512) (r : Fin 4096), r.val = 512 * (n / 10) + i.val →
    (((outsAt0 (F := Ideal) m c n hn).2.1 (ix2 i 0), (outsAt0 (F := Ideal) m c n hn).2.2 (ix2 i 0)) : EReal × EReal)
      = Cert.Online.run (row m c r) (n % 10 + 1) := by
  intro n
  induction n with
  | zero =>
    intro hn i r hr
    have h9 : ¬(⟨0, hn⟩ : Fin cfg0.N).val % 10 = 9 := by show ¬((0 : ℕ) % 10 = 9); decide
    rw [outsAt0_A m c ⟨0, hn⟩ rfl h9]
    refine (ptA_acc m c ⟨0, hn⟩ rfl h9 i).trans ?_
    rw [lanes_eq m c ⟨0, hn⟩ i r hr]
    rfl
  | succ n ih =>
    intro hn i r hr
    by_cases h0 : (n + 1) % 10 = 0
    · have h1 : ¬(n + 1) % 10 = 9 := by omega
      rw [outsAt0_A m c ⟨n + 1, hn⟩ h0 h1]
      refine (ptA_acc m c ⟨n + 1, hn⟩ h0 h1 i).trans ?_
      rw [lanes_eq m c ⟨n + 1, hn⟩ i r hr]
      show Cert.Online.step (Cert.Online.blk (row m c r) ((n + 1) % 10)) (⊥, 0) = Cert.Online.run (row m c r) ((n + 1) % 10 + 1)
      rw [h0]
      rfl
    · have hprev := ih (Nat.lt_of_succ_lt hn) i r (by omega)
      have hk : (n + 1) % 10 = n % 10 + 1 := by omega
      by_cases h1 : (n + 1) % 10 = 9
      · rw [outsAt0_C m c ⟨n + 1, hn⟩ h0 h1]
        refine (ptC_acc m c ⟨n + 1, hn⟩ h0 h1 _ _ i).trans ?_
        rw [lanes_eq m c ⟨n + 1, hn⟩ i r hr]
        show Cert.Online.step (Cert.Online.blk (row m c r) ((n + 1) % 10))
          ((outsAt0 (F := Ideal) m c n (Nat.lt_of_succ_lt hn)).2.1 (ix2 i 0), (outsAt0 (F := Ideal) m c n (Nat.lt_of_succ_lt hn)).2.2 (ix2 i 0))
            = Cert.Online.run (row m c r) ((n + 1) % 10 + 1)
        rw [hprev, hk]
        rfl
      · rw [outsAt0_B m c ⟨n + 1, hn⟩ h0 h1]
        refine (ptB_acc m c ⟨n + 1, hn⟩ h0 h1 _ _ i).trans ?_
        rw [lanes_eq m c ⟨n + 1, hn⟩ i r hr]
        show Cert.Online.step (Cert.Online.blk (row m c r) ((n + 1) % 10))
          ((outsAt0 (F := Ideal) m c n (Nat.lt_of_succ_lt hn)).2.1 (ix2 i 0), (outsAt0 (F := Ideal) m c n (Nat.lt_of_succ_lt hn)).2.2 (ix2 i 0))
            = Cert.Online.run (row m c r) ((n + 1) % 10 + 1)
        rw [hprev, hk]
        rfl

/-- For a row of real logits the recurrence after its ten blocks holds the row's maximum and sum. -/
theorem run_row_ten (c : Dev nD)
    (hx : ∀ i, ∃ a : ℝ, (V (F := Ideal) m c main_arg0 : (⟨2, ![4096, 32000]⟩ : Shape).Idx → EReal) i = (a : EReal)) (r : Fin 4096) :
    Cert.Online.run (row m c r) 10
      = (Cert.Spec.rowMax (V (F := Ideal) m c main_arg0) r, Cert.Spec.rowSum (V (F := Ideal) m c main_arg0) r) := by
  choose a ha using hx
  have hrow : row m c r = fun q => ((a (ix2 r q) : ℝ) : EReal) := funext fun q => ha (ix2 r q)
  show Cert.Online.run (row m c r) 10
    = (Finset.univ.fold max ⊥ (row m c r), ∑ j : Fin 32000, Ideal.exp (row m c r j - Finset.univ.fold max ⊥ (row m c r)))
  rw [hrow]
  exact Cert.Online.run_ten fun q => a (ix2 r q)

/-- What a last column block leaves in the output window at row i: the log-sum-exp of row 512·(t/10) + i. -/
theorem out_eq (c : Dev nD)
    (hx : ∀ i, ∃ a : ℝ, (V (F := Ideal) m c main_arg0 : (⟨2, ![4096, 32000]⟩ : Shape).Idx → EReal) i = (a : EReal))
    (t : Fin cfg0.N) (h9 : t.val % 10 = 9) (i : Fin 512) (r : Fin 4096) (hr : r.val = 512 * (t.val / 10) + i.val) :
    ((outsAt0 (F := Ideal) m c t.val t.isLt).1 (ix2 i 0) : EReal) = Cert.Spec.lseOf (V (F := Ideal) m c main_arg0) r := by
  have h0 : ¬t.val % 10 = 0 := by omega
  have hacc : (((outsAt0 (F := Ideal) m c t.val t.isLt).2.1 (ix2 i 0), (outsAt0 (F := Ideal) m c t.val t.isLt).2.2 (ix2 i 0)) : EReal × EReal)
      = (Cert.Spec.rowMax (V (F := Ideal) m c main_arg0) r, Cert.Spec.rowSum (V (F := Ideal) m c main_arg0) r) := by
    have h := acc_eq m c t.val t.isLt i r hr
    rw [h9] at h
    exact h.trans (run_row_ten m c hx r)
  have hout : ((outsAt0 (F := Ideal) m c t.val t.isLt).1 (ix2 i 0) : EReal)
      = (outsAt0 (F := Ideal) m c t.val t.isLt).2.1 (ix2 i 0) + Ideal.log ((outsAt0 (F := Ideal) m c t.val t.isLt).2.2 (ix2 i 0)) := by
    rw [outsAt0_C m c t h0 h9]
    exact ptC_out m c t h0 h9 _ _ (ix2 i 0)
  obtain ⟨hM, hS⟩ := Prod.mk.inj hacc
  rw [hout, hM, hS]
  rfl

/-- The output window's block index and extents at point t: row block t / 10, the one column; whole blocks. -/
theorem idx1 : ∀ t : Fin cfg0.N, win0_1.index t 0 = t.val / 10 ∧ win0_1.index t 1 = 0
    ∧ win0_1.xsize (grid0.coords t) 0 = 512 ∧ win0_1.xsize (grid0.coords t) 1 = 1 :=
  (by decide +kernel : ∀ t : Fin grid0.N, win0_1.index t 0 = t.val / 10 ∧ win0_1.index t 1 = 0
    ∧ win0_1.xsize (grid0.coords t) 0 = 512 ∧ win0_1.xsize (grid0.coords t) 1 = 1)

/-- The array the region leaves: each row's log-sum-exp. -/
abbrev G (c : Dev nD) : (⟨2, ![4096, 1]⟩ : Shape).Idx → EReal :=
  fun y => Cert.Spec.lseOf (V (F := Ideal) m c main_arg0) ⟨(y 0).val, (y 0).isLt⟩

/-- What a writing-back point writes is its block of that array. -/
theorem flushed_eq (c : Dev nD)
    (hx : ∀ i, ∃ a : ℝ, (V (F := Ideal) m c main_arg0 : (⟨2, ![4096, 32000]⟩ : Shape).Idx → EReal) i = (a : EReal))
    (t : Fin cfg0.N) (hf : (cfg0.win 1).flush t = true) :
    (dats (F := Ideal) m 0 c).flushed 1 t = ((cfg0.win 1).blk t).view.read (Elt Ideal) (G m c) := by
  have h9 : t.val % 10 = 9 := (flush0_1 t).mp hf
  obtain ⟨e0, e1, s0, s1⟩ := idx1 t
  show (cfg0.win 1).cut (grid0.coords t) ((dats (F := Ideal) m 0 c).after 1 t) = _
  rw [after0_1]
  funext y
  have hy0 : (y 0).val < 512 := lt_of_lt_of_eq (y 0).isLt s0
  have hy1 : (y 1).val = 0 := by have := lt_of_lt_of_eq (y 1).isLt s1; omega
  have hxi : (cfg0.win 1).xinj (grid0.coords t) y = (ix2 ⟨(y 0).val, hy0⟩ 0 : S512x1.Idx) := by
    funext a
    apply Fin.ext
    match a with
    | ⟨0, _⟩ => rfl
    | ⟨1, _⟩ => exact hy1
  show ((outsAt0 (F := Ideal) m c t.val t.isLt).1 ((cfg0.win 1).xinj (grid0.coords t) y) : EReal) = _
  rw [hxi]
  refine out_eq m c hx t h9 ⟨(y 0).val, hy0⟩ _ ?_
  show win0_1.index t 0 * 512 + 1 * (y 0).val = 512 * (t.val / 10) + (y 0).val
  rw [e0]
  omega

open Cert.KernelIdeal Cert.KernelIdeal.Gen Cert.KernelIdeal.Fr Idealize.ShloMosaic Idealize.ShloMosaic.ValueIdx in
/-- THE REGION'S VALUE: with real logits the output array ends holding each row's log-sum-exp. -/
theorem lse_final (m : (ℓ : Loc nD τ sig) → Buf (Elt Ideal) ℓ) (c : Dev nD)
    (hx : ∀ i, ∃ a : ℝ, (V (F := Ideal) m c main_arg0 : (⟨2, ![4096, 32000]⟩ : Shape).Idx → EReal) i = (a : EReal)) :
    ((dats (F := Ideal) m 0 c).arrAt 1 cfg0.N : (⟨2, ![4096, 1]⟩ : Shape).Idx → EReal)
      = fun y => Cert.Spec.lseOf (V (F := Ideal) m c main_arg0) ⟨(y 0).val, (y 0).isLt⟩ :=
  (dats (F := Ideal) m 0 c).arrAt_eq_of_cover 1 (G m c) (flushed_eq m c hx) fun i => by
    have hi0 : (i 0 : Nat) < 4096 := (i 0).isLt
    have hi1 : (i 1 : Nat) < 1 := (i 1).isLt
    have ht : 10 * ((i 0 : Nat) / 512) + 9 < cfg0.N := by rw [show cfg0.N = 80 from N_0]; omega
    obtain ⟨e0, e1, s0, s1⟩ := idx1 ⟨10 * ((i 0 : Nat) / 512) + 9, ht⟩
    refine ⟨⟨10 * ((i 0 : Nat) / 512) + 9, ht⟩, (flush0_1 _).mpr (by show (10 * ((i 0 : Nat) / 512) + 9) % 10 = 9; omega), ?_⟩
    show i ∈ ((View.whole main_v0).slice (win0_1.rect ⟨10 * ((i 0 : Nat) / 512) + 9, ht⟩)).set
    rw [View.set_slice_whole, Rect.mem_set_unit]
    intro a
    match a with
    | ⟨0, _⟩ =>
      show win0_1.index ⟨10 * ((i 0 : Nat) / 512) + 9, ht⟩ 0 * win0_1.size 0 ≤ (i 0 : Nat)
        ∧ (i 0 : Nat) < win0_1.index ⟨10 * ((i 0 : Nat) / 512) + 9, ht⟩ 0 * win0_1.size 0 + win0_1.xsize (grid0.coords ⟨10 * ((i 0 : Nat) / 512) + 9, ht⟩) 0
      rw [e0, s0, show win0_1.size 0 = 512 from rfl]
      show (10 * ((i 0 : Nat) / 512) + 9) / 10 * 512 ≤ (i 0 : Nat) ∧ (i 0 : Nat) < (10 * ((i 0 : Nat) / 512) + 9) / 10 * 512 + 512
      omega
    | ⟨1, _⟩ =>
      show win0_1.index ⟨10 * ((i 0 : Nat) / 512) + 9, ht⟩ 1 * win0_1.size 1 ≤ (i 1 : Nat)
        ∧ (i 1 : Nat) < win0_1.index ⟨10 * ((i 0 : Nat) / 512) + 9, ht⟩ 1 * win0_1.size 1 + win0_1.xsize (grid0.coords ⟨10 * ((i 0 : Nat) / 512) + 9, ht⟩) 1
      rw [e1, s1]
      omega

end Cert.KernelIdeal.Val

end
-- ==== Proof.Bridge.lean ====
/-
  The two programs' probabilities agree. The streaming program forms exp(logit − lse) with
  lse = max + log Σ exp(logit − max); the reference forms exp((logit − max) − log Σ exp(logit − max)).
  When every logit of the row is a real number, the row's maximum M is real and the sum L of the shifted
  exponentials is a positive real, so log L is real and a − (M + log L) = (a − M) − log L is an identity of
  real numbers; the extended-real operations agree with the real ones on real operands.
-/
import Idealize.ShloMosaic.PureOps.Ideal
import Idealize.ShloMosaic.Lib.ValueIdx
import proofs.«178677_j88021059764894_2_alg».proof.Proof.Spec
import proofs.«178677_j88021059764894_2_alg».proof.Proof.LibOnlineSoftmax

noncomputable section

open scoped BigOperators

namespace Cert.Bridge

open Idealize.ShloMosaic Idealize.ShloMosaic.ValueIdx

/-- On reals: exp(a − (M + log L)) = exp((a − M) − log L) for L > 0, computed in the extended reals. -/
theorem exp_sub_lse (a M L : ℝ) (hL : 0 < L) :
    Ideal.exp ((a : EReal) - ((M : EReal) + Ideal.log (L : EReal))) = Ideal.exp (((a : EReal) - (M : EReal)) - Ideal.log (L : EReal)) := by
  have hlog : Ideal.log (L : EReal) = ((Real.log L : ℝ) : EReal) := by
    rw [Ideal.log_coe, if_neg (not_le.2 hL)]
  rw [hlog, ← EReal.coe_add, ← EReal.coe_sub, ← EReal.coe_sub, ← EReal.coe_sub, sub_add_eq_sub_sub]

/-- The maximum of a row of reals is a real. -/
theorem rowMax_real (a : (⟨2, ![4096, 32000]⟩ : Shape).Idx → ℝ) (r : Fin 4096) :
    ∃ M : ℝ, Cert.Spec.rowMax (fun i => (a i : EReal)) r = (M : EReal) :=
  ⟨_, Cert.OnlineSoftmax.fold_max_coe Finset.univ Finset.univ_nonempty fun j : Fin 32000 => a (ix2 r j)⟩

/-- The sum of the shifted exponentials of a row of reals is a positive real. -/
theorem rowSum_real (a : (⟨2, ![4096, 32000]⟩ : Shape).Idx → ℝ) (r : Fin 4096) :
    ∃ L : ℝ, 0 < L ∧ Cert.Spec.rowSum (fun i => (a i : EReal)) r = (L : EReal) := by
  obtain ⟨M, hM⟩ := rowMax_real a r
  refine ⟨∑ j : Fin 32000, Real.exp (a (ix2 r j) - M), Finset.sum_pos (fun j _ => Real.exp_pos _) Finset.univ_nonempty, ?_⟩
  rw [Cert.Spec.rowSum, hM, Cert.OnlineSoftmax.coe_sum]
  refine Finset.sum_congr rfl fun j _ => ?_
  rw [← EReal.coe_sub]
  rfl

/-- One probability: the streaming program's exp(logit − lse) is the reference's exp((logit − max) − log Σ). -/
theorem prob_eq (x : (⟨2, ![4096, 32000]⟩ : Shape).Idx → EReal) (hx : ∀ i, ∃ a : ℝ, x i = (a : EReal)) (r : Fin 4096) (c : Fin 32000) :
    FloatOps.hostUnary (F := Ideal) (φ := .f32) .exp (FloatOps.subf (F := Ideal) (φ := .f32) (x (ix2 r c)) (Cert.Spec.lseOf x r))
      = FloatOps.hostUnary (F := Ideal) (φ := .f32) .exp (FloatOps.subf (F := Ideal) (φ := .f32)
          (FloatOps.subf (F := Ideal) (φ := .f32) (x (ix2 r c)) (Cert.Spec.rowMax x r))
          (FloatOps.hostUnary (F := Ideal) (φ := .f32) .log (Cert.Spec.rowSum x r))) := by
  choose a ha using hx
  obtain rfl : x = fun i => (a i : EReal) := funext ha
  obtain ⟨M, hM⟩ := rowMax_real a r
  obtain ⟨L, hL, hS⟩ := rowSum_real a r
  simp only [Ideal.hostUnary_exp_def, Ideal.hostUnary_log_def, Ideal.subf_def]
  rw [Cert.Spec.lseOf, hM, hS]
  exact exp_sub_lse _ M L hL

/-- With real logits the row the streaming program forms, from the log-sum-exp max + log Σ, is the reference's row. -/
theorem rows_eq (x : (⟨2, ![4096, 32000]⟩ : Shape).Idx → EReal) (hx : ∀ i, ∃ a : ℝ, x i = (a : EReal))
    (tgt : (⟨1, ![4096]⟩ : Shape).Idx → BitVec 32) (X1 : (⟨2, ![1, 32000]⟩ : Shape).Idx → EReal)
    (Y1 : (⟨2, ![1, 32000]⟩ : Shape).Idx → BitVec 32) (X2 : (⟨2, ![1, 32000]⟩ : Shape).Idx → EReal)
    (Y2 : (⟨2, ![1, 32000]⟩ : Shape).Idx → BitVec 32) (T : (⟨1, ![1]⟩ : Shape).Idx → EReal) (r : Fin 4096) :
    Cert.Spec.kerRow (Cert.Spec.lseOf x) x tgt X1 Y1 X2 Y2 T r = Cert.Spec.refRow x tgt X1 Y1 X2 Y2 T r := by
  rw [Cert.Spec.kerRow, Cert.Spec.refRow, prob_eq x hx r (Cert.Spec.tcol tgt r), prob_eq x hx r (Cert.Spec.ycol Y1 tgt r),
    prob_eq x hx r (Cert.Spec.ycol Y2 tgt r)]

end Cert.Bridge

end
-- ==== Proof.KIResults.lean ====
/-
  The kernel program's four results at the extended reals, under finite logits and in-range index words: the region
  leaves each row's log-sum-exp, the host operations after it form from it the same four sums the reference forms from
  its log-softmax, because exp(logit − (max + log Σ)) = exp((logit − max) − log Σ) when everything is finite.
-/
import proofs.«178677_j88021059764894_2_alg».proof.Proof.KIClaim
import proofs.«178677_j88021059764894_2_alg».proof.Proof.KerTail
import proofs.«178677_j88021059764894_2_alg».proof.Proof.KIValue
import proofs.«178677_j88021059764894_2_alg».proof.Proof.Bridge

noncomputable section

namespace Cert.KernelIdeal.Res

open Cert.KernelIdeal Cert.KernelIdeal.Gen Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- What the host operations after the region start from: the region's two arrays at their final contents, every
    other buffer as at the launch. -/
abbrev Wt (c : Dev nD) : Valuation τ sig (Elt Ideal) :=
  Pipeline.withArrays spec0 c (V0 m c) (fun w => (dats (F := Ideal) m 0 c).arrAt w cfg0.N)

theorem Wt_rest (c : Dev nD) (b : Ref sig .tc) (hb : ∀ w, Pipeline.arrRef spec0 w ≠ b) :
    Wt m c (Proc.devRef .tc b) = m ((c.tc : Thread nD τ).loc b) :=
  Pipeline.withArrays_of_ne spec0 c _ _ b hb

theorem Wt_arg0 (c : Dev nD) : Wt m c (Proc.devRef .tc main_arg0) = m ((c.tc : Thread nD τ).loc main_arg0) :=
  (Pipeline.withArrays_arr spec0 launch0.win.arr_inj c _ _ 0).trans
    (((dats (F := Ideal) m 0 c).arrAt_in 0 rfl _).trans ((A_eq m c 0).trans (V_main_arg0 m c)))

theorem Wt_v0 (c : Dev nD) : Wt m c (Proc.devRef .tc main_v0) = (dats (F := Ideal) m 0 c).arrAt 1 cfg0.N :=
  Pipeline.withArrays_arr spec0 launch0.win.arr_inj c _ _ 1

/-- The rows of the loss, from the launch memory of core `c`. -/
abbrev rowsOf (c : Dev nD) : Fin 4096 → Cert.Spec.Row :=
  Cert.Spec.refRow (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))

/-- The kernel program's rows, formed from the buffers the host operations start from, are the reference's rows of the
    launch memory: the region's array holds each row's log-sum-exp, and with finite logits the two spellings of a
    softmax probability agree. -/
theorem rows_eq (c : Dev nD)
    (hx : ∀ i, ∃ a : ℝ, (m ((c.tc : Thread nD τ).loc main_arg0) : (⟨2, ![4096, 32000]⟩ : Shape).Idx → EReal) i = (a : EReal)) :
    Cert.Spec.kerRow (fun r => (Wt m c (Proc.devRef .tc main_v0) : (⟨2, ![4096, 1]⟩ : Shape).Idx → EReal) (ix2 r 0))
        (Wt m c (Proc.devRef .tc main_arg0)) (Wt m c (Proc.devRef .tc main_arg1)) (Wt m c (Proc.devRef .tc main_arg2)) (Wt m c (Proc.devRef .tc main_arg3))
        (Wt m c (Proc.devRef .tc main_arg4)) (Wt m c (Proc.devRef .tc main_arg5)) (Wt m c (Proc.devRef .tc main_arg6))
      = rowsOf m c := by
  rw [Wt_v0, Wt_arg0, Wt_rest m c main_arg1 (by decide), Wt_rest m c main_arg2 (by decide), Wt_rest m c main_arg3 (by decide), Wt_rest m c main_arg4 (by decide), Wt_rest m c main_arg5 (by decide), Wt_rest m c main_arg6 (by decide)]
  rw [Cert.KernelIdeal.Val.lse_final m c hx]
  funext r
  exact Cert.Bridge.rows_eq _ hx _ _ _ _ _ _ r

/-- THE KERNEL PROGRAM'S RUN at the extended reals: the four results are the reference's four sums of the launch
    memory, and the arguments end unchanged. -/
theorem run
    (hx : ∀ (c : Dev nD) i, ∃ a : ℝ, (m ((c.tc : Thread nD τ).loc main_arg0) : (⟨2, ![4096, 32000]⟩ : Shape).Idx → EReal) i = (a : EReal))
    (h1 : ∀ (c : Dev nD) i, Cert.Spec.InRange ((m ((c.tc : Thread nD τ).loc main_arg1) : (⟨1, ![4096]⟩ : Shape).Idx → BitVec 32) i))
    (h3 : ∀ (c : Dev nD) i, Cert.Spec.InRange ((m ((c.tc : Thread nD τ).loc main_arg3) : (⟨2, ![1, 32000]⟩ : Shape).Idx → BitVec 32) i))
    (h5 : ∀ (c : Dev nD) i, Cert.Spec.InRange ((m ((c.tc : Thread nD τ).loc main_arg5) : (⟨2, ![1, 32000]⟩ : Shape).Idx → BitVec 32) i)) :
    θ_run defs (onTc (τ := τ) (main (F := Ideal))) ⟨m, fun _ => 0, ρ⟩ (fun r => ∀ c : Dev nD,
      r.2.mem ((c.tc : Thread nD τ).loc main_v86) = (fun _ => Cert.Spec.resLoss (rowsOf m c))
      ∧ r.2.mem ((c.tc : Thread nD τ).loc main_v87) = (fun _ => Cert.Spec.resK (rowsOf m c))
      ∧ r.2.mem ((c.tc : Thread nD τ).loc main_v88) = (fun _ => Cert.Spec.resZ (rowsOf m c))
      ∧ r.2.mem ((c.tc : Thread nD τ).loc main_v89) = (fun _ => Cert.Spec.resJ (rowsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun _ h c => ?_) (run_main (F := Ideal) m ρ)
  have hk := Cert.KerTail.results (Wt m c)
    (by rw [Wt_rest m c main_arg1 (by decide)]; exact h1 c)
    (by rw [Wt_rest m c main_arg3 (by decide)]; exact h3 c)
    (by rw [Wt_rest m c main_arg5 (by decide)]; exact h5 c)
  simp only [] at hk
  rw [rows_eq m c (hx c)] at hk
  refine ⟨((h c).2 main_v86 (Pipeline.mem_restRefs_of main_v86 (by decide) (by decide))).trans hk.1,
    ((h c).2 main_v87 (Pipeline.mem_restRefs_of main_v87 (by decide) (by decide))).trans hk.2.1,
    ((h c).2 main_v88 (Pipeline.mem_restRefs_of main_v88 (by decide) (by decide))).trans hk.2.2.1,
    ((h c).2 main_v89 (Pipeline.mem_restRefs_of main_v89 (by decide) (by decide))).trans hk.2.2.2,
    ((h c).1 0).trans (((dats (F := Ideal) m 0 c).arrAt_in 0 rfl _).trans ((A_eq m c 0).trans (V_main_arg0 m c))),
    ((h c).2 main_arg1 (Pipeline.mem_restRefs_of main_arg1 (by decide) (by decide))).trans (tail_main_arg1 m c),
    ((h c).2 main_arg2 (Pipeline.mem_restRefs_of main_arg2 (by decide) (by decide))).trans (tail_main_arg2 m c),
    ((h c).2 main_arg3 (Pipeline.mem_restRefs_of main_arg3 (by decide) (by decide))).trans (tail_main_arg3 m c),
    ((h c).2 main_arg4 (Pipeline.mem_restRefs_of main_arg4 (by decide) (by decide))).trans (tail_main_arg4 m c),
    ((h c).2 main_arg5 (Pipeline.mem_restRefs_of main_arg5 (by decide) (by decide))).trans (tail_main_arg5 m c),
    ((h c).2 main_arg6 (Pipeline.mem_restRefs_of main_arg6 (by decide) (by decide))).trans (tail_main_arg6 m c)⟩

end Cert.KernelIdeal.Res

end
-- ==== Proof.RefRunH0.lean ====
/-
  The reference program's @main as the list of its operations, the list cut into consecutive pieces, and the
  contents after a concatenation of lists as the contents after each piece in turn.
-/
import proofs.«178677_j88021059764894_2_alg».proof.Proof.RefReadP

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- @main's 176 operations, in order (a called function's operations stand in its call's place, spelt `TRef.…`). -/
abbrev ops : List (HloOp τ sig (Elt F)) :=
  [ nullary main_v0 (iotaInDim S4096 32 0),
    TRef.nullary (TRef.of (T := ⟨S_, .f32⟩) main_call0_cst) (constant S_ .f32 0xFF800000#32),
    TRef.binary (TRef.of (T := ⟨S4096x32000, .f32⟩) main_arg0) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_arg0) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v1) subf,
    nullary main_c (constantI S_ 32 0#32),
    unary main_c main_v2 (broadcastInDim S4096 ![] bcast_S_S4096 : (⟨S_, .i32⟩ : BufTy).Contents (Elt F) → (⟨S4096, .i32⟩ : BufTy).Contents (Elt F)),
    binary main_v0 main_v2 main_v3 (cmpi .slt : (⟨S4096, .i32⟩ : BufTy).Contents (Elt F) → (⟨S4096, .i32⟩ : BufTy).Contents (Elt F) → (⟨S4096, .i1⟩ : BufTy).Contents (Elt F)),
    nullary main_c_0 (constantI S_ 32 4096#32),
    unary main_c_0 main_v4 (broadcastInDim S4096 ![] bcast_S_S4096 : (⟨S_, .i32⟩ : BufTy).Contents (Elt F) → (⟨S4096, .i32⟩ : BufTy).Contents (Elt F)),
    binary main_v0 main_v4 main_v5 (addi : (⟨S4096, .i32⟩ : BufTy).Contents (Elt F) → (⟨S4096, .i32⟩ : BufTy).Contents (Elt F) → (⟨S4096, .i32⟩ : BufTy).Contents (Elt F)),
    ternary main_v3 main_v5 main_v0 main_v6 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_1 (constantI S_ 32 0#32),
    unary main_c_1 main_v7 (broadcastInDim S4096 ![] bcast_S_S4096 : (⟨S_, .i32⟩ : BufTy).Contents (Elt F) → (⟨S4096, .i32⟩ : BufTy).Contents (Elt F)),
    binary main_arg1 main_v7 main_v8 (cmpi .slt : (⟨S4096, .i32⟩ : BufTy).Contents (Elt F) → (⟨S4096, .i32⟩ : BufTy).Contents (Elt F) → (⟨S4096, .i1⟩ : BufTy).Contents (Elt F)),
    nullary main_c_2 (constantI S_ 32 32000#32),
    unary main_c_2 main_v9 (broadcastInDim S4096 ![] bcast_S_S4096 : (⟨S_, .i32⟩ : BufTy).Contents (Elt F) → (⟨S4096, .i32⟩ : BufTy).Contents (Elt F)),
    binary main_arg1 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_arg1 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v6 main_v12 (broadcastInDim S4096x1 ![0] bcast_S4096_S4096x1_0 : (⟨S4096, .i32⟩ : BufTy).Contents (Elt F) → (⟨S4096x1, .i32⟩ : BufTy).Contents (Elt F)),
    unary main_v11 main_v13 (broadcastInDim S4096x1 ![0] bcast_S4096_S4096x1_0 : (⟨S4096, .i32⟩ : BufTy).Contents (Elt F) → (⟨S4096x1, .i32⟩ : BufTy).Contents (Elt F)),
    binary main_v12 main_v13 main_v14 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v1 main_v14 main_v15 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)),
    unary main_v15 main_v16 (Host.exp : (⟨S4096, .f32⟩ : BufTy).Contents (Elt F) → (⟨S4096, .f32⟩ : BufTy).Contents (Elt F)),
    nullary main_c_3 (constantI S_ 32 0#32),
    unary main_c_3 main_v17 (broadcastInDim S4096 ![] bcast_S_S4096 : (⟨S_, .i32⟩ : BufTy).Contents (Elt F) → (⟨S4096, .i32⟩ : BufTy).Contents (Elt F)),
    binary main_arg1 main_v17 main_v18 (cmpi .slt : (⟨S4096, .i32⟩ : BufTy).Contents (Elt F) → (⟨S4096, .i32⟩ : BufTy).Contents (Elt F) → (⟨S4096, .i1⟩ : BufTy).Contents (Elt F)),
    nullary main_c_4 (constantI S_ 32 32000#32),
    unary main_c_4 main_v19 (broadcastInDim S4096 ![] bcast_S_S4096 : (⟨S_, .i32⟩ : BufTy).Contents (Elt F) → (⟨S4096, .i32⟩ : BufTy).Contents (Elt F)),
    binary main_arg1 main_v19 main_v20 (addi : (⟨S4096, .i32⟩ : BufTy).Contents (Elt F) → (⟨S4096, .i32⟩ : BufTy).Contents (Elt F) → (⟨S4096, .i32⟩ : BufTy).Contents (Elt F)),
    ternary main_v18 main_v20 main_arg1 main_v21 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v22 (broadcastInDim S4096 ![] bcast_S_S4096 : (⟨S_, .i32⟩ : BufTy).Contents (Elt F) → (⟨S4096, .i32⟩ : BufTy).Contents (Elt F)),
    unary main_v22 main_v23 (id : (⟨S4096, .i32⟩ : BufTy).Contents (Elt F) → (⟨S4096, .i32⟩ : BufTy).Contents (Elt F)),
    unary main_v23 main_v24 (broadcastInDim S4096x1 ![0] bcast_S4096_S4096x1_0 : (⟨S4096, .i32⟩ : BufTy).Contents (Elt F) → (⟨S4096x1, .i32⟩ : BufTy).Contents (Elt F)),
    unary main_v21 main_v25 (broadcastInDim S4096x1 ![0] bcast_S4096_S4096x1_0 : (⟨S4096, .i32⟩ : BufTy).Contents (Elt F) → (⟨S4096x1, .i32⟩ : BufTy).Contents (Elt F)),
    binary main_v24 main_v25 main_v26 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg3 main_v26 main_v27 ((fun x i => Host.gather gather_S1x32000_S4096x2_S4096_n_01_n_n_01_1_11 x i) : (⟨S1x32000, .i32⟩ : BufTy).Contents (Elt F) → (⟨S4096x2, .i32⟩ : BufTy).Contents (Elt F) → (⟨S4096, .i32⟩ : BufTy).Contents (Elt F)),
    nullary main_c_6 (constantI S_ 32 0#32),
    unary main_c_6 main_v28 (broadcastInDim S4096 ![] bcast_S_S4096 : (⟨S_, .i32⟩ : BufTy).Contents (Elt F) → (⟨S4096, .i32⟩ : BufTy).Contents (Elt F)),
    binary main_arg1 main_v28 main_v29 (cmpi .slt : (⟨S4096, .i32⟩ : BufTy).Contents (Elt F) → (⟨S4096, .i32⟩ : BufTy).Contents (Elt F) → (⟨S4096, .i1⟩ : BufTy).Contents (Elt F)),
    nullary main_c_7 (constantI S_ 32 32000#32),
    unary main_c_7 main_v30 (broadcastInDim S4096 ![] bcast_S_S4096 : (⟨S_, .i32⟩ : BufTy).Contents (Elt F) → (⟨S4096, .i32⟩ : BufTy).Contents (Elt F)),
    binary main_arg1 main_v30 main_v31 (addi : (⟨S4096, .i32⟩ : BufTy).Contents (Elt F) → (⟨S4096, .i32⟩ : BufTy).Contents (Elt F) → (⟨S4096, .i32⟩ : BufTy).Contents (Elt F)),
    ternary main_v29 main_v31 main_arg1 main_v32 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_8 (constantI S_ 32 0#32),
    unary main_c_8 main_v33 (broadcastInDim S4096 ![] bcast_S_S4096 : (⟨S_, .i32⟩ : BufTy).Contents (Elt F) → (⟨S4096, .i32⟩ : BufTy).Contents (Elt F)),
    unary main_v33 main_v34 (id : (⟨S4096, .i32⟩ : BufTy).Contents (Elt F) → (⟨S4096, .i32⟩ : BufTy).Contents (Elt F)),
    unary main_v34 main_v35 (broadcastInDim S4096x1 ![0] bcast_S4096_S4096x1_0 : (⟨S4096, .i32⟩ : BufTy).Contents (Elt F) → (⟨S4096x1, .i32⟩ : BufTy).Contents (Elt F)),
    unary main_v32 main_v36 (broadcastInDim S4096x1 ![0] bcast_S4096_S4096x1_0 : (⟨S4096, .i32⟩ : BufTy).Contents (Elt F) → (⟨S4096x1, .i32⟩ : BufTy).Contents (Elt F)),
    binary main_v35 main_v36 main_v37 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg5 main_v37 main_v38 ((fun x i => Host.gather gather_S1x32000_S4096x2_S4096_n_01_n_n_01_1_11 x i) : (⟨S1x32000, .i32⟩ : BufTy).Contents (Elt F) → (⟨S4096x2, .i32⟩ : BufTy).Contents (Elt F) → (⟨S4096, .i32⟩ : BufTy).Contents (Elt F)),
    nullary main_c_9 (constantI S_ 32 0#32),
    unary main_c_9 main_v39 (broadcastInDim S4096 ![] bcast_S_S4096 : (⟨S_, .i32⟩ : BufTy).Contents (Elt F) → (⟨S4096, .i32⟩ : BufTy).Contents (Elt F)),
    binary main_arg1 main_v39 main_v40 (cmpi .slt : (⟨S4096, .i32⟩ : BufTy).Contents (Elt F) → (⟨S4096, .i32⟩ : BufTy).Contents (Elt F) → (⟨S4096, .i1⟩ : BufTy).Contents (Elt F)),
    nullary main_c_10 (constantI S_ 32 32000#32),
    unary main_c_10 main_v41 (broadcastInDim S4096 ![] bcast_S_S4096 : (⟨S_, .i32⟩ : BufTy).Contents (Elt F) → (⟨S4096, .i32⟩ : BufTy).Contents (Elt F)),
    binary main_arg1 main_v41 main_v42 (addi : (⟨S4096, .i32⟩ : BufTy).Contents (Elt F) → (⟨S4096, .i32⟩ : BufTy).Contents (Elt F) → (⟨S4096, .i32⟩ : BufTy).Contents (Elt F)),
    ternary main_v40 main_v42 main_arg1 main_v43 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_11 (constantI S_ 32 0#32),
    unary main_c_11 main_v44 (broadcastInDim S4096 ![] bcast_S_S4096 : (⟨S_, .i32⟩ : BufTy).Contents (Elt F) → (⟨S4096, .i32⟩ : BufTy).Contents (Elt F)),
    unary main_v44 main_v45 (id : (⟨S4096, .i32⟩ : BufTy).Contents (Elt F) → (⟨S4096, .i32⟩ : BufTy).Contents (Elt F)),
    unary main_v45 main_v46 (broadcastInDim S4096x1 ![0] bcast_S4096_S4096x1_0 : (⟨S4096, .i32⟩ : BufTy).Contents (Elt F) → (⟨S4096x1, .i32⟩ : BufTy).Contents (Elt F)),
    unary main_v43 main_v47 (broadcastInDim S4096x1 ![0] bcast_S4096_S4096x1_0 : (⟨S4096, .i32⟩ : BufTy).Contents (Elt F) → (⟨S4096x1, .i32⟩ : BufTy).Contents (Elt F)),
    binary main_v46 main_v47 main_v48 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg2 main_v48 main_v49 ((fun x i => Host.gather gather_S1x32000_S4096x2_S4096_n_01_n_n_01_1_11 x i) : (⟨S1x32000, .f32⟩ : BufTy).Contents (Elt F) → (⟨S4096x2, .i32⟩ : BufTy).Contents (Elt F) → (⟨S4096, .f32⟩ : BufTy).Contents (Elt F)),
    nullary main_c_12 (constantI S_ 32 0#32),
    unary main_c_12 main_v50 (broadcastInDim S4096 ![] bcast_S_S4096 : (⟨S_, .i32⟩ : BufTy).Contents (Elt F) → (⟨S4096, .i32⟩ : BufTy).Contents (Elt F)),
    binary main_arg1 main_v50 main_v51 (cmpi .slt : (⟨S4096, .i32⟩ : BufTy).Contents (Elt F) → (⟨S4096, .i32⟩ : BufTy).Contents (Elt F) → (⟨S4096, .i1⟩ : BufTy).Contents (Elt F)),
    nullary main_c_13 (constantI S_ 32 32000#32),
    unary main_c_13 main_v52 (broadcastInDim S4096 ![] bcast_S_S4096 : (⟨S_, .i32⟩ : BufTy).Contents (Elt F) → (⟨S4096, .i32⟩ : BufTy).Contents (Elt F)),
    binary main_arg1 main_v52 main_v53 (addi : (⟨S4096, .i32⟩ : BufTy).Contents (Elt F) → (⟨S4096, .i32⟩ : BufTy).Contents (Elt F) → (⟨S4096, .i32⟩ : BufTy).Contents (Elt F)),
    ternary main_v51 main_v53 main_arg1 main_v54 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_14 (constantI S_ 32 0#32),
    unary main_c_14 main_v55 (broadcastInDim S4096 ![] bcast_S_S4096 : (⟨S_, .i32⟩ : BufTy).Contents (Elt F) → (⟨S4096, .i32⟩ : BufTy).Contents (Elt F)),
    unary main_v55 main_v56 (id : (⟨S4096, .i32⟩ : BufTy).Contents (Elt F) → (⟨S4096, .i32⟩ : BufTy).Contents (Elt F)),
    unary main_v56 main_v57 (broadcastInDim S4096x1 ![0] bcast_S4096_S4096x1_0 : (⟨S4096, .i32⟩ : BufTy).Contents (Elt F) → (⟨S4096x1, .i32⟩ : BufTy).Contents (Elt F)),
    unary main_v54 main_v58 (broadcastInDim S4096x1 ![0] bcast_S4096_S4096x1_0 : (⟨S4096, .i32⟩ : BufTy).Contents (Elt F) → (⟨S4096x1, .i32⟩ : BufTy).Contents (Elt F)),
    binary main_v57 main_v58 main_v59 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_arg4 main_v59 main_v60 ((fun x i => Host.gather gather_S1x32000_S4096x2_S4096_n_01_n_n_01_1_11 x i) : (⟨S1x32000, .f32⟩ : BufTy).Contents (Elt F) → (⟨S4096x2, .i32⟩ : BufTy).Contents (Elt F) → (⟨S4096, .f32⟩ : BufTy).Contents (Elt F)),
    nullary main_c_15 (constantI S_ 32 0#32),
    unary main_c_15 main_v61 (broadcastInDim S4096 ![] bcast_S_S4096 : (⟨S_, .i32⟩ : BufTy).Contents (Elt F) → (⟨S4096, .i32⟩ : BufTy).Contents (Elt F)),
    binary main_v0 main_v61 main_v62 (cmpi .slt : (⟨S4096, .i32⟩ : BufTy).Contents (Elt F) → (⟨S4096, .i32⟩ : BufTy).Contents (Elt F) → (⟨S4096, .i1⟩ : BufTy).Contents (Elt F)),
    nullary main_c_16 (constantI S_ 32 4096#32),
    unary main_c_16 main_v63 (broadcastInDim S4096 ![] bcast_S_S4096 : (⟨S_, .i32⟩ : BufTy).Contents (Elt F) → (⟨S4096, .i32⟩ : BufTy).Contents (Elt F)),
    binary main_v0 main_v63 main_v64 (addi : (⟨S4096, .i32⟩ : BufTy).Contents (Elt F) → (⟨S4096, .i32⟩ : BufTy).Contents (Elt F) → (⟨S4096, .i32⟩ : BufTy).Contents (Elt F)),
    ternary main_v62 main_v64 main_v0 main_v65 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_17 (constantI S_ 32 0#32),
    unary main_c_17 main_v66 (broadcastInDim S4096 ![] bcast_S_S4096 : (⟨S_, .i32⟩ : BufTy).Contents (Elt F) → (⟨S4096, .i32⟩ : BufTy).Contents (Elt F)),
    binary main_v27 main_v66 main_v67 (cmpi .slt : (⟨S4096, .i32⟩ : BufTy).Contents (Elt F) → (⟨S4096, .i32⟩ : BufTy).Contents (Elt F) → (⟨S4096, .i1⟩ : BufTy).Contents (Elt F)),
    nullary main_c_18 (constantI S_ 32 32000#32),
    unary main_c_18 main_v68 (broadcastInDim S4096 ![] bcast_S_S4096 : (⟨S_, .i32⟩ : BufTy).Contents (Elt F) → (⟨S4096, .i32⟩ : BufTy).Contents (Elt F)),
    binary main_v27 main_v68 main_v69 (addi : (⟨S4096, .i32⟩ : BufTy).Contents (Elt F) → (⟨S4096, .i32⟩ : BufTy).Contents (Elt F) → (⟨S4096, .i32⟩ : BufTy).Contents (Elt F)),
    ternary main_v67 main_v69 main_v27 main_v70 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v65 main_v71 (broadcastInDim S4096x1 ![0] bcast_S4096_S4096x1_0 : (⟨S4096, .i32⟩ : BufTy).Contents (Elt F) → (⟨S4096x1, .i32⟩ : BufTy).Contents (Elt F)),
    unary main_v70 main_v72 (broadcastInDim S4096x1 ![0] bcast_S4096_S4096x1_0 : (⟨S4096, .i32⟩ : BufTy).Contents (Elt F) → (⟨S4096x1, .i32⟩ : BufTy).Contents (Elt F)),
    binary main_v71 main_v72 main_v73 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v1 main_v73 main_v74 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)),
    unary main_v74 main_v75 (Host.exp : (⟨S4096, .f32⟩ : BufTy).Contents (Elt F) → (⟨S4096, .f32⟩ : BufTy).Contents (Elt F)),
    nullary main_c_19 (constantI S_ 32 0#32),
    unary main_c_19 main_v76 (broadcastInDim S4096 ![] bcast_S_S4096 : (⟨S_, .i32⟩ : BufTy).Contents (Elt F) → (⟨S4096, .i32⟩ : BufTy).Contents (Elt F)),
    binary main_v0 main_v76 main_v77 (cmpi .slt : (⟨S4096, .i32⟩ : BufTy).Contents (Elt F) → (⟨S4096, .i32⟩ : BufTy).Contents (Elt F) → (⟨S4096, .i1⟩ : BufTy).Contents (Elt F)),
    nullary main_c_20 (constantI S_ 32 4096#32),
    unary main_c_20 main_v78 (broadcastInDim S4096 ![] bcast_S_S4096 : (⟨S_, .i32⟩ : BufTy).Contents (Elt F) → (⟨S4096, .i32⟩ : BufTy).Contents (Elt F)),
    binary main_v0 main_v78 main_v79 (addi : (⟨S4096, .i32⟩ : BufTy).Contents (Elt F) → (⟨S4096, .i32⟩ : BufTy).Contents (Elt F) → (⟨S4096, .i32⟩ : BufTy).Contents (Elt F)),
    ternary main_v77 main_v79 main_v0 main_v80 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_21 (constantI S_ 32 0#32),
    unary main_c_21 main_v81 (broadcastInDim S4096 ![] bcast_S_S4096 : (⟨S_, .i32⟩ : BufTy).Contents (Elt F) → (⟨S4096, .i32⟩ : BufTy).Contents (Elt F)),
    binary main_v38 main_v81 main_v82 (cmpi .slt : (⟨S4096, .i32⟩ : BufTy).Contents (Elt F) → (⟨S4096, .i32⟩ : BufTy).Contents (Elt F) → (⟨S4096, .i1⟩ : BufTy).Contents (Elt F)),
    nullary main_c_22 (constantI S_ 32 32000#32),
    unary main_c_22 main_v83 (broadcastInDim S4096 ![] bcast_S_S4096 : (⟨S_, .i32⟩ : BufTy).Contents (Elt F) → (⟨S4096, .i32⟩ : BufTy).Contents (Elt F)),
    binary main_v38 main_v83 main_v84 (addi : (⟨S4096, .i32⟩ : BufTy).Contents (Elt F) → (⟨S4096, .i32⟩ : BufTy).Contents (Elt F) → (⟨S4096, .i32⟩ : BufTy).Contents (Elt F)),
    ternary main_v82 main_v84 main_v38 main_v85 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v80 main_v86 (broadcastInDim S4096x1 ![0] bcast_S4096_S4096x1_0 : (⟨S4096, .i32⟩ : BufTy).Contents (Elt F) → (⟨S4096x1, .i32⟩ : BufTy).Contents (Elt F)),
    unary main_v85 main_v87 (broadcastInDim S4096x1 ![0] bcast_S4096_S4096x1_0 : (⟨S4096, .i32⟩ : BufTy).Contents (Elt F) → (⟨S4096x1, .i32⟩ : BufTy).Contents (Elt F)),
    binary main_v86 main_v87 main_v88 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v1 main_v88 main_v89 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)),
    unary main_v89 main_v90 (Host.exp : (⟨S4096, .f32⟩ : BufTy).Contents (Elt F) → (⟨S4096, .f32⟩ : BufTy).Contents (Elt F)),
    reshape main_arg6 main_v91 rfl shapeCasts_S1_S_,
    binary main_v49 main_v75 main_v92 (mulf : (⟨S4096, .f32⟩ : BufTy).Contents (Elt F) → (⟨S4096, .f32⟩ : BufTy).Contents (Elt F) → (⟨S4096, .f32⟩ : BufTy).Contents (Elt F)),
    binary main_v60 main_v90 main_v93 (mulf : (⟨S4096, .f32⟩ : BufTy).Contents (Elt F) → (⟨S4096, .f32⟩ : BufTy).Contents (Elt F) → (⟨S4096, .f32⟩ : BufTy).Contents (Elt F)),
    binary main_v92 main_v93 main_v94 (addf : (⟨S4096, .f32⟩ : BufTy).Contents (Elt F) → (⟨S4096, .f32⟩ : BufTy).Contents (Elt F) → (⟨S4096, .f32⟩ : BufTy).Contents (Elt F)),
    unary main_v91 main_v95 (broadcastInDim S4096 ![] bcast_S_S4096 : (⟨S_, .f32⟩ : BufTy).Contents (Elt F) → (⟨S4096, .f32⟩ : BufTy).Contents (Elt F)),
    binary main_v95 main_v94 main_v96 (mulf : (⟨S4096, .f32⟩ : BufTy).Contents (Elt F) → (⟨S4096, .f32⟩ : BufTy).Contents (Elt F) → (⟨S4096, .f32⟩ : BufTy).Contents (Elt F)),
    binary main_v16 main_v96 main_v97 (cmpf .ogt : (⟨S4096, .f32⟩ : BufTy).Contents (Elt F) → (⟨S4096, .f32⟩ : BufTy).Contents (Elt F) → (⟨S4096, .i1⟩ : BufTy).Contents (Elt F)),
    binary main_v16 main_v96 main_v98 (subf : (⟨S4096, .f32⟩ : BufTy).Contents (Elt F) → (⟨S4096, .f32⟩ : BufTy).Contents (Elt F) → (⟨S4096, .f32⟩ : BufTy).Contents (Elt F)),
    nullary main_cst (constant S_ .f32 0x3F800000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S4096, .f32⟩) main_call1_v1) (broadcastInDim S4096 ![] bcast_S_S4096),
    TRef.ternary (TRef.of (T := ⟨S4096, .i1⟩) main_v97) (TRef.of (T := ⟨S4096, .f32⟩) main_v98) (TRef.of (T := ⟨S4096, .f32⟩) main_call1_v1) (TRef.of (T := ⟨S4096, .f32⟩) main_v99) select,
    unary main_v99 main_v100 (Host.log : (⟨S4096, .f32⟩ : BufTy).Contents (Elt F) → (⟨S4096, .f32⟩ : BufTy).Contents (Elt F)),
    unary main_v100 main_v101 (Host.negf : (⟨S4096, .f32⟩ : BufTy).Contents (Elt F) → (⟨S4096, .f32⟩ : BufTy).Contents (Elt F)),
    unary main_v16 main_v102 (Host.log : (⟨S4096, .f32⟩ : BufTy).Contents (Elt F) → (⟨S4096, .f32⟩ : BufTy).Contents (Elt F)),
    unary main_v102 main_v103 (Host.negf : (⟨S4096, .f32⟩ : BufTy).Contents (Elt F) → (⟨S4096, .f32⟩ : BufTy).Contents (Elt F)),
    TRef.ternary (TRef.of (T := ⟨S4096, .i1⟩) main_v97) (TRef.of (T := ⟨S4096, .f32⟩) main_v101) (TRef.of (T := ⟨S4096, .f32⟩) main_v103) (TRef.of (T := ⟨S4096, .f32⟩) main_v104) select,
    nullary main_cst_23 (constant S_ .f32 0x00000000#32),
    unary main_cst_23 main_v105 (broadcastInDim S4096 ![] bcast_S_S4096 : (⟨S_, .f32⟩ : BufTy).Contents (Elt F) → (⟨S4096, .f32⟩ : BufTy).Contents (Elt F)),
    binary main_v75 main_v105 main_v106 (cmpf .une : (⟨S4096, .f32⟩ : BufTy).Contents (Elt F) → (⟨S4096, .f32⟩ : BufTy).Contents (Elt F) → (⟨S4096, .i1⟩ : BufTy).Contents (Elt F)),
    nullary main_cst_24 (constant S_ .f32 0x00000000#32),
    unary main_cst_24 main_v107 (broadcastInDim S4096 ![] bcast_S_S4096 : (⟨S_, .f32⟩ : BufTy).Contents (Elt F) → (⟨S4096, .f32⟩ : BufTy).Contents (Elt F)),
    binary main_v90 main_v107 main_v108 (cmpf .une : (⟨S4096, .f32⟩ : BufTy).Contents (Elt F) → (⟨S4096, .f32⟩ : BufTy).Contents (Elt F) → (⟨S4096, .i1⟩ : BufTy).Contents (Elt F)),
    binary main_v106 main_v108 main_v109 (ori : (⟨S4096, .i1⟩ : BufTy).Contents (Elt F) → (⟨S4096, .i1⟩ : BufTy).Contents (Elt F) → (⟨S4096, .i1⟩ : BufTy).Contents (Elt F)),
    binary main_v97 main_v109 main_v110 (andi : (⟨S4096, .i1⟩ : BufTy).Contents (Elt F) → (⟨S4096, .i1⟩ : BufTy).Contents (Elt F) → (⟨S4096, .i1⟩ : BufTy).Contents (Elt F)),
    nullary main_cst_25 (constant S_ .f32 0x3F800000#32),
    TRef.unary (TRef.of (T := ⟨S_, .f32⟩) main_cst_25) (TRef.of (T := ⟨S_, .f32⟩) main_call3_v0) id,
    TRef.unary (TRef.of (T := ⟨S_, .f32⟩) main_call3_v0) (TRef.of (T := ⟨S4096, .f32⟩) main_call3_v1) (broadcastInDim S4096 ![] bcast_S_S4096),
    TRef.ternary (TRef.of (T := ⟨S4096, .i1⟩) main_v110) (TRef.of (T := ⟨S4096, .f32⟩) main_v96) (TRef.of (T := ⟨S4096, .f32⟩) main_call3_v1) (TRef.of (T := ⟨S4096, .f32⟩) main_v111) select,
    binary main_v16 main_v111 main_v112 (Host.divf : (⟨S4096, .f32⟩ : BufTy).Contents (Elt F) → (⟨S4096, .f32⟩ : BufTy).Contents (Elt F) → (⟨S4096, .f32⟩ : BufTy).Contents (Elt F)),
    nullary main_cst_26 (constant S_ .f32 0x00000000#32),
    TRef.unary (TRef.of (T := ⟨S_, .f32⟩) main_cst_26) (TRef.of (T := ⟨S_, .f32⟩) main_call4_v0) id,
    TRef.unary (TRef.of (T := ⟨S_, .f32⟩) main_call4_v0) (TRef.of (T := ⟨S4096, .f32⟩) main_call4_v1) (broadcastInDim S4096 ![] bcast_S_S4096),
    TRef.ternary (TRef.of (T := ⟨S4096, .i1⟩) main_v110) (TRef.of (T := ⟨S4096, .f32⟩) main_v112) (TRef.of (T := ⟨S4096, .f32⟩) main_call4_v1) (TRef.of (T := ⟨S4096, .f32⟩) main_v113) select,
    unary main_v110 main_v114 (uitofp .f32 : (⟨S4096, .i1⟩ : BufTy).Contents (Elt F) → (⟨S4096, .f32⟩ : BufTy).Contents (Elt F)),
    unary main_v97 main_v115 (noti : (⟨S4096, .i1⟩ : BufTy).Contents (Elt F) → (⟨S4096, .i1⟩ : BufTy).Contents (Elt F)),
    unary main_v115 main_v116 (uitofp .f32 : (⟨S4096, .i1⟩ : BufTy).Contents (Elt F) → (⟨S4096, .f32⟩ : BufTy).Contents (Elt F)),
    nullary main_cst_27 (constant S_ .f32 0x00000000#32),
    binary main_v104 main_cst_27 main_v117 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_28 (constant S_ .f32 0x45800000#32),
    binary main_v117 main_cst_28 main_v118 (Host.divf : (⟨S_, .f32⟩ : BufTy).Contents (Elt F) → (⟨S_, .f32⟩ : BufTy).Contents (Elt F) → (⟨S_, .f32⟩ : BufTy).Contents (Elt F)),
    nullary main_cst_29 (constant S_ .f32 0x00000000#32),
    binary main_v114 main_cst_29 main_v119 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_30 (constant S_ .f32 0x00000000#32),
    binary main_v113 main_cst_30 main_v120 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_31 (constant S_ .f32 0x00000000#32),
    binary main_v116 main_cst_31 main_v121 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., reshape_bufs_sub .., binary_bufs_sub .., binary_bufs_sub .., binary_bufs_sub .., unary_bufs_sub .., binary_bufs_sub .., binary_bufs_sub .., binary_bufs_sub .., nullary_bufs_sub .., unary_bufs_sub .., unary_bufs_sub .., ternary_bufs_sub .., unary_bufs_sub .., unary_bufs_sub .., unary_bufs_sub .., unary_bufs_sub .., ternary_bufs_sub .., nullary_bufs_sub .., unary_bufs_sub .., binary_bufs_sub .., nullary_bufs_sub .., unary_bufs_sub .., binary_bufs_sub .., binary_bufs_sub .., binary_bufs_sub .., nullary_bufs_sub .., unary_bufs_sub .., unary_bufs_sub .., ternary_bufs_sub .., binary_bufs_sub .., nullary_bufs_sub .., unary_bufs_sub .., unary_bufs_sub .., ternary_bufs_sub .., unary_bufs_sub .., unary_bufs_sub .., unary_bufs_sub .., nullary_bufs_sub .., binary_bufs_sub .., nullary_bufs_sub .., binary_bufs_sub .., nullary_bufs_sub .., binary_bufs_sub .., nullary_bufs_sub .., binary_bufs_sub .., nullary_bufs_sub .., binary_bufs_sub ..⟩

/-- The two-column index array made of two one-column arrays (a `concatenate` along axis 1), as a function of the
    two columns. -/
def cat2 (a b : (⟨S4096x1, .i32⟩ : BufTy).Contents (Elt F)) : (⟨S4096x2, .i32⟩ : BufTy).Contents (Elt F) :=
  concatenate S4096x2 1 [⟨S4096x1, a⟩, ⟨S4096x1, b⟩] concatenates_S4096x1_S4096x1_S4096x2_d1

/-- Operations 0 to 15 (a two-column index array spelt `cat2`). -/
abbrev opsC0 : List (HloOp τ sig (Elt F)) :=
  [ nullary main_v0 (iotaInDim S4096 32 0),
    TRef.nullary (TRef.of (T := ⟨S_, .f32⟩) main_call0_cst) (constant S_ .f32 0xFF800000#32),
    TRef.binary (TRef.of (T := ⟨S4096x32000, .f32⟩) main_arg0) (TRef.of (T := ⟨S_, .f32⟩) main_call0_cst) (TRef.of (T := ⟨S4096, .f32⟩) main_call0_v0) (fun x v => Host.reduce FloatOps.maximumf x v reducesTo_S4096x32000_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x32000, .f32⟩) main_call0_v4) (broadcastInDim S4096x32000 ![0, 1] bcast_S4096x1_S4096x32000_0_1),
    TRef.binary (TRef.of (T := ⟨S4096x32000, .f32⟩) main_arg0) (TRef.of (T := ⟨S4096x32000, .f32⟩) main_call0_v4) (TRef.of (T := ⟨S4096x32000, .f32⟩) main_call0_v5) subf,
    TRef.unary (TRef.of (T := ⟨S4096x32000, .f32⟩) main_call0_v5) (TRef.of (T := ⟨S4096x32000, .f32⟩) main_call0_v6) Host.exp,
    TRef.nullary (TRef.of (T := ⟨S_, .f32⟩) main_call0_cst_1) (constant S_ .f32 0x00000000#32),
    TRef.binary (TRef.of (T := ⟨S4096x32000, .f32⟩) main_call0_v6) (TRef.of (T := ⟨S_, .f32⟩) main_call0_cst_1) (TRef.of (T := ⟨S4096, .f32⟩) main_call0_v7) (fun x v => Host.reduceAdd x v reducesTo_S4096x32000_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x32000, .f32⟩) main_call0_v10) (broadcastInDim S4096x32000 ![0, 1] bcast_S4096x1_S4096x32000_0_1),
    TRef.binary (TRef.of (T := ⟨S4096x32000, .f32⟩) main_call0_v5) (TRef.of (T := ⟨S4096x32000, .f32⟩) main_call0_v10) (TRef.of (T := ⟨S4096x32000, .f32⟩) main_v1) subf ]

/-- Operations 16 to 31 (a two-column index array spelt `cat2`). -/
abbrev opsC1 : List (HloOp τ sig (Elt F)) :=
  [ nullary main_c (constantI S_ 32 0#32),
    unary main_c main_v2 (broadcastInDim S4096 ![] bcast_S_S4096 : (⟨S_, .i32⟩ : BufTy).Contents (Elt F) → (⟨S4096, .i32⟩ : BufTy).Contents (Elt F)),
    binary main_v0 main_v2 main_v3 (cmpi .slt : (⟨S4096, .i32⟩ : BufTy).Contents (Elt F) → (⟨S4096, .i32⟩ : BufTy).Contents (Elt F) → (⟨S4096, .i1⟩ : BufTy).Contents (Elt F)),
    nullary main_c_0 (constantI S_ 32 4096#32),
    unary main_c_0 main_v4 (broadcastInDim S4096 ![] bcast_S_S4096 : (⟨S_, .i32⟩ : BufTy).Contents (Elt F) → (⟨S4096, .i32⟩ : BufTy).Contents (Elt F)),
    binary main_v0 main_v4 main_v5 (addi : (⟨S4096, .i32⟩ : BufTy).Contents (Elt F) → (⟨S4096, .i32⟩ : BufTy).Contents (Elt F) → (⟨S4096, .i32⟩ : BufTy).Contents (Elt F)),
    ternary main_v3 main_v5 main_v0 main_v6 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_1 (constantI S_ 32 0#32),
    unary main_c_1 main_v7 (broadcastInDim S4096 ![] bcast_S_S4096 : (⟨S_, .i32⟩ : BufTy).Contents (Elt F) → (⟨S4096, .i32⟩ : BufTy).Contents (Elt F)),
    binary main_arg1 main_v7 main_v8 (cmpi .slt : (⟨S4096, .i32⟩ : BufTy).Contents (Elt F) → (⟨S4096, .i32⟩ : BufTy).Contents (Elt F) → (⟨S4096, .i1⟩ : BufTy).Contents (Elt F)),
    nullary main_c_2 (constantI S_ 32 32000#32),
    unary main_c_2 main_v9 (broadcastInDim S4096 ![] bcast_S_S4096 : (⟨S_, .i32⟩ : BufTy).Contents (Elt F) → (⟨S4096, .i32⟩ : BufTy).Contents (Elt F)),
    binary main_arg1 main_v9 main_v10 (addi : (⟨S4096, .i32⟩ : BufTy).Contents (Elt F) → (⟨S4096, .i32⟩ : BufTy).Contents (Elt F) → (⟨S4096, .i32⟩ : BufTy).Contents (Elt F)),
    ternary main_v8 main_v10 main_arg1 main_v11 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v6 main_v12 (broadcastInDim S4096x1 ![0] bcast_S4096_S4096x1_0 : (⟨S4096, .i32⟩ : BufTy).Contents (Elt F) → (⟨S4096x1, .i32⟩ : BufTy).Contents (Elt F)),
    unary main_v11 main_v13 (broadcastInDim S4096x1 ![0] bcast_S4096_S4096x1_0 : (⟨S4096, .i32⟩ : BufTy).Contents (Elt F) → (⟨S4096x1, .i32⟩ : BufTy).Contents (Elt F)) ]

/-- Operations 32 to 47 (a two-column index array spelt `cat2`). -/
abbrev opsC2 : List (HloOp τ sig (Elt F)) :=
  [ binary main_v12 main_v13 main_v14 (cat2 : (⟨S4096x1, .i32⟩ : BufTy).Contents (Elt F) → (⟨S4096x1, .i32⟩ : BufTy).Contents (Elt F) → (⟨S4096x2, .i32⟩ : BufTy).Contents (Elt F)),
    binary main_v1 main_v14 main_v15 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)),
    unary main_v15 main_v16 (Host.exp : (⟨S4096, .f32⟩ : BufTy).Contents (Elt F) → (⟨S4096, .f32⟩ : BufTy).Contents (Elt F)),
    nullary main_c_3 (constantI S_ 32 0#32),
    unary main_c_3 main_v17 (broadcastInDim S4096 ![] bcast_S_S4096 : (⟨S_, .i32⟩ : BufTy).Contents (Elt F) → (⟨S4096, .i32⟩ : BufTy).Contents (Elt F)),
    binary main_arg1 main_v17 main_v18 (cmpi .slt : (⟨S4096, .i32⟩ : BufTy).Contents (Elt F) → (⟨S4096, .i32⟩ : BufTy).Contents (Elt F) → (⟨S4096, .i1⟩ : BufTy).Contents (Elt F)),
    nullary main_c_4 (constantI S_ 32 32000#32),
    unary main_c_4 main_v19 (broadcastInDim S4096 ![] bcast_S_S4096 : (⟨S_, .i32⟩ : BufTy).Contents (Elt F) → (⟨S4096, .i32⟩ : BufTy).Contents (Elt F)),
    binary main_arg1 main_v19 main_v20 (addi : (⟨S4096, .i32⟩ : BufTy).Contents (Elt F) → (⟨S4096, .i32⟩ : BufTy).Contents (Elt F) → (⟨S4096, .i32⟩ : BufTy).Contents (Elt F)),
    ternary main_v18 main_v20 main_arg1 main_v21 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v22 (broadcastInDim S4096 ![] bcast_S_S4096 : (⟨S_, .i32⟩ : BufTy).Contents (Elt F) → (⟨S4096, .i32⟩ : BufTy).Contents (Elt F)),
    unary main_v22 main_v23 (id : (⟨S4096, .i32⟩ : BufTy).Contents (Elt F) → (⟨S4096, .i32⟩ : BufTy).Contents (Elt F)),
    unary main_v23 main_v24 (broadcastInDim S4096x1 ![0] bcast_S4096_S4096x1_0 : (⟨S4096, .i32⟩ : BufTy).Contents (Elt F) → (⟨S4096x1, .i32⟩ : BufTy).Contents (Elt F)),
    unary main_v21 main_v25 (broadcastInDim S4096x1 ![0] bcast_S4096_S4096x1_0 : (⟨S4096, .i32⟩ : BufTy).Contents (Elt F) → (⟨S4096x1, .i32⟩ : BufTy).Contents (Elt F)),
    binary main_v24 main_v25 main_v26 (cat2 : (⟨S4096x1, .i32⟩ : BufTy).Contents (Elt F) → (⟨S4096x1, .i32⟩ : BufTy).Contents (Elt F) → (⟨S4096x2, .i32⟩ : BufTy).Contents (Elt F)) ]

/-- Operations 48 to 63 (a two-column index array spelt `cat2`). -/
abbrev opsC3 : List (HloOp τ sig (Elt F)) :=
  [ binary main_arg3 main_v26 main_v27 ((fun x i => Host.gather gather_S1x32000_S4096x2_S4096_n_01_n_n_01_1_11 x i) : (⟨S1x32000, .i32⟩ : BufTy).Contents (Elt F) → (⟨S4096x2, .i32⟩ : BufTy).Contents (Elt F) → (⟨S4096, .i32⟩ : BufTy).Contents (Elt F)),
    nullary main_c_6 (constantI S_ 32 0#32),
    unary main_c_6 main_v28 (broadcastInDim S4096 ![] bcast_S_S4096 : (⟨S_, .i32⟩ : BufTy).Contents (Elt F) → (⟨S4096, .i32⟩ : BufTy).Contents (Elt F)),
    binary main_arg1 main_v28 main_v29 (cmpi .slt : (⟨S4096, .i32⟩ : BufTy).Contents (Elt F) → (⟨S4096, .i32⟩ : BufTy).Contents (Elt F) → (⟨S4096, .i1⟩ : BufTy).Contents (Elt F)),
    nullary main_c_7 (constantI S_ 32 32000#32),
    unary main_c_7 main_v30 (broadcastInDim S4096 ![] bcast_S_S4096 : (⟨S_, .i32⟩ : BufTy).Contents (Elt F) → (⟨S4096, .i32⟩ : BufTy).Contents (Elt F)),
    binary main_arg1 main_v30 main_v31 (addi : (⟨S4096, .i32⟩ : BufTy).Contents (Elt F) → (⟨S4096, .i32⟩ : BufTy).Contents (Elt F) → (⟨S4096, .i32⟩ : BufTy).Contents (Elt F)),
    ternary main_v29 main_v31 main_arg1 main_v32 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_8 (constantI S_ 32 0#32),
    unary main_c_8 main_v33 (broadcastInDim S4096 ![] bcast_S_S4096 : (⟨S_, .i32⟩ : BufTy).Contents (Elt F) → (⟨S4096, .i32⟩ : BufTy).Contents (Elt F)),
    unary main_v33 main_v34 (id : (⟨S4096, .i32⟩ : BufTy).Contents (Elt F) → (⟨S4096, .i32⟩ : BufTy).Contents (Elt F)),
    unary main_v34 main_v35 (broadcastInDim S4096x1 ![0] bcast_S4096_S4096x1_0 : (⟨S4096, .i32⟩ : BufTy).Contents (Elt F) → (⟨S4096x1, .i32⟩ : BufTy).Contents (Elt F)),
    unary main_v32 main_v36 (broadcastInDim S4096x1 ![0] bcast_S4096_S4096x1_0 : (⟨S4096, .i32⟩ : BufTy).Contents (Elt F) → (⟨S4096x1, .i32⟩ : BufTy).Contents (Elt F)),
    binary main_v35 main_v36 main_v37 (cat2 : (⟨S4096x1, .i32⟩ : BufTy).Contents (Elt F) → (⟨S4096x1, .i32⟩ : BufTy).Contents (Elt F) → (⟨S4096x2, .i32⟩ : BufTy).Contents (Elt F)),
    binary main_arg5 main_v37 main_v38 ((fun x i => Host.gather gather_S1x32000_S4096x2_S4096_n_01_n_n_01_1_11 x i) : (⟨S1x32000, .i32⟩ : BufTy).Contents (Elt F) → (⟨S4096x2, .i32⟩ : BufTy).Contents (Elt F) → (⟨S4096, .i32⟩ : BufTy).Contents (Elt F)),
    nullary main_c_9 (constantI S_ 32 0#32) ]

/-- Operations 64 to 79 (a two-column index array spelt `cat2`). -/
abbrev opsC4 : List (HloOp τ sig (Elt F)) :=
  [ unary main_c_9 main_v39 (broadcastInDim S4096 ![] bcast_S_S4096 : (⟨S_, .i32⟩ : BufTy).Contents (Elt F) → (⟨S4096, .i32⟩ : BufTy).Contents (Elt F)),
    binary main_arg1 main_v39 main_v40 (cmpi .slt : (⟨S4096, .i32⟩ : BufTy).Contents (Elt F) → (⟨S4096, .i32⟩ : BufTy).Contents (Elt F) → (⟨S4096, .i1⟩ : BufTy).Contents (Elt F)),
    nullary main_c_10 (constantI S_ 32 32000#32),
    unary main_c_10 main_v41 (broadcastInDim S4096 ![] bcast_S_S4096 : (⟨S_, .i32⟩ : BufTy).Contents (Elt F) → (⟨S4096, .i32⟩ : BufTy).Contents (Elt F)),
    binary main_arg1 main_v41 main_v42 (addi : (⟨S4096, .i32⟩ : BufTy).Contents (Elt F) → (⟨S4096, .i32⟩ : BufTy).Contents (Elt F) → (⟨S4096, .i32⟩ : BufTy).Contents (Elt F)),
    ternary main_v40 main_v42 main_arg1 main_v43 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_11 (constantI S_ 32 0#32),
    unary main_c_11 main_v44 (broadcastInDim S4096 ![] bcast_S_S4096 : (⟨S_, .i32⟩ : BufTy).Contents (Elt F) → (⟨S4096, .i32⟩ : BufTy).Contents (Elt F)),
    unary main_v44 main_v45 (id : (⟨S4096, .i32⟩ : BufTy).Contents (Elt F) → (⟨S4096, .i32⟩ : BufTy).Contents (Elt F)),
    unary main_v45 main_v46 (broadcastInDim S4096x1 ![0] bcast_S4096_S4096x1_0 : (⟨S4096, .i32⟩ : BufTy).Contents (Elt F) → (⟨S4096x1, .i32⟩ : BufTy).Contents (Elt F)),
    unary main_v43 main_v47 (broadcastInDim S4096x1 ![0] bcast_S4096_S4096x1_0 : (⟨S4096, .i32⟩ : BufTy).Contents (Elt F) → (⟨S4096x1, .i32⟩ : BufTy).Contents (Elt F)),
    binary main_v46 main_v47 main_v48 (cat2 : (⟨S4096x1, .i32⟩ : BufTy).Contents (Elt F) → (⟨S4096x1, .i32⟩ : BufTy).Contents (Elt F) → (⟨S4096x2, .i32⟩ : BufTy).Contents (Elt F)),
    binary main_arg2 main_v48 main_v49 ((fun x i => Host.gather gather_S1x32000_S4096x2_S4096_n_01_n_n_01_1_11 x i) : (⟨S1x32000, .f32⟩ : BufTy).Contents (Elt F) → (⟨S4096x2, .i32⟩ : BufTy).Contents (Elt F) → (⟨S4096, .f32⟩ : BufTy).Contents (Elt F)),
    nullary main_c_12 (constantI S_ 32 0#32),
    unary main_c_12 main_v50 (broadcastInDim S4096 ![] bcast_S_S4096 : (⟨S_, .i32⟩ : BufTy).Contents (Elt F) → (⟨S4096, .i32⟩ : BufTy).Contents (Elt F)),
    binary main_arg1 main_v50 main_v51 (cmpi .slt : (⟨S4096, .i32⟩ : BufTy).Contents (Elt F) → (⟨S4096, .i32⟩ : BufTy).Contents (Elt F) → (⟨S4096, .i1⟩ : BufTy).Contents (Elt F)) ]

/-- Operations 80 to 95 (a two-column index array spelt `cat2`). -/
abbrev opsC5 : List (HloOp τ sig (Elt F)) :=
  [ nullary main_c_13 (constantI S_ 32 32000#32),
    unary main_c_13 main_v52 (broadcastInDim S4096 ![] bcast_S_S4096 : (⟨S_, .i32⟩ : BufTy).Contents (Elt F) → (⟨S4096, .i32⟩ : BufTy).Contents (Elt F)),
    binary main_arg1 main_v52 main_v53 (addi : (⟨S4096, .i32⟩ : BufTy).Contents (Elt F) → (⟨S4096, .i32⟩ : BufTy).Contents (Elt F) → (⟨S4096, .i32⟩ : BufTy).Contents (Elt F)),
    ternary main_v51 main_v53 main_arg1 main_v54 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_14 (constantI S_ 32 0#32),
    unary main_c_14 main_v55 (broadcastInDim S4096 ![] bcast_S_S4096 : (⟨S_, .i32⟩ : BufTy).Contents (Elt F) → (⟨S4096, .i32⟩ : BufTy).Contents (Elt F)),
    unary main_v55 main_v56 (id : (⟨S4096, .i32⟩ : BufTy).Contents (Elt F) → (⟨S4096, .i32⟩ : BufTy).Contents (Elt F)),
    unary main_v56 main_v57 (broadcastInDim S4096x1 ![0] bcast_S4096_S4096x1_0 : (⟨S4096, .i32⟩ : BufTy).Contents (Elt F) → (⟨S4096x1, .i32⟩ : BufTy).Contents (Elt F)),
    unary main_v54 main_v58 (broadcastInDim S4096x1 ![0] bcast_S4096_S4096x1_0 : (⟨S4096, .i32⟩ : BufTy).Contents (Elt F) → (⟨S4096x1, .i32⟩ : BufTy).Contents (Elt F)),
    binary main_v57 main_v58 main_v59 (cat2 : (⟨S4096x1, .i32⟩ : BufTy).Contents (Elt F) → (⟨S4096x1, .i32⟩ : BufTy).Contents (Elt F) → (⟨S4096x2, .i32⟩ : BufTy).Contents (Elt F)),
    binary main_arg4 main_v59 main_v60 ((fun x i => Host.gather gather_S1x32000_S4096x2_S4096_n_01_n_n_01_1_11 x i) : (⟨S1x32000, .f32⟩ : BufTy).Contents (Elt F) → (⟨S4096x2, .i32⟩ : BufTy).Contents (Elt F) → (⟨S4096, .f32⟩ : BufTy).Contents (Elt F)),
    nullary main_c_15 (constantI S_ 32 0#32),
    unary main_c_15 main_v61 (broadcastInDim S4096 ![] bcast_S_S4096 : (⟨S_, .i32⟩ : BufTy).Contents (Elt F) → (⟨S4096, .i32⟩ : BufTy).Contents (Elt F)),
    binary main_v0 main_v61 main_v62 (cmpi .slt : (⟨S4096, .i32⟩ : BufTy).Contents (Elt F) → (⟨S4096, .i32⟩ : BufTy).Contents (Elt F) → (⟨S4096, .i1⟩ : BufTy).Contents (Elt F)),
    nullary main_c_16 (constantI S_ 32 4096#32),
    unary main_c_16 main_v63 (broadcastInDim S4096 ![] bcast_S_S4096 : (⟨S_, .i32⟩ : BufTy).Contents (Elt F) → (⟨S4096, .i32⟩ : BufTy).Contents (Elt F)) ]

/-- Operations 96 to 111 (a two-column index array spelt `cat2`). -/
abbrev opsC6 : List (HloOp τ sig (Elt F)) :=
  [ binary main_v0 main_v63 main_v64 (addi : (⟨S4096, .i32⟩ : BufTy).Contents (Elt F) → (⟨S4096, .i32⟩ : BufTy).Contents (Elt F) → (⟨S4096, .i32⟩ : BufTy).Contents (Elt F)),
    ternary main_v62 main_v64 main_v0 main_v65 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_17 (constantI S_ 32 0#32),
    unary main_c_17 main_v66 (broadcastInDim S4096 ![] bcast_S_S4096 : (⟨S_, .i32⟩ : BufTy).Contents (Elt F) → (⟨S4096, .i32⟩ : BufTy).Contents (Elt F)),
    binary main_v27 main_v66 main_v67 (cmpi .slt : (⟨S4096, .i32⟩ : BufTy).Contents (Elt F) → (⟨S4096, .i32⟩ : BufTy).Contents (Elt F) → (⟨S4096, .i1⟩ : BufTy).Contents (Elt F)),
    nullary main_c_18 (constantI S_ 32 32000#32),
    unary main_c_18 main_v68 (broadcastInDim S4096 ![] bcast_S_S4096 : (⟨S_, .i32⟩ : BufTy).Contents (Elt F) → (⟨S4096, .i32⟩ : BufTy).Contents (Elt F)),
    binary main_v27 main_v68 main_v69 (addi : (⟨S4096, .i32⟩ : BufTy).Contents (Elt F) → (⟨S4096, .i32⟩ : BufTy).Contents (Elt F) → (⟨S4096, .i32⟩ : BufTy).Contents (Elt F)),
    ternary main_v67 main_v69 main_v27 main_v70 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v65 main_v71 (broadcastInDim S4096x1 ![0] bcast_S4096_S4096x1_0 : (⟨S4096, .i32⟩ : BufTy).Contents (Elt F) → (⟨S4096x1, .i32⟩ : BufTy).Contents (Elt F)),
    unary main_v70 main_v72 (broadcastInDim S4096x1 ![0] bcast_S4096_S4096x1_0 : (⟨S4096, .i32⟩ : BufTy).Contents (Elt F) → (⟨S4096x1, .i32⟩ : BufTy).Contents (Elt F)),
    binary main_v71 main_v72 main_v73 (cat2 : (⟨S4096x1, .i32⟩ : BufTy).Contents (Elt F) → (⟨S4096x1, .i32⟩ : BufTy).Contents (Elt F) → (⟨S4096x2, .i32⟩ : BufTy).Contents (Elt F)),
    binary main_v1 main_v73 main_v74 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)),
    unary main_v74 main_v75 (Host.exp : (⟨S4096, .f32⟩ : BufTy).Contents (Elt F) → (⟨S4096, .f32⟩ : BufTy).Contents (Elt F)),
    nullary main_c_19 (constantI S_ 32 0#32),
    unary main_c_19 main_v76 (broadcastInDim S4096 ![] bcast_S_S4096 : (⟨S_, .i32⟩ : BufTy).Contents (Elt F) → (⟨S4096, .i32⟩ : BufTy).Contents (Elt F)) ]

/-- Operations 112 to 127 (a two-column index array spelt `cat2`). -/
abbrev opsC7 : List (HloOp τ sig (Elt F)) :=
  [ binary main_v0 main_v76 main_v77 (cmpi .slt : (⟨S4096, .i32⟩ : BufTy).Contents (Elt F) → (⟨S4096, .i32⟩ : BufTy).Contents (Elt F) → (⟨S4096, .i1⟩ : BufTy).Contents (Elt F)),
    nullary main_c_20 (constantI S_ 32 4096#32),
    unary main_c_20 main_v78 (broadcastInDim S4096 ![] bcast_S_S4096 : (⟨S_, .i32⟩ : BufTy).Contents (Elt F) → (⟨S4096, .i32⟩ : BufTy).Contents (Elt F)),
    binary main_v0 main_v78 main_v79 (addi : (⟨S4096, .i32⟩ : BufTy).Contents (Elt F) → (⟨S4096, .i32⟩ : BufTy).Contents (Elt F) → (⟨S4096, .i32⟩ : BufTy).Contents (Elt F)),
    ternary main_v77 main_v79 main_v0 main_v80 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_21 (constantI S_ 32 0#32),
    unary main_c_21 main_v81 (broadcastInDim S4096 ![] bcast_S_S4096 : (⟨S_, .i32⟩ : BufTy).Contents (Elt F) → (⟨S4096, .i32⟩ : BufTy).Contents (Elt F)),
    binary main_v38 main_v81 main_v82 (cmpi .slt : (⟨S4096, .i32⟩ : BufTy).Contents (Elt F) → (⟨S4096, .i32⟩ : BufTy).Contents (Elt F) → (⟨S4096, .i1⟩ : BufTy).Contents (Elt F)),
    nullary main_c_22 (constantI S_ 32 32000#32),
    unary main_c_22 main_v83 (broadcastInDim S4096 ![] bcast_S_S4096 : (⟨S_, .i32⟩ : BufTy).Contents (Elt F) → (⟨S4096, .i32⟩ : BufTy).Contents (Elt F)),
    binary main_v38 main_v83 main_v84 (addi : (⟨S4096, .i32⟩ : BufTy).Contents (Elt F) → (⟨S4096, .i32⟩ : BufTy).Contents (Elt F) → (⟨S4096, .i32⟩ : BufTy).Contents (Elt F)),
    ternary main_v82 main_v84 main_v38 main_v85 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v80 main_v86 (broadcastInDim S4096x1 ![0] bcast_S4096_S4096x1_0 : (⟨S4096, .i32⟩ : BufTy).Contents (Elt F) → (⟨S4096x1, .i32⟩ : BufTy).Contents (Elt F)),
    unary main_v85 main_v87 (broadcastInDim S4096x1 ![0] bcast_S4096_S4096x1_0 : (⟨S4096, .i32⟩ : BufTy).Contents (Elt F) → (⟨S4096x1, .i32⟩ : BufTy).Contents (Elt F)),
    binary main_v86 main_v87 main_v88 (cat2 : (⟨S4096x1, .i32⟩ : BufTy).Contents (Elt F) → (⟨S4096x1, .i32⟩ : BufTy).Contents (Elt F) → (⟨S4096x2, .i32⟩ : BufTy).Contents (Elt F)),
    binary main_v1 main_v88 main_v89 ((fun x i => Host.gather gather_S4096x32000_S4096x2_S4096_n_01_n_n_01_1_11 x i) : (⟨S4096x32000, .f32⟩ : BufTy).Contents (Elt F) → (⟨S4096x2, .i32⟩ : BufTy).Contents (Elt F) → (⟨S4096, .f32⟩ : BufTy).Contents (Elt F)) ]

/-- Operations 128 to 143 (a two-column index array spelt `cat2`). -/
abbrev opsC8 : List (HloOp τ sig (Elt F)) :=
  [ unary main_v89 main_v90 (Host.exp : (⟨S4096, .f32⟩ : BufTy).Contents (Elt F) → (⟨S4096, .f32⟩ : BufTy).Contents (Elt F)),
    reshape main_arg6 main_v91 rfl shapeCasts_S1_S_,
    binary main_v49 main_v75 main_v92 (mulf : (⟨S4096, .f32⟩ : BufTy).Contents (Elt F) → (⟨S4096, .f32⟩ : BufTy).Contents (Elt F) → (⟨S4096, .f32⟩ : BufTy).Contents (Elt F)),
    binary main_v60 main_v90 main_v93 (mulf : (⟨S4096, .f32⟩ : BufTy).Contents (Elt F) → (⟨S4096, .f32⟩ : BufTy).Contents (Elt F) → (⟨S4096, .f32⟩ : BufTy).Contents (Elt F)),
    binary main_v92 main_v93 main_v94 (addf : (⟨S4096, .f32⟩ : BufTy).Contents (Elt F) → (⟨S4096, .f32⟩ : BufTy).Contents (Elt F) → (⟨S4096, .f32⟩ : BufTy).Contents (Elt F)),
    unary main_v91 main_v95 (broadcastInDim S4096 ![] bcast_S_S4096 : (⟨S_, .f32⟩ : BufTy).Contents (Elt F) → (⟨S4096, .f32⟩ : BufTy).Contents (Elt F)),
    binary main_v95 main_v94 main_v96 (mulf : (⟨S4096, .f32⟩ : BufTy).Contents (Elt F) → (⟨S4096, .f32⟩ : BufTy).Contents (Elt F) → (⟨S4096, .f32⟩ : BufTy).Contents (Elt F)),
    binary main_v16 main_v96 main_v97 (cmpf .ogt : (⟨S4096, .f32⟩ : BufTy).Contents (Elt F) → (⟨S4096, .f32⟩ : BufTy).Contents (Elt F) → (⟨S4096, .i1⟩ : BufTy).Contents (Elt F)),
    binary main_v16 main_v96 main_v98 (subf : (⟨S4096, .f32⟩ : BufTy).Contents (Elt F) → (⟨S4096, .f32⟩ : BufTy).Contents (Elt F) → (⟨S4096, .f32⟩ : BufTy).Contents (Elt F)),
    nullary main_cst (constant S_ .f32 0x3F800000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S4096, .f32⟩) main_call1_v1) (broadcastInDim S4096 ![] bcast_S_S4096),
    TRef.ternary (TRef.of (T := ⟨S4096, .i1⟩) main_v97) (TRef.of (T := ⟨S4096, .f32⟩) main_v98) (TRef.of (T := ⟨S4096, .f32⟩) main_call1_v1) (TRef.of (T := ⟨S4096, .f32⟩) main_v99) select,
    unary main_v99 main_v100 (Host.log : (⟨S4096, .f32⟩ : BufTy).Contents (Elt F) → (⟨S4096, .f32⟩ : BufTy).Contents (Elt F)),
    unary main_v100 main_v101 (Host.negf : (⟨S4096, .f32⟩ : BufTy).Contents (Elt F) → (⟨S4096, .f32⟩ : BufTy).Contents (Elt F)),
    unary main_v16 main_v102 (Host.log : (⟨S4096, .f32⟩ : BufTy).Contents (Elt F) → (⟨S4096, .f32⟩ : BufTy).Contents (Elt F)) ]

/-- Operations 144 to 159 (a two-column index array spelt `cat2`). -/
abbrev opsC9 : List (HloOp τ sig (Elt F)) :=
  [ unary main_v102 main_v103 (Host.negf : (⟨S4096, .f32⟩ : BufTy).Contents (Elt F) → (⟨S4096, .f32⟩ : BufTy).Contents (Elt F)),
    TRef.ternary (TRef.of (T := ⟨S4096, .i1⟩) main_v97) (TRef.of (T := ⟨S4096, .f32⟩) main_v101) (TRef.of (T := ⟨S4096, .f32⟩) main_v103) (TRef.of (T := ⟨S4096, .f32⟩) main_v104) select,
    nullary main_cst_23 (constant S_ .f32 0x00000000#32),
    unary main_cst_23 main_v105 (broadcastInDim S4096 ![] bcast_S_S4096 : (⟨S_, .f32⟩ : BufTy).Contents (Elt F) → (⟨S4096, .f32⟩ : BufTy).Contents (Elt F)),
    binary main_v75 main_v105 main_v106 (cmpf .une : (⟨S4096, .f32⟩ : BufTy).Contents (Elt F) → (⟨S4096, .f32⟩ : BufTy).Contents (Elt F) → (⟨S4096, .i1⟩ : BufTy).Contents (Elt F)),
    nullary main_cst_24 (constant S_ .f32 0x00000000#32),
    unary main_cst_24 main_v107 (broadcastInDim S4096 ![] bcast_S_S4096 : (⟨S_, .f32⟩ : BufTy).Contents (Elt F) → (⟨S4096, .f32⟩ : BufTy).Contents (Elt F)),
    binary main_v90 main_v107 main_v108 (cmpf .une : (⟨S4096, .f32⟩ : BufTy).Contents (Elt F) → (⟨S4096, .f32⟩ : BufTy).Contents (Elt F) → (⟨S4096, .i1⟩ : BufTy).Contents (Elt F)),
    binary main_v106 main_v108 main_v109 (ori : (⟨S4096, .i1⟩ : BufTy).Contents (Elt F) → (⟨S4096, .i1⟩ : BufTy).Contents (Elt F) → (⟨S4096, .i1⟩ : BufTy).Contents (Elt F)),
    binary main_v97 main_v109 main_v110 (andi : (⟨S4096, .i1⟩ : BufTy).Contents (Elt F) → (⟨S4096, .i1⟩ : BufTy).Contents (Elt F) → (⟨S4096, .i1⟩ : BufTy).Contents (Elt F)),
    nullary main_cst_25 (constant S_ .f32 0x3F800000#32),
    TRef.unary (TRef.of (T := ⟨S_, .f32⟩) main_cst_25) (TRef.of (T := ⟨S_, .f32⟩) main_call3_v0) id,
    TRef.unary (TRef.of (T := ⟨S_, .f32⟩) main_call3_v0) (TRef.of (T := ⟨S4096, .f32⟩) main_call3_v1) (broadcastInDim S4096 ![] bcast_S_S4096),
    TRef.ternary (TRef.of (T := ⟨S4096, .i1⟩) main_v110) (TRef.of (T := ⟨S4096, .f32⟩) main_v96) (TRef.of (T := ⟨S4096, .f32⟩) main_call3_v1) (TRef.of (T := ⟨S4096, .f32⟩) main_v111) select,
    binary main_v16 main_v111 main_v112 (Host.divf : (⟨S4096, .f32⟩ : BufTy).Contents (Elt F) → (⟨S4096, .f32⟩ : BufTy).Contents (Elt F) → (⟨S4096, .f32⟩ : BufTy).Contents (Elt F)),
    nullary main_cst_26 (constant S_ .f32 0x00000000#32) ]

/-- Operations 160 to 175 (a two-column index array spelt `cat2`). -/
abbrev opsC10 : List (HloOp τ sig (Elt F)) :=
  [ TRef.unary (TRef.of (T := ⟨S_, .f32⟩) main_cst_26) (TRef.of (T := ⟨S_, .f32⟩) main_call4_v0) id,
    TRef.unary (TRef.of (T := ⟨S_, .f32⟩) main_call4_v0) (TRef.of (T := ⟨S4096, .f32⟩) main_call4_v1) (broadcastInDim S4096 ![] bcast_S_S4096),
    TRef.ternary (TRef.of (T := ⟨S4096, .i1⟩) main_v110) (TRef.of (T := ⟨S4096, .f32⟩) main_v112) (TRef.of (T := ⟨S4096, .f32⟩) main_call4_v1) (TRef.of (T := ⟨S4096, .f32⟩) main_v113) select,
    unary main_v110 main_v114 (uitofp .f32 : (⟨S4096, .i1⟩ : BufTy).Contents (Elt F) → (⟨S4096, .f32⟩ : BufTy).Contents (Elt F)),
    unary main_v97 main_v115 (noti : (⟨S4096, .i1⟩ : BufTy).Contents (Elt F) → (⟨S4096, .i1⟩ : BufTy).Contents (Elt F)),
    unary main_v115 main_v116 (uitofp .f32 : (⟨S4096, .i1⟩ : BufTy).Contents (Elt F) → (⟨S4096, .f32⟩ : BufTy).Contents (Elt F)),
    nullary main_cst_27 (constant S_ .f32 0x00000000#32),
    binary main_v104 main_cst_27 main_v117 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_28 (constant S_ .f32 0x45800000#32),
    binary main_v117 main_cst_28 main_v118 (Host.divf : (⟨S_, .f32⟩ : BufTy).Contents (Elt F) → (⟨S_, .f32⟩ : BufTy).Contents (Elt F) → (⟨S_, .f32⟩ : BufTy).Contents (Elt F)),
    nullary main_cst_29 (constant S_ .f32 0x00000000#32),
    binary main_v114 main_cst_29 main_v119 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_30 (constant S_ .f32 0x00000000#32),
    binary main_v113 main_cst_30 main_v120 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_31 (constant S_ .f32 0x00000000#32),
    binary main_v116 main_cst_31 main_v121 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) ]

/-- The list is its pieces laid end to end. -/
theorem ops_split : (ops : List (HloOp τ sig (Elt F))) = opsC0 ++ (opsC1 ++ (opsC2 ++ (opsC3 ++ (opsC4 ++ (opsC5 ++ (opsC6 ++ (opsC7 ++ (opsC8 ++ (opsC9 ++ (opsC10)))))))))) := rfl

/-- The contents after two lists run one after the other are the second's from the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.ReferenceIdeal.RunH

end
-- ==== Proof.RefRunH1.lean ====
/-
  The reference program piece by piece: after each piece of @main's operations, from contents holding the values of
  the earlier operations that are still to be read, every value read later is the stage-by-stage term of the arguments.
-/
import proofs.«178677_j88021059764894_2_alg».proof.Proof.RefRunH0

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

set_option maxRecDepth 8192 in
set_option maxHeartbeats 4000000 in
/-- Operations 0 to 15: from contents that hold the earlier values still to be read, the values read later. -/
theorem chunk0 (W : Valuation τ sig (Elt Ideal))
    (x0 : (⟨S4096x32000, .f32⟩ : BufTy).Contents (Elt Ideal)) (x1 : (⟨S4096, .i32⟩ : BufTy).Contents (Elt Ideal)) (x2 : (⟨S1x32000, .f32⟩ : BufTy).Contents (Elt Ideal)) (x3 : (⟨S1x32000, .i32⟩ : BufTy).Contents (Elt Ideal)) (x4 : (⟨S1x32000, .f32⟩ : BufTy).Contents (Elt Ideal)) (x5 : (⟨S1x32000, .i32⟩ : BufTy).Contents (Elt Ideal)) (x6 : (⟨S1, .f32⟩ : BufTy).Contents (Elt Ideal))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    after (opsC0 (F := Ideal)) W (Proc.devRef .tc main_arg0) = x0
    ∧ after (opsC0 (F := Ideal)) W (Proc.devRef .tc main_arg1) = x1
    ∧ after (opsC0 (F := Ideal)) W (Proc.devRef .tc main_arg2) = x2
    ∧ after (opsC0 (F := Ideal)) W (Proc.devRef .tc main_arg3) = x3
    ∧ after (opsC0 (F := Ideal)) W (Proc.devRef .tc main_arg4) = x4
    ∧ after (opsC0 (F := Ideal)) W (Proc.devRef .tc main_arg5) = x5
    ∧ after (opsC0 (F := Ideal)) W (Proc.devRef .tc main_arg6) = x6
    ∧ after (opsC0 (F := Ideal)) W (Proc.devRef .tc main_v0) = (val_main_v0 (F := Ideal))
    ∧ after (opsC0 (F := Ideal)) W (Proc.devRef .tc main_v1) = (val_main_v1 (F := Ideal) x0) := by
  refine ⟨?_, ?_, ?_, ?_, ?_, ?_, ?_, ?_, ?_⟩ <;>
    (simp (disch := decide) only [opsC0, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      h_main_arg0, h_main_arg1, h_main_arg2, h_main_arg3, h_main_arg4, h_main_arg5, h_main_arg6]) <;> rfl

set_option maxRecDepth 8192 in
set_option maxHeartbeats 4000000 in
/-- Operations 16 to 31: from contents that hold the earlier values still to be read, the values read later. -/
theorem chunk1 (W : Valuation τ sig (Elt Ideal))
    (x0 : (⟨S4096x32000, .f32⟩ : BufTy).Contents (Elt Ideal)) (x1 : (⟨S4096, .i32⟩ : BufTy).Contents (Elt Ideal)) (x2 : (⟨S1x32000, .f32⟩ : BufTy).Contents (Elt Ideal)) (x3 : (⟨S1x32000, .i32⟩ : BufTy).Contents (Elt Ideal)) (x4 : (⟨S1x32000, .f32⟩ : BufTy).Contents (Elt Ideal)) (x5 : (⟨S1x32000, .i32⟩ : BufTy).Contents (Elt Ideal)) (x6 : (⟨S1, .f32⟩ : BufTy).Contents (Elt Ideal))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v0 : W (Proc.devRef .tc main_v0) = (val_main_v0 (F := Ideal)))
    (h_main_v1 : W (Proc.devRef .tc main_v1) = (val_main_v1 (F := Ideal) x0)) :
    after (opsC1 (F := Ideal)) W (Proc.devRef .tc main_arg0) = x0
    ∧ after (opsC1 (F := Ideal)) W (Proc.devRef .tc main_arg1) = x1
    ∧ after (opsC1 (F := Ideal)) W (Proc.devRef .tc main_arg2) = x2
    ∧ after (opsC1 (F := Ideal)) W (Proc.devRef .tc main_arg3) = x3
    ∧ after (opsC1 (F := Ideal)) W (Proc.devRef .tc main_arg4) = x4
    ∧ after (opsC1 (F := Ideal)) W (Proc.devRef .tc main_arg5) = x5
    ∧ after (opsC1 (F := Ideal)) W (Proc.devRef .tc main_arg6) = x6
    ∧ after (opsC1 (F := Ideal)) W (Proc.devRef .tc main_v12) = (val_main_v12 (F := Ideal))
    ∧ after (opsC1 (F := Ideal)) W (Proc.devRef .tc main_v13) = (val_main_v13 (F := Ideal) x1)
    ∧ after (opsC1 (F := Ideal)) W (Proc.devRef .tc main_v1) = (val_main_v1 (F := Ideal) x0)
    ∧ after (opsC1 (F := Ideal)) W (Proc.devRef .tc main_v0) = (val_main_v0 (F := Ideal)) := by
  refine ⟨?_, ?_, ?_, ?_, ?_, ?_, ?_, ?_, ?_, ?_, ?_⟩ <;>
    (simp (disch := decide) only [opsC1, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      h_main_arg0, h_main_arg1, h_main_arg2, h_main_arg3, h_main_arg4, h_main_arg5, h_main_arg6, h_main_v0, h_main_v1]) <;> rfl

set_option maxRecDepth 8192 in
set_option maxHeartbeats 4000000 in
/-- Operations 32 to 47: from contents that hold the earlier values still to be read, the values read later. -/
theorem chunk2 (W : Valuation τ sig (Elt Ideal))
    (x0 : (⟨S4096x32000, .f32⟩ : BufTy).Contents (Elt Ideal)) (x1 : (⟨S4096, .i32⟩ : BufTy).Contents (Elt Ideal)) (x2 : (⟨S1x32000, .f32⟩ : BufTy).Contents (Elt Ideal)) (x3 : (⟨S1x32000, .i32⟩ : BufTy).Contents (Elt Ideal)) (x4 : (⟨S1x32000, .f32⟩ : BufTy).Contents (Elt Ideal)) (x5 : (⟨S1x32000, .i32⟩ : BufTy).Contents (Elt Ideal)) (x6 : (⟨S1, .f32⟩ : BufTy).Contents (Elt Ideal))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v12 : W (Proc.devRef .tc main_v12) = (val_main_v12 (F := Ideal)))
    (h_main_v13 : W (Proc.devRef .tc main_v13) = (val_main_v13 (F := Ideal) x1))
    (h_main_v1 : W (Proc.devRef .tc main_v1) = (val_main_v1 (F := Ideal) x0))
    (h_main_v0 : W (Proc.devRef .tc main_v0) = (val_main_v0 (F := Ideal))) :
    after (opsC2 (F := Ideal)) W (Proc.devRef .tc main_arg0) = x0
    ∧ after (opsC2 (F := Ideal)) W (Proc.devRef .tc main_arg1) = x1
    ∧ after (opsC2 (F := Ideal)) W (Proc.devRef .tc main_arg2) = x2
    ∧ after (opsC2 (F := Ideal)) W (Proc.devRef .tc main_arg3) = x3
    ∧ after (opsC2 (F := Ideal)) W (Proc.devRef .tc main_arg4) = x4
    ∧ after (opsC2 (F := Ideal)) W (Proc.devRef .tc main_arg5) = x5
    ∧ after (opsC2 (F := Ideal)) W (Proc.devRef .tc main_arg6) = x6
    ∧ after (opsC2 (F := Ideal)) W (Proc.devRef .tc main_v26) = (val_main_v26 (F := Ideal) x1)
    ∧ after (opsC2 (F := Ideal)) W (Proc.devRef .tc main_v0) = (val_main_v0 (F := Ideal))
    ∧ after (opsC2 (F := Ideal)) W (Proc.devRef .tc main_v1) = (val_main_v1 (F := Ideal) x0)
    ∧ after (opsC2 (F := Ideal)) W (Proc.devRef .tc main_v16) = (val_main_v16 (F := Ideal) x0 x1) := by
  refine ⟨?_, ?_, ?_, ?_, ?_, ?_, ?_, ?_, ?_, ?_, ?_⟩ <;>
    (simp (disch := decide) only [opsC2, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      h_main_arg0, h_main_arg1, h_main_arg2, h_main_arg3, h_main_arg4, h_main_arg5, h_main_arg6, h_main_v12, h_main_v13, h_main_v1, h_main_v0]) <;> rfl

set_option maxRecDepth 8192 in
set_option maxHeartbeats 4000000 in
/-- Operations 48 to 63: from contents that hold the earlier values still to be read, the values read later. -/
theorem chunk3 (W : Valuation τ sig (Elt Ideal))
    (x0 : (⟨S4096x32000, .f32⟩ : BufTy).Contents (Elt Ideal)) (x1 : (⟨S4096, .i32⟩ : BufTy).Contents (Elt Ideal)) (x2 : (⟨S1x32000, .f32⟩ : BufTy).Contents (Elt Ideal)) (x3 : (⟨S1x32000, .i32⟩ : BufTy).Contents (Elt Ideal)) (x4 : (⟨S1x32000, .f32⟩ : BufTy).Contents (Elt Ideal)) (x5 : (⟨S1x32000, .i32⟩ : BufTy).Contents (Elt Ideal)) (x6 : (⟨S1, .f32⟩ : BufTy).Contents (Elt Ideal))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v26 : W (Proc.devRef .tc main_v26) = (val_main_v26 (F := Ideal) x1))
    (h_main_v0 : W (Proc.devRef .tc main_v0) = (val_main_v0 (F := Ideal)))
    (h_main_v1 : W (Proc.devRef .tc main_v1) = (val_main_v1 (F := Ideal) x0))
    (h_main_v16 : W (Proc.devRef .tc main_v16) = (val_main_v16 (F := Ideal) x0 x1)) :
    after (opsC3 (F := Ideal)) W (Proc.devRef .tc main_arg0) = x0
    ∧ after (opsC3 (F := Ideal)) W (Proc.devRef .tc main_arg1) = x1
    ∧ after (opsC3 (F := Ideal)) W (Proc.devRef .tc main_arg2) = x2
    ∧ after (opsC3 (F := Ideal)) W (Proc.devRef .tc main_arg3) = x3
    ∧ after (opsC3 (F := Ideal)) W (Proc.devRef .tc main_arg4) = x4
    ∧ after (opsC3 (F := Ideal)) W (Proc.devRef .tc main_arg5) = x5
    ∧ after (opsC3 (F := Ideal)) W (Proc.devRef .tc main_arg6) = x6
    ∧ after (opsC3 (F := Ideal)) W (Proc.devRef .tc main_c_9) = (val_main_c_9 (F := Ideal))
    ∧ after (opsC3 (F := Ideal)) W (Proc.devRef .tc main_v0) = (val_main_v0 (F := Ideal))
    ∧ after (opsC3 (F := Ideal)) W (Proc.devRef .tc main_v27) = (val_main_v27 (F := Ideal) x1 x3)
    ∧ after (opsC3 (F := Ideal)) W (Proc.devRef .tc main_v1) = (val_main_v1 (F := Ideal) x0)
    ∧ after (opsC3 (F := Ideal)) W (Proc.devRef .tc main_v38) = (val_main_v38 (F := Ideal) x1 x5)
    ∧ after (opsC3 (F := Ideal)) W (Proc.devRef .tc main_v16) = (val_main_v16 (F := Ideal) x0 x1) := by
  refine ⟨?_, ?_, ?_, ?_, ?_, ?_, ?_, ?_, ?_, ?_, ?_, ?_, ?_⟩ <;>
    (simp (disch := decide) only [opsC3, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      h_main_arg0, h_main_arg1, h_main_arg2, h_main_arg3, h_main_arg4, h_main_arg5, h_main_arg6, h_main_v26, h_main_v0, h_main_v1, h_main_v16]) <;> rfl

end Cert.ReferenceIdeal.RunH

end
-- ==== Proof.RefRunH2.lean ====
/-
  The reference program piece by piece: after each piece of @main's operations, from contents holding the values of
  the earlier operations that are still to be read, every value read later is the stage-by-stage term of the arguments.
-/
import proofs.«178677_j88021059764894_2_alg».proof.Proof.RefRunH0

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

set_option maxRecDepth 8192 in
set_option maxHeartbeats 4000000 in
/-- Operations 64 to 79: from contents that hold the earlier values still to be read, the values read later. -/
theorem chunk4 (W : Valuation τ sig (Elt Ideal))
    (x0 : (⟨S4096x32000, .f32⟩ : BufTy).Contents (Elt Ideal)) (x1 : (⟨S4096, .i32⟩ : BufTy).Contents (Elt Ideal)) (x2 : (⟨S1x32000, .f32⟩ : BufTy).Contents (Elt Ideal)) (x3 : (⟨S1x32000, .i32⟩ : BufTy).Contents (Elt Ideal)) (x4 : (⟨S1x32000, .f32⟩ : BufTy).Contents (Elt Ideal)) (x5 : (⟨S1x32000, .i32⟩ : BufTy).Contents (Elt Ideal)) (x6 : (⟨S1, .f32⟩ : BufTy).Contents (Elt Ideal))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_c_9 : W (Proc.devRef .tc main_c_9) = (val_main_c_9 (F := Ideal)))
    (h_main_v0 : W (Proc.devRef .tc main_v0) = (val_main_v0 (F := Ideal)))
    (h_main_v27 : W (Proc.devRef .tc main_v27) = (val_main_v27 (F := Ideal) x1 x3))
    (h_main_v1 : W (Proc.devRef .tc main_v1) = (val_main_v1 (F := Ideal) x0))
    (h_main_v38 : W (Proc.devRef .tc main_v38) = (val_main_v38 (F := Ideal) x1 x5))
    (h_main_v16 : W (Proc.devRef .tc main_v16) = (val_main_v16 (F := Ideal) x0 x1)) :
    after (opsC4 (F := Ideal)) W (Proc.devRef .tc main_arg0) = x0
    ∧ after (opsC4 (F := Ideal)) W (Proc.devRef .tc main_arg1) = x1
    ∧ after (opsC4 (F := Ideal)) W (Proc.devRef .tc main_arg2) = x2
    ∧ after (opsC4 (F := Ideal)) W (Proc.devRef .tc main_arg3) = x3
    ∧ after (opsC4 (F := Ideal)) W (Proc.devRef .tc main_arg4) = x4
    ∧ after (opsC4 (F := Ideal)) W (Proc.devRef .tc main_arg5) = x5
    ∧ after (opsC4 (F := Ideal)) W (Proc.devRef .tc main_arg6) = x6
    ∧ after (opsC4 (F := Ideal)) W (Proc.devRef .tc main_v51) = (val_main_v51 (F := Ideal) x1)
    ∧ after (opsC4 (F := Ideal)) W (Proc.devRef .tc main_v0) = (val_main_v0 (F := Ideal))
    ∧ after (opsC4 (F := Ideal)) W (Proc.devRef .tc main_v27) = (val_main_v27 (F := Ideal) x1 x3)
    ∧ after (opsC4 (F := Ideal)) W (Proc.devRef .tc main_v1) = (val_main_v1 (F := Ideal) x0)
    ∧ after (opsC4 (F := Ideal)) W (Proc.devRef .tc main_v38) = (val_main_v38 (F := Ideal) x1 x5)
    ∧ after (opsC4 (F := Ideal)) W (Proc.devRef .tc main_v49) = (val_main_v49 (F := Ideal) x1 x2)
    ∧ after (opsC4 (F := Ideal)) W (Proc.devRef .tc main_v16) = (val_main_v16 (F := Ideal) x0 x1) := by
  refine ⟨?_, ?_, ?_, ?_, ?_, ?_, ?_, ?_, ?_, ?_, ?_, ?_, ?_, ?_⟩ <;>
    (simp (disch := decide) only [opsC4, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      h_main_arg0, h_main_arg1, h_main_arg2, h_main_arg3, h_main_arg4, h_main_arg5, h_main_arg6, h_main_c_9, h_main_v0, h_main_v27, h_main_v1, h_main_v38, h_main_v16]) <;> rfl

set_option maxRecDepth 8192 in
set_option maxHeartbeats 4000000 in
/-- Operations 80 to 95: from contents that hold the earlier values still to be read, the values read later. -/
theorem chunk5 (W : Valuation τ sig (Elt Ideal))
    (x0 : (⟨S4096x32000, .f32⟩ : BufTy).Contents (Elt Ideal)) (x1 : (⟨S4096, .i32⟩ : BufTy).Contents (Elt Ideal)) (x2 : (⟨S1x32000, .f32⟩ : BufTy).Contents (Elt Ideal)) (x3 : (⟨S1x32000, .i32⟩ : BufTy).Contents (Elt Ideal)) (x4 : (⟨S1x32000, .f32⟩ : BufTy).Contents (Elt Ideal)) (x5 : (⟨S1x32000, .i32⟩ : BufTy).Contents (Elt Ideal)) (x6 : (⟨S1, .f32⟩ : BufTy).Contents (Elt Ideal))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v51 : W (Proc.devRef .tc main_v51) = (val_main_v51 (F := Ideal) x1))
    (h_main_v0 : W (Proc.devRef .tc main_v0) = (val_main_v0 (F := Ideal)))
    (h_main_v27 : W (Proc.devRef .tc main_v27) = (val_main_v27 (F := Ideal) x1 x3))
    (h_main_v1 : W (Proc.devRef .tc main_v1) = (val_main_v1 (F := Ideal) x0))
    (h_main_v38 : W (Proc.devRef .tc main_v38) = (val_main_v38 (F := Ideal) x1 x5))
    (h_main_v49 : W (Proc.devRef .tc main_v49) = (val_main_v49 (F := Ideal) x1 x2))
    (h_main_v16 : W (Proc.devRef .tc main_v16) = (val_main_v16 (F := Ideal) x0 x1)) :
    after (opsC5 (F := Ideal)) W (Proc.devRef .tc main_arg0) = x0
    ∧ after (opsC5 (F := Ideal)) W (Proc.devRef .tc main_arg1) = x1
    ∧ after (opsC5 (F := Ideal)) W (Proc.devRef .tc main_arg2) = x2
    ∧ after (opsC5 (F := Ideal)) W (Proc.devRef .tc main_arg3) = x3
    ∧ after (opsC5 (F := Ideal)) W (Proc.devRef .tc main_arg4) = x4
    ∧ after (opsC5 (F := Ideal)) W (Proc.devRef .tc main_arg5) = x5
    ∧ after (opsC5 (F := Ideal)) W (Proc.devRef .tc main_arg6) = x6
    ∧ after (opsC5 (F := Ideal)) W (Proc.devRef .tc main_v0) = (val_main_v0 (F := Ideal))
    ∧ after (opsC5 (F := Ideal)) W (Proc.devRef .tc main_v63) = (val_main_v63 (F := Ideal))
    ∧ after (opsC5 (F := Ideal)) W (Proc.devRef .tc main_v62) = (val_main_v62 (F := Ideal))
    ∧ after (opsC5 (F := Ideal)) W (Proc.devRef .tc main_v27) = (val_main_v27 (F := Ideal) x1 x3)
    ∧ after (opsC5 (F := Ideal)) W (Proc.devRef .tc main_v1) = (val_main_v1 (F := Ideal) x0)
    ∧ after (opsC5 (F := Ideal)) W (Proc.devRef .tc main_v38) = (val_main_v38 (F := Ideal) x1 x5)
    ∧ after (opsC5 (F := Ideal)) W (Proc.devRef .tc main_v49) = (val_main_v49 (F := Ideal) x1 x2)
    ∧ after (opsC5 (F := Ideal)) W (Proc.devRef .tc main_v60) = (val_main_v60 (F := Ideal) x1 x4)
    ∧ after (opsC5 (F := Ideal)) W (Proc.devRef .tc main_v16) = (val_main_v16 (F := Ideal) x0 x1) := by
  refine ⟨?_, ?_, ?_, ?_, ?_, ?_, ?_, ?_, ?_, ?_, ?_, ?_, ?_, ?_, ?_, ?_⟩ <;>
    (simp (disch := decide) only [opsC5, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      h_main_arg0, h_main_arg1, h_main_arg2, h_main_arg3, h_main_arg4, h_main_arg5, h_main_arg6, h_main_v51, h_main_v0, h_main_v27, h_main_v1, h_main_v38, h_main_v49, h_main_v16]) <;> rfl

set_option maxRecDepth 8192 in
set_option maxHeartbeats 4000000 in
/-- Operations 96 to 111: from contents that hold the earlier values still to be read, the values read later. -/
theorem chunk6 (W : Valuation τ sig (Elt Ideal))
    (x0 : (⟨S4096x32000, .f32⟩ : BufTy).Contents (Elt Ideal)) (x1 : (⟨S4096, .i32⟩ : BufTy).Contents (Elt Ideal)) (x2 : (⟨S1x32000, .f32⟩ : BufTy).Contents (Elt Ideal)) (x3 : (⟨S1x32000, .i32⟩ : BufTy).Contents (Elt Ideal)) (x4 : (⟨S1x32000, .f32⟩ : BufTy).Contents (Elt Ideal)) (x5 : (⟨S1x32000, .i32⟩ : BufTy).Contents (Elt Ideal)) (x6 : (⟨S1, .f32⟩ : BufTy).Contents (Elt Ideal))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v0 : W (Proc.devRef .tc main_v0) = (val_main_v0 (F := Ideal)))
    (h_main_v63 : W (Proc.devRef .tc main_v63) = (val_main_v63 (F := Ideal)))
    (h_main_v62 : W (Proc.devRef .tc main_v62) = (val_main_v62 (F := Ideal)))
    (h_main_v27 : W (Proc.devRef .tc main_v27) = (val_main_v27 (F := Ideal) x1 x3))
    (h_main_v1 : W (Proc.devRef .tc main_v1) = (val_main_v1 (F := Ideal) x0))
    (h_main_v38 : W (Proc.devRef .tc main_v38) = (val_main_v38 (F := Ideal) x1 x5))
    (h_main_v49 : W (Proc.devRef .tc main_v49) = (val_main_v49 (F := Ideal) x1 x2))
    (h_main_v60 : W (Proc.devRef .tc main_v60) = (val_main_v60 (F := Ideal) x1 x4))
    (h_main_v16 : W (Proc.devRef .tc main_v16) = (val_main_v16 (F := Ideal) x0 x1)) :
    after (opsC6 (F := Ideal)) W (Proc.devRef .tc main_arg0) = x0
    ∧ after (opsC6 (F := Ideal)) W (Proc.devRef .tc main_arg1) = x1
    ∧ after (opsC6 (F := Ideal)) W (Proc.devRef .tc main_arg2) = x2
    ∧ after (opsC6 (F := Ideal)) W (Proc.devRef .tc main_arg3) = x3
    ∧ after (opsC6 (F := Ideal)) W (Proc.devRef .tc main_arg4) = x4
    ∧ after (opsC6 (F := Ideal)) W (Proc.devRef .tc main_arg5) = x5
    ∧ after (opsC6 (F := Ideal)) W (Proc.devRef .tc main_arg6) = x6
    ∧ after (opsC6 (F := Ideal)) W (Proc.devRef .tc main_v0) = (val_main_v0 (F := Ideal))
    ∧ after (opsC6 (F := Ideal)) W (Proc.devRef .tc main_v76) = (val_main_v76 (F := Ideal))
    ∧ after (opsC6 (F := Ideal)) W (Proc.devRef .tc main_v38) = (val_main_v38 (F := Ideal) x1 x5)
    ∧ after (opsC6 (F := Ideal)) W (Proc.devRef .tc main_v1) = (val_main_v1 (F := Ideal) x0)
    ∧ after (opsC6 (F := Ideal)) W (Proc.devRef .tc main_v49) = (val_main_v49 (F := Ideal) x1 x2)
    ∧ after (opsC6 (F := Ideal)) W (Proc.devRef .tc main_v75) = (val_main_v75 (F := Ideal) x0 x1 x3)
    ∧ after (opsC6 (F := Ideal)) W (Proc.devRef .tc main_v60) = (val_main_v60 (F := Ideal) x1 x4)
    ∧ after (opsC6 (F := Ideal)) W (Proc.devRef .tc main_v16) = (val_main_v16 (F := Ideal) x0 x1) := by
  refine ⟨?_, ?_, ?_, ?_, ?_, ?_, ?_, ?_, ?_, ?_, ?_, ?_, ?_, ?_, ?_⟩ <;>
    (simp (disch := decide) only [opsC6, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      h_main_arg0, h_main_arg1, h_main_arg2, h_main_arg3, h_main_arg4, h_main_arg5, h_main_arg6, h_main_v0, h_main_v63, h_main_v62, h_main_v27, h_main_v1, h_main_v38, h_main_v49, h_main_v60, h_main_v16]) <;> rfl

set_option maxRecDepth 8192 in
set_option maxHeartbeats 4000000 in
/-- Operations 112 to 127: from contents that hold the earlier values still to be read, the values read later. -/
theorem chunk7 (W : Valuation τ sig (Elt Ideal))
    (x0 : (⟨S4096x32000, .f32⟩ : BufTy).Contents (Elt Ideal)) (x1 : (⟨S4096, .i32⟩ : BufTy).Contents (Elt Ideal)) (x2 : (⟨S1x32000, .f32⟩ : BufTy).Contents (Elt Ideal)) (x3 : (⟨S1x32000, .i32⟩ : BufTy).Contents (Elt Ideal)) (x4 : (⟨S1x32000, .f32⟩ : BufTy).Contents (Elt Ideal)) (x5 : (⟨S1x32000, .i32⟩ : BufTy).Contents (Elt Ideal)) (x6 : (⟨S1, .f32⟩ : BufTy).Contents (Elt Ideal))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v0 : W (Proc.devRef .tc main_v0) = (val_main_v0 (F := Ideal)))
    (h_main_v76 : W (Proc.devRef .tc main_v76) = (val_main_v76 (F := Ideal)))
    (h_main_v38 : W (Proc.devRef .tc main_v38) = (val_main_v38 (F := Ideal) x1 x5))
    (h_main_v1 : W (Proc.devRef .tc main_v1) = (val_main_v1 (F := Ideal) x0))
    (h_main_v49 : W (Proc.devRef .tc main_v49) = (val_main_v49 (F := Ideal) x1 x2))
    (h_main_v75 : W (Proc.devRef .tc main_v75) = (val_main_v75 (F := Ideal) x0 x1 x3))
    (h_main_v60 : W (Proc.devRef .tc main_v60) = (val_main_v60 (F := Ideal) x1 x4))
    (h_main_v16 : W (Proc.devRef .tc main_v16) = (val_main_v16 (F := Ideal) x0 x1)) :
    after (opsC7 (F := Ideal)) W (Proc.devRef .tc main_arg0) = x0
    ∧ after (opsC7 (F := Ideal)) W (Proc.devRef .tc main_arg1) = x1
    ∧ after (opsC7 (F := Ideal)) W (Proc.devRef .tc main_arg2) = x2
    ∧ after (opsC7 (F := Ideal)) W (Proc.devRef .tc main_arg3) = x3
    ∧ after (opsC7 (F := Ideal)) W (Proc.devRef .tc main_arg4) = x4
    ∧ after (opsC7 (F := Ideal)) W (Proc.devRef .tc main_arg5) = x5
    ∧ after (opsC7 (F := Ideal)) W (Proc.devRef .tc main_arg6) = x6
    ∧ after (opsC7 (F := Ideal)) W (Proc.devRef .tc main_v89) = (val_main_v89 (F := Ideal) x0 x1 x5)
    ∧ after (opsC7 (F := Ideal)) W (Proc.devRef .tc main_v49) = (val_main_v49 (F := Ideal) x1 x2)
    ∧ after (opsC7 (F := Ideal)) W (Proc.devRef .tc main_v75) = (val_main_v75 (F := Ideal) x0 x1 x3)
    ∧ after (opsC7 (F := Ideal)) W (Proc.devRef .tc main_v60) = (val_main_v60 (F := Ideal) x1 x4)
    ∧ after (opsC7 (F := Ideal)) W (Proc.devRef .tc main_v16) = (val_main_v16 (F := Ideal) x0 x1) := by
  refine ⟨?_, ?_, ?_, ?_, ?_, ?_, ?_, ?_, ?_, ?_, ?_, ?_⟩ <;>
    (simp (disch := decide) only [opsC7, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      h_main_arg0, h_main_arg1, h_main_arg2, h_main_arg3, h_main_arg4, h_main_arg5, h_main_arg6, h_main_v0, h_main_v76, h_main_v38, h_main_v1, h_main_v49, h_main_v75, h_main_v60, h_main_v16]) <;> rfl

end Cert.ReferenceIdeal.RunH

end
-- ==== Proof.RefRunH3.lean ====
/-
  The reference program piece by piece: after each piece of @main's operations, from contents holding the values of
  the earlier operations that are still to be read, every value read later is the stage-by-stage term of the arguments.
-/
import proofs.«178677_j88021059764894_2_alg».proof.Proof.RefRunH0

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

set_option maxRecDepth 8192 in
set_option maxHeartbeats 4000000 in
/-- Operations 128 to 143: from contents that hold the earlier values still to be read, the values read later. -/
theorem chunk8 (W : Valuation τ sig (Elt Ideal))
    (x0 : (⟨S4096x32000, .f32⟩ : BufTy).Contents (Elt Ideal)) (x1 : (⟨S4096, .i32⟩ : BufTy).Contents (Elt Ideal)) (x2 : (⟨S1x32000, .f32⟩ : BufTy).Contents (Elt Ideal)) (x3 : (⟨S1x32000, .i32⟩ : BufTy).Contents (Elt Ideal)) (x4 : (⟨S1x32000, .f32⟩ : BufTy).Contents (Elt Ideal)) (x5 : (⟨S1x32000, .i32⟩ : BufTy).Contents (Elt Ideal)) (x6 : (⟨S1, .f32⟩ : BufTy).Contents (Elt Ideal))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v89 : W (Proc.devRef .tc main_v89) = (val_main_v89 (F := Ideal) x0 x1 x5))
    (h_main_v49 : W (Proc.devRef .tc main_v49) = (val_main_v49 (F := Ideal) x1 x2))
    (h_main_v75 : W (Proc.devRef .tc main_v75) = (val_main_v75 (F := Ideal) x0 x1 x3))
    (h_main_v60 : W (Proc.devRef .tc main_v60) = (val_main_v60 (F := Ideal) x1 x4))
    (h_main_v16 : W (Proc.devRef .tc main_v16) = (val_main_v16 (F := Ideal) x0 x1)) :
    after (opsC8 (F := Ideal)) W (Proc.devRef .tc main_arg0) = x0
    ∧ after (opsC8 (F := Ideal)) W (Proc.devRef .tc main_arg1) = x1
    ∧ after (opsC8 (F := Ideal)) W (Proc.devRef .tc main_arg2) = x2
    ∧ after (opsC8 (F := Ideal)) W (Proc.devRef .tc main_arg3) = x3
    ∧ after (opsC8 (F := Ideal)) W (Proc.devRef .tc main_arg4) = x4
    ∧ after (opsC8 (F := Ideal)) W (Proc.devRef .tc main_arg5) = x5
    ∧ after (opsC8 (F := Ideal)) W (Proc.devRef .tc main_arg6) = x6
    ∧ after (opsC8 (F := Ideal)) W (Proc.devRef .tc main_v102) = (val_main_v102 (F := Ideal) x0 x1)
    ∧ after (opsC8 (F := Ideal)) W (Proc.devRef .tc main_v97) = (val_main_v97 (F := Ideal) x0 x1 x2 x3 x4 x5 x6)
    ∧ after (opsC8 (F := Ideal)) W (Proc.devRef .tc main_v101) = (val_main_v101 (F := Ideal) x0 x1 x2 x3 x4 x5 x6)
    ∧ after (opsC8 (F := Ideal)) W (Proc.devRef .tc main_v75) = (val_main_v75 (F := Ideal) x0 x1 x3)
    ∧ after (opsC8 (F := Ideal)) W (Proc.devRef .tc main_v90) = (val_main_v90 (F := Ideal) x0 x1 x5)
    ∧ after (opsC8 (F := Ideal)) W (Proc.devRef .tc main_v96) = (val_main_v96 (F := Ideal) x0 x1 x2 x3 x4 x5 x6)
    ∧ after (opsC8 (F := Ideal)) W (Proc.devRef .tc main_v16) = (val_main_v16 (F := Ideal) x0 x1) := by
  refine ⟨?_, ?_, ?_, ?_, ?_, ?_, ?_, ?_, ?_, ?_, ?_, ?_, ?_, ?_⟩ <;>
    (simp (disch := decide) only [opsC8, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      h_main_arg0, h_main_arg1, h_main_arg2, h_main_arg3, h_main_arg4, h_main_arg5, h_main_arg6, h_main_v89, h_main_v49, h_main_v75, h_main_v60, h_main_v16]) <;> rfl

set_option maxRecDepth 8192 in
set_option maxHeartbeats 4000000 in
/-- Operations 144 to 159: from contents that hold the earlier values still to be read, the values read later. -/
theorem chunk9 (W : Valuation τ sig (Elt Ideal))
    (x0 : (⟨S4096x32000, .f32⟩ : BufTy).Contents (Elt Ideal)) (x1 : (⟨S4096, .i32⟩ : BufTy).Contents (Elt Ideal)) (x2 : (⟨S1x32000, .f32⟩ : BufTy).Contents (Elt Ideal)) (x3 : (⟨S1x32000, .i32⟩ : BufTy).Contents (Elt Ideal)) (x4 : (⟨S1x32000, .f32⟩ : BufTy).Contents (Elt Ideal)) (x5 : (⟨S1x32000, .i32⟩ : BufTy).Contents (Elt Ideal)) (x6 : (⟨S1, .f32⟩ : BufTy).Contents (Elt Ideal))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_v102 : W (Proc.devRef .tc main_v102) = (val_main_v102 (F := Ideal) x0 x1))
    (h_main_v97 : W (Proc.devRef .tc main_v97) = (val_main_v97 (F := Ideal) x0 x1 x2 x3 x4 x5 x6))
    (h_main_v101 : W (Proc.devRef .tc main_v101) = (val_main_v101 (F := Ideal) x0 x1 x2 x3 x4 x5 x6))
    (h_main_v75 : W (Proc.devRef .tc main_v75) = (val_main_v75 (F := Ideal) x0 x1 x3))
    (h_main_v90 : W (Proc.devRef .tc main_v90) = (val_main_v90 (F := Ideal) x0 x1 x5))
    (h_main_v96 : W (Proc.devRef .tc main_v96) = (val_main_v96 (F := Ideal) x0 x1 x2 x3 x4 x5 x6))
    (h_main_v16 : W (Proc.devRef .tc main_v16) = (val_main_v16 (F := Ideal) x0 x1)) :
    after (opsC9 (F := Ideal)) W (Proc.devRef .tc main_arg0) = x0
    ∧ after (opsC9 (F := Ideal)) W (Proc.devRef .tc main_arg1) = x1
    ∧ after (opsC9 (F := Ideal)) W (Proc.devRef .tc main_arg2) = x2
    ∧ after (opsC9 (F := Ideal)) W (Proc.devRef .tc main_arg3) = x3
    ∧ after (opsC9 (F := Ideal)) W (Proc.devRef .tc main_arg4) = x4
    ∧ after (opsC9 (F := Ideal)) W (Proc.devRef .tc main_arg5) = x5
    ∧ after (opsC9 (F := Ideal)) W (Proc.devRef .tc main_arg6) = x6
    ∧ after (opsC9 (F := Ideal)) W (Proc.devRef .tc main_cst_26) = (val_main_cst_26 (F := Ideal))
    ∧ after (opsC9 (F := Ideal)) W (Proc.devRef .tc main_v110) = (val_main_v110 (F := Ideal) x0 x1 x2 x3 x4 x5 x6)
    ∧ after (opsC9 (F := Ideal)) W (Proc.devRef .tc main_v112) = (val_main_v112 (F := Ideal) x0 x1 x2 x3 x4 x5 x6)
    ∧ after (opsC9 (F := Ideal)) W (Proc.devRef .tc main_v97) = (val_main_v97 (F := Ideal) x0 x1 x2 x3 x4 x5 x6)
    ∧ after (opsC9 (F := Ideal)) W (Proc.devRef .tc main_v104) = (val_main_v104 (F := Ideal) x0 x1 x2 x3 x4 x5 x6) := by
  refine ⟨?_, ?_, ?_, ?_, ?_, ?_, ?_, ?_, ?_, ?_, ?_, ?_⟩ <;>
    (simp (disch := decide) only [opsC9, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      h_main_arg0, h_main_arg1, h_main_arg2, h_main_arg3, h_main_arg4, h_main_arg5, h_main_arg6, h_main_v102, h_main_v97, h_main_v101, h_main_v75, h_main_v90, h_main_v96, h_main_v16]) <;> rfl

set_option maxRecDepth 8192 in
set_option maxHeartbeats 4000000 in
/-- Operations 160 to 175: from contents that hold the earlier values still to be read, the values read later. -/
theorem chunk10 (W : Valuation τ sig (Elt Ideal))
    (x0 : (⟨S4096x32000, .f32⟩ : BufTy).Contents (Elt Ideal)) (x1 : (⟨S4096, .i32⟩ : BufTy).Contents (Elt Ideal)) (x2 : (⟨S1x32000, .f32⟩ : BufTy).Contents (Elt Ideal)) (x3 : (⟨S1x32000, .i32⟩ : BufTy).Contents (Elt Ideal)) (x4 : (⟨S1x32000, .f32⟩ : BufTy).Contents (Elt Ideal)) (x5 : (⟨S1x32000, .i32⟩ : BufTy).Contents (Elt Ideal)) (x6 : (⟨S1, .f32⟩ : BufTy).Contents (Elt Ideal))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6)
    (h_main_cst_26 : W (Proc.devRef .tc main_cst_26) = (val_main_cst_26 (F := Ideal)))
    (h_main_v110 : W (Proc.devRef .tc main_v110) = (val_main_v110 (F := Ideal) x0 x1 x2 x3 x4 x5 x6))
    (h_main_v112 : W (Proc.devRef .tc main_v112) = (val_main_v112 (F := Ideal) x0 x1 x2 x3 x4 x5 x6))
    (h_main_v97 : W (Proc.devRef .tc main_v97) = (val_main_v97 (F := Ideal) x0 x1 x2 x3 x4 x5 x6))
    (h_main_v104 : W (Proc.devRef .tc main_v104) = (val_main_v104 (F := Ideal) x0 x1 x2 x3 x4 x5 x6)) :
    after (opsC10 (F := Ideal)) W (Proc.devRef .tc main_arg0) = x0
    ∧ after (opsC10 (F := Ideal)) W (Proc.devRef .tc main_arg1) = x1
    ∧ after (opsC10 (F := Ideal)) W (Proc.devRef .tc main_arg2) = x2
    ∧ after (opsC10 (F := Ideal)) W (Proc.devRef .tc main_arg3) = x3
    ∧ after (opsC10 (F := Ideal)) W (Proc.devRef .tc main_arg4) = x4
    ∧ after (opsC10 (F := Ideal)) W (Proc.devRef .tc main_arg5) = x5
    ∧ after (opsC10 (F := Ideal)) W (Proc.devRef .tc main_arg6) = x6
    ∧ after (opsC10 (F := Ideal)) W (Proc.devRef .tc main_v118) = (val_main_v118 (F := Ideal) x0 x1 x2 x3 x4 x5 x6)
    ∧ after (opsC10 (F := Ideal)) W (Proc.devRef .tc main_v119) = (val_main_v119 (F := Ideal) x0 x1 x2 x3 x4 x5 x6)
    ∧ after (opsC10 (F := Ideal)) W (Proc.devRef .tc main_v120) = (val_main_v120 (F := Ideal) x0 x1 x2 x3 x4 x5 x6)
    ∧ after (opsC10 (F := Ideal)) W (Proc.devRef .tc main_v121) = (val_main_v121 (F := Ideal) x0 x1 x2 x3 x4 x5 x6) := by
  refine ⟨?_, ?_, ?_, ?_, ?_, ?_, ?_, ?_, ?_, ?_, ?_⟩ <;>
    (simp (disch := decide) only [opsC10, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.toBuf, TRef.ofBuf, cast_eq,
      h_main_arg0, h_main_arg1, h_main_arg2, h_main_arg3, h_main_arg4, h_main_arg5, h_main_arg6, h_main_cst_26, h_main_v110, h_main_v112, h_main_v97, h_main_v104]) <;> rfl

end Cert.ReferenceIdeal.RunH

end
-- ==== Proof.RefRunH.lean ====
/-
  The reference program's run: every weakly fair execution of @main terminates with each result buffer at its
  stage-by-stage term of the arguments' launch contents, and the arguments unchanged. The contents after the whole
  list are the contents after its pieces in turn, each piece handing the next the values still to be read.
-/
import proofs.«178677_j88021059764894_2_alg».proof.Proof.RefRunH0
import proofs.«178677_j88021059764894_2_alg».proof.Proof.RefRunH1
import proofs.«178677_j88021059764894_2_alg».proof.Proof.RefRunH2
import proofs.«178677_j88021059764894_2_alg».proof.Proof.RefRunH3

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ReadP

set_option maxRecDepth 8192 in
set_option maxHeartbeats 4000000 in
/-- After all of @main's operations, from any contents: the four results at their stage-by-stage terms of the
    arguments' contents, the arguments unchanged. -/
theorem after_all (V : Valuation τ sig (Elt Ideal)) :
    after (ops (F := Ideal)) V (Proc.devRef .tc main_v118) = val_main_v118 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    ∧ after (ops (F := Ideal)) V (Proc.devRef .tc main_v119) = val_main_v119 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    ∧ after (ops (F := Ideal)) V (Proc.devRef .tc main_v120) = val_main_v120 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    ∧ after (ops (F := Ideal)) V (Proc.devRef .tc main_v121) = val_main_v121 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
    ∧ after (ops (F := Ideal)) V (Proc.devRef .tc main_arg0) = V (Proc.devRef .tc main_arg0)
    ∧ after (ops (F := Ideal)) V (Proc.devRef .tc main_arg1) = V (Proc.devRef .tc main_arg1)
    ∧ after (ops (F := Ideal)) V (Proc.devRef .tc main_arg2) = V (Proc.devRef .tc main_arg2)
    ∧ after (ops (F := Ideal)) V (Proc.devRef .tc main_arg3) = V (Proc.devRef .tc main_arg3)
    ∧ after (ops (F := Ideal)) V (Proc.devRef .tc main_arg4) = V (Proc.devRef .tc main_arg4)
    ∧ after (ops (F := Ideal)) V (Proc.devRef .tc main_arg5) = V (Proc.devRef .tc main_arg5)
    ∧ after (ops (F := Ideal)) V (Proc.devRef .tc main_arg6) = V (Proc.devRef .tc main_arg6) := by
  rw [ops_split]
  simp only [after_append]
  generalize hx0 : V (Proc.devRef .tc main_arg0) = x0
  generalize hx1 : V (Proc.devRef .tc main_arg1) = x1
  generalize hx2 : V (Proc.devRef .tc main_arg2) = x2
  generalize hx3 : V (Proc.devRef .tc main_arg3) = x3
  generalize hx4 : V (Proc.devRef .tc main_arg4) = x4
  generalize hx5 : V (Proc.devRef .tc main_arg5) = x5
  generalize hx6 : V (Proc.devRef .tc main_arg6) = x6
  have c0 := chunk0 V x0 x1 x2 x3 x4 x5 x6 hx0 hx1 hx2 hx3 hx4 hx5 hx6
  generalize after (opsC0 (F := Ideal)) V = W1 at c0 ⊢
  obtain ⟨f0_main_arg0, f0_main_arg1, f0_main_arg2, f0_main_arg3, f0_main_arg4, f0_main_arg5, f0_main_arg6, f0_main_v0, f0_main_v1⟩ := c0
  have c1 := chunk1 W1 x0 x1 x2 x3 x4 x5 x6 f0_main_arg0 f0_main_arg1 f0_main_arg2 f0_main_arg3 f0_main_arg4 f0_main_arg5 f0_main_arg6 f0_main_v0 f0_main_v1
  generalize after (opsC1 (F := Ideal)) W1 = W2 at c1 ⊢
  obtain ⟨f1_main_arg0, f1_main_arg1, f1_main_arg2, f1_main_arg3, f1_main_arg4, f1_main_arg5, f1_main_arg6, f1_main_v12, f1_main_v13, f1_main_v1, f1_main_v0⟩ := c1
  have c2 := chunk2 W2 x0 x1 x2 x3 x4 x5 x6 f1_main_arg0 f1_main_arg1 f1_main_arg2 f1_main_arg3 f1_main_arg4 f1_main_arg5 f1_main_arg6 f1_main_v12 f1_main_v13 f1_main_v1 f1_main_v0
  generalize after (opsC2 (F := Ideal)) W2 = W3 at c2 ⊢
  obtain ⟨f2_main_arg0, f2_main_arg1, f2_main_arg2, f2_main_arg3, f2_main_arg4, f2_main_arg5, f2_main_arg6, f2_main_v26, f2_main_v0, f2_main_v1, f2_main_v16⟩ := c2
  have c3 := chunk3 W3 x0 x1 x2 x3 x4 x5 x6 f2_main_arg0 f2_main_arg1 f2_main_arg2 f2_main_arg3 f2_main_arg4 f2_main_arg5 f2_main_arg6 f2_main_v26 f2_main_v0 f2_main_v1 f2_main_v16
  generalize after (opsC3 (F := Ideal)) W3 = W4 at c3 ⊢
  obtain ⟨f3_main_arg0, f3_main_arg1, f3_main_arg2, f3_main_arg3, f3_main_arg4, f3_main_arg5, f3_main_arg6, f3_main_c_9, f3_main_v0, f3_main_v27, f3_main_v1, f3_main_v38, f3_main_v16⟩ := c3
  have c4 := chunk4 W4 x0 x1 x2 x3 x4 x5 x6 f3_main_arg0 f3_main_arg1 f3_main_arg2 f3_main_arg3 f3_main_arg4 f3_main_arg5 f3_main_arg6 f3_main_c_9 f3_main_v0 f3_main_v27 f3_main_v1 f3_main_v38 f3_main_v16
  generalize after (opsC4 (F := Ideal)) W4 = W5 at c4 ⊢
  obtain ⟨f4_main_arg0, f4_main_arg1, f4_main_arg2, f4_main_arg3, f4_main_arg4, f4_main_arg5, f4_main_arg6, f4_main_v51, f4_main_v0, f4_main_v27, f4_main_v1, f4_main_v38, f4_main_v49, f4_main_v16⟩ := c4
  have c5 := chunk5 W5 x0 x1 x2 x3 x4 x5 x6 f4_main_arg0 f4_main_arg1 f4_main_arg2 f4_main_arg3 f4_main_arg4 f4_main_arg5 f4_main_arg6 f4_main_v51 f4_main_v0 f4_main_v27 f4_main_v1 f4_main_v38 f4_main_v49 f4_main_v16
  generalize after (opsC5 (F := Ideal)) W5 = W6 at c5 ⊢
  obtain ⟨f5_main_arg0, f5_main_arg1, f5_main_arg2, f5_main_arg3, f5_main_arg4, f5_main_arg5, f5_main_arg6, f5_main_v0, f5_main_v63, f5_main_v62, f5_main_v27, f5_main_v1, f5_main_v38, f5_main_v49, f5_main_v60, f5_main_v16⟩ := c5
  have c6 := chunk6 W6 x0 x1 x2 x3 x4 x5 x6 f5_main_arg0 f5_main_arg1 f5_main_arg2 f5_main_arg3 f5_main_arg4 f5_main_arg5 f5_main_arg6 f5_main_v0 f5_main_v63 f5_main_v62 f5_main_v27 f5_main_v1 f5_main_v38 f5_main_v49 f5_main_v60 f5_main_v16
  generalize after (opsC6 (F := Ideal)) W6 = W7 at c6 ⊢
  obtain ⟨f6_main_arg0, f6_main_arg1, f6_main_arg2, f6_main_arg3, f6_main_arg4, f6_main_arg5, f6_main_arg6, f6_main_v0, f6_main_v76, f6_main_v38, f6_main_v1, f6_main_v49, f6_main_v75, f6_main_v60, f6_main_v16⟩ := c6
  have c7 := chunk7 W7 x0 x1 x2 x3 x4 x5 x6 f6_main_arg0 f6_main_arg1 f6_main_arg2 f6_main_arg3 f6_main_arg4 f6_main_arg5 f6_main_arg6 f6_main_v0 f6_main_v76 f6_main_v38 f6_main_v1 f6_main_v49 f6_main_v75 f6_main_v60 f6_main_v16
  generalize after (opsC7 (F := Ideal)) W7 = W8 at c7 ⊢
  obtain ⟨f7_main_arg0, f7_main_arg1, f7_main_arg2, f7_main_arg3, f7_main_arg4, f7_main_arg5, f7_main_arg6, f7_main_v89, f7_main_v49, f7_main_v75, f7_main_v60, f7_main_v16⟩ := c7
  have c8 := chunk8 W8 x0 x1 x2 x3 x4 x5 x6 f7_main_arg0 f7_main_arg1 f7_main_arg2 f7_main_arg3 f7_main_arg4 f7_main_arg5 f7_main_arg6 f7_main_v89 f7_main_v49 f7_main_v75 f7_main_v60 f7_main_v16
  generalize after (opsC8 (F := Ideal)) W8 = W9 at c8 ⊢
  obtain ⟨f8_main_arg0, f8_main_arg1, f8_main_arg2, f8_main_arg3, f8_main_arg4, f8_main_arg5, f8_main_arg6, f8_main_v102, f8_main_v97, f8_main_v101, f8_main_v75, f8_main_v90, f8_main_v96, f8_main_v16⟩ := c8
  have c9 := chunk9 W9 x0 x1 x2 x3 x4 x5 x6 f8_main_arg0 f8_main_arg1 f8_main_arg2 f8_main_arg3 f8_main_arg4 f8_main_arg5 f8_main_arg6 f8_main_v102 f8_main_v97 f8_main_v101 f8_main_v75 f8_main_v90 f8_main_v96 f8_main_v16
  generalize after (opsC9 (F := Ideal)) W9 = W10 at c9 ⊢
  obtain ⟨f9_main_arg0, f9_main_arg1, f9_main_arg2, f9_main_arg3, f9_main_arg4, f9_main_arg5, f9_main_arg6, f9_main_cst_26, f9_main_v110, f9_main_v112, f9_main_v97, f9_main_v104⟩ := c9
  have c10 := chunk10 W10 x0 x1 x2 x3 x4 x5 x6 f9_main_arg0 f9_main_arg1 f9_main_arg2 f9_main_arg3 f9_main_arg4 f9_main_arg5 f9_main_arg6 f9_main_cst_26 f9_main_v110 f9_main_v112 f9_main_v97 f9_main_v104
  obtain ⟨f10_main_arg0, f10_main_arg1, f10_main_arg2, f10_main_arg3, f10_main_arg4, f10_main_arg5, f10_main_arg6, f10_main_v118, f10_main_v119, f10_main_v120, f10_main_v121⟩ := c10
  exact ⟨f10_main_v118, f10_main_v119, f10_main_v120, f10_main_v121, f10_main_arg0, f10_main_arg1, f10_main_arg2, f10_main_arg3, f10_main_arg4, f10_main_arg5, f10_main_arg6⟩

set_option maxRecDepth 8192 in
/-- On every device, from any memory with zero counters: every weakly fair execution of @main terminates with each
    result at its stage-by-stage term of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118) = Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v119) = Cert.ReferenceIdeal.ReadP.val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v120) = Cert.ReferenceIdeal.ReadP.val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v121) = Cert.ReferenceIdeal.ReadP.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
      obtain ⟨a0, a1, a2, a3, a4, a5, a6, a7, a8, a9, a10⟩ := after_all (launchContents m c)
      exact ⟨(h c main_v118).trans a0, (h c main_v119).trans a1, (h c main_v120).trans a2, (h c main_v121).trans a3, (h c main_arg0).trans a4, (h c main_arg1).trans a5, (h c main_arg2).trans a6, (h c main_arg3).trans a7, (h c main_arg4).trans a8, (h c main_arg5).trans a9, (h c main_arg6).trans a10⟩)
    (run_seq scopedRefs_eq scopedSems_eq defs main (fun _ => ops) main_eq (fun _ => ops_sub) m ρ)

end Cert.ReferenceIdeal.RunH

end
-- ==== Proof.RefClaim.lean ====
/-
  The reference program's run (each of its four results the stage-by-stage value of the arguments, the arguments
  unchanged) and, from it, its frame.
-/
import proofs.«178677_j88021059764894_2_alg».proof.Proof.RefRunH

noncomputable section

namespace Cert.ReferenceIdeal.Cl

open Cert.ReferenceIdeal Cert.ReferenceIdeal.Gen Idealize.ShloMosaic Idealize.ShloMosaic.TcCoe Idealize.SL.Sem

/-- The reference's frame: its run with the results dropped. -/
theorem frame (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2.2.2.2) (Cert.ReferenceIdeal.RunH.run m ρ)

end Cert.ReferenceIdeal.Cl

end
-- ==== Proof.RefRowsA.lean ====
/-
  Reading the reference's layout operations at a row: a gather of single elements out of a rank-2 array at
  (row, column) index pairs, the two-column index array as the concatenation of its columns, and the row
  maximum as a fold over the row's columns.
-/
import proofs.«178677_j88021059764894_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.RefRows

open Idealize.ShloMosaic Idealize.ShloMosaic.ValueIdx

/-! ## A gather of single elements of a rank-2 array at (row, column) pairs -/

section Gather
variable {α : Type}

/-- The dimension numbers of `x[rows, cols]` for `x : [N0, N1]` and an index array `[R, 2]` of (row, column) pairs:
    both operand axes collapsed and named, in order, by the index vector on axis 1. -/
abbrev pairDims (N0 N1 R : Nat)
    (wf : GatherDims.WF ⟨2, ![N0, N1]⟩ ⟨2, ![R, 2]⟩ ⟨1, ![R]⟩ [] [0, 1] [] [0, 1] [] 1 ![1, 1]) :
    GatherDims ⟨2, ![N0, N1]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The gather read at `t`: the operand at the pair `(idx[t, 0], idx[t, 1])`, each component read signed and
    clamped into its axis. -/
theorem gather_pair_apply {N0 N1 R w : Nat} (h0 : 0 < N0) (h1 : 0 < N1)
    (wf : GatherDims.WF ⟨2, ![N0, N1]⟩ ⟨2, ![R, 2]⟩ ⟨1, ![R]⟩ [] [0, 1] [] [0, 1] [] 1 ![1, 1])
    (x : (⟨2, ![N0, N1]⟩ : Shape).Idx → α) (idx : IVec ⟨2, ![R, 2]⟩ w) (t : Fin R) :
    Host.gather (pairDims N0 N1 R wf) x idx (ix1 t)
      = x (ix2 ⟨min (idx (ix2 t 0)).toInt.toNat (N0 - 1), by omega⟩ ⟨min (idx (ix2 t 1)).toInt.toNat (N1 - 1), by omega⟩) := by
  unfold Host.gather
  congr 1
  funext a
  refine Fin.ext ?_
  show (pairDims N0 N1 R wf).start (ix1 t) idx a + (pairDims N0 N1 R wf).batchCoord (ix1 t) a + (pairDims N0 N1 R wf).offCoord (ix1 t) a = _
  rw [GatherDims.batchCoord_eq_zero _ _ _ List.not_mem_nil]
  match a with
  | ⟨0, _⟩ =>
    have hm : ((⟨0, by decide⟩ : Fin 2)) ∈ ([0, 1] : List (Fin 2)) := List.mem_cons_self
    rw [GatherDims.offCoord_eq_zero _ _ _ (fun h => ((GatherDims.mem_sKept _ _).mp h).1 hm)]
    simp only [Nat.add_zero]
    unfold GatherDims.start
    rw [dif_pos (show ((⟨0, by decide⟩ : Fin 2)) ∈ (pairDims N0 N1 R wf).startIndexMap from hm)]
    have hsi : (pairDims N0 N1 R wf).siIdx (ix1 t) ⟨List.idxOf (⟨0, by decide⟩ : Fin 2) (pairDims N0 N1 R wf).startIndexMap,
        List.idxOf_lt_length_iff.2 hm⟩ = ix2 t 0 := by
      funext b; refine Fin.ext ?_
      match b with
      | ⟨0, _⟩ => rfl
      | ⟨1, _⟩ => rfl
    rw [hsi]
    rfl
  | ⟨1, _⟩ =>
    have hm : ((⟨1, by decide⟩ : Fin 2)) ∈ ([0, 1] : List (Fin 2)) := List.mem_cons_of_mem _ List.mem_cons_self
    rw [GatherDims.offCoord_eq_zero _ _ _ (fun h => ((GatherDims.mem_sKept _ _).mp h).1 hm)]
    simp only [Nat.add_zero]
    unfold GatherDims.start
    rw [dif_pos (show ((⟨1, by decide⟩ : Fin 2)) ∈ (pairDims N0 N1 R wf).startIndexMap from hm)]
    have hsi : (pairDims N0 N1 R wf).siIdx (ix1 t) ⟨List.idxOf (⟨1, by decide⟩ : Fin 2) (pairDims N0 N1 R wf).startIndexMap,
        List.idxOf_lt_length_iff.2 hm⟩ = ix2 t 1 := by
      funext b; refine Fin.ext ?_
      match b with
      | ⟨0, _⟩ => rfl
      | ⟨1, _⟩ => rfl
    rw [hsi]
    rfl

end Gather

/-! ## A two-column index array as the concatenation of its columns -/

section Concat
variable {α : Type}

/-- Column 0 of the concatenation of two one-column arrays along axis 1 is the first array. -/
theorem concat_cols_apply0 {R : Nat} (a b : (⟨2, ![R, 1]⟩ : Shape).Idx → α)
    (h : Shape.Concatenates [(⟨2, ![R, 1]⟩ : Shape), (⟨2, ![R, 1]⟩ : Shape)] (⟨2, ![R, 2]⟩ : Shape) 1) (t : Fin R) :
    concatenate (⟨2, ![R, 2]⟩ : Shape) 1 [⟨(⟨2, ![R, 1]⟩ : Shape), a⟩, ⟨(⟨2, ![R, 1]⟩ : Shape), b⟩] h (ix2 t 0) = a (ix2 t 0) :=
  concatenate_pair_apply_left (t := ⟨2, ![R, 2]⟩) (s₁ := ⟨2, ![R, 1]⟩) (s₂ := ⟨2, ![R, 1]⟩) (1 : Fin 2) a b h _ rfl (ix2 t 0)
    (fun c => by match c with | ⟨0, _⟩ => rfl | ⟨1, _⟩ => rfl)

/-- Column 1 of the concatenation of two one-column arrays along axis 1 is the second array. -/
theorem concat_cols_apply1 {R : Nat} (a b : (⟨2, ![R, 1]⟩ : Shape).Idx → α)
    (h : Shape.Concatenates [(⟨2, ![R, 1]⟩ : Shape), (⟨2, ![R, 1]⟩ : Shape)] (⟨2, ![R, 2]⟩ : Shape) 1) (t : Fin R) :
    concatenate (⟨2, ![R, 2]⟩ : Shape) 1 [⟨(⟨2, ![R, 1]⟩ : Shape), a⟩, ⟨(⟨2, ![R, 1]⟩ : Shape), b⟩] h (ix2 t 1) = b (ix2 t 0) :=
  concatenate_pair_apply_right (t := ⟨2, ![R, 2]⟩) (s₁ := ⟨2, ![R, 1]⟩) (s₂ := ⟨2, ![R, 1]⟩) (1 : Fin 2) a b h _ rfl rfl (ix2 t 0)
    (fun c hc => by
      match c with
      | ⟨0, _⟩ => rfl
      | ⟨1, _⟩ => exact absurd rfl hc)
    rfl

end Concat

/-! ## The row maximum -/

/-- The word of −∞ is the bottom of the extended reals. -/
theorem ofBits_negInf : Ideal.ofBits .f32 0xFF800000#32 = (⊥ : EReal) := by
  simp [Ideal.ofBits, Ideal.ieee]

/-- The word of +0 is zero. -/
theorem ofBits_zero : Ideal.ofBits .f32 0x00000000#32 = (0 : EReal) := by
  simp [Ideal.ofBits, Ideal.ieee]

/-- Row `r` with column `k` put back at the dropped axis is (r, k). -/
theorem lift_row {N0 N1 : Nat} (h : (⟨2, ![N0, N1]⟩ : Shape).Reduces [1] (⟨1, ![N0]⟩ : Shape)) (r : Fin N0)
    (k : Fin ((⟨2, ![N0, N1]⟩ : Shape).size 1)) : h.lift (ix1 r) k = ix2 r (⟨k.val, k.isLt⟩ : Fin N1) := by
  funext c; apply Fin.ext
  match c with
  | ⟨0, _⟩ => rfl
  | ⟨1, _⟩ => rfl

/-- From −∞ the reduce with a maximum body over the columns, at row `r`, is the fold of `max` over the row from `⊥`. -/
theorem reduce_max_row {N0 N1 : Nat} (x : (⟨2, ![N0, N1]⟩ : Shape).Idx → EReal)
    (h' : (⟨2, ![N0, N1]⟩ : Shape).ReducesTo [1] (⟨1, ![N0]⟩ : Shape))
    (h : (⟨2, ![N0, N1]⟩ : Shape).Reduces [1] (⟨1, ![N0]⟩ : Shape)) (hu : 0 < (⟨0, ![]⟩ : Shape).numel) (r : Fin N0) :
    Host.reduce (FloatOps.maximumf (F := Ideal) (φ := .f32)) x (constant (F := Ideal) (⟨0, ![]⟩ : Shape) .f32 0xFF800000#32) h' hu (ix1 r)
      = Finset.univ.fold max ⊥ fun j : Fin N1 => x (ix2 r j) := by
  rw [Host.reduce_eq_fold_single (FloatOps.maximumf (F := Ideal) (φ := .f32)) x _ h' h hu]
  have hf : (x ∘ h.lift (ix1 r)) = fun k : Fin N1 => x (ix2 r k) := funext fun k => congrArg x (lift_row h r k)
  have hi : constant (F := Ideal) (⟨0, ![]⟩ : Shape) .f32 0xFF800000#32 (Shape.Idx.first hu) = (⊥ : EReal) := ofBits_negInf
  rw [hi]
  exact congrArg (fun f => Finset.fold max (⊥ : EReal) f (Finset.univ : Finset (Fin N1))) hf

/-! ## Index words: a non-negative word passes the wrap-around select, and clamps to its column -/

/-- A word below 2³¹ reads as its unsigned value when read signed. -/
theorem toInt_of_lt (w : BitVec 32) (h : w.toNat < 2 ^ 31) : w.toInt = (w.toNat : Int) := by
  rw [BitVec.toInt_eq_toNat_cond]; rw [if_pos (by omega)]

/-- The select "w < 0 ? w + n : w" is `w` for a word that is not negative. -/
theorem wrap_nonneg (w n : BitVec 32) (h : w.toNat < 2 ^ 31) :
    Scalar.select (IntOp.cmpi .slt w 0#32) (IntOp.addi w n) w = w := by
  have hs : w.slt 0#32 = false := by
    rw [BitVec.slt, toInt_of_lt w h]
    simp
  have hc : IntOp.cmpi .slt w 0#32 = 0#1 := by
    show BitVec.ofBool (w.slt 0#32) = 0#1
    rw [hs]; rfl
  rw [hc]; exact select_zero _ _

/-- An in-range word clamped into the 32000 columns is its column. -/
theorem clamp_col (w : BitVec 32) (h : Cert.Spec.InRange w) : min w.toInt.toNat (32000 - 1) = (Cert.Spec.col w).val := by
  have h' : w.toNat < 2 ^ 31 := by unfold Cert.Spec.InRange at h; omega
  rw [toInt_of_lt w h']
  show min (w.toNat : Int).toNat (32000 - 1) = min w.toNat 31999
  simp

/-- A row number's word clamped into the 4096 rows is the row. -/
theorem clamp_row (r : Fin 4096) : min (BitVec.ofNat 32 r.val).toInt.toNat (4096 - 1) = r.val := by
  have hr := r.isLt
  have e : (BitVec.ofNat 32 r.val).toNat = r.val := by simp [BitVec.toNat_ofNat]; omega
  rw [toInt_of_lt _ (by rw [e]; omega), e]
  simp; omega

/-- The zero word clamped into a single row is row 0. -/
theorem clamp_zero : min (0#32).toInt.toNat (1 - 1) = 0 := by simp

end Cert.RefRows

end
-- ==== Proof.RefRowsB.lean ====
/-
  The reference's program read at a row: the log-softmax value at (row, column), the three gathered
  log-softmax values, the two gathered weights and the temperature, each as the shared specification spells it.
-/
import proofs.«178677_j88021059764894_2_alg».proof.Proof.RefReadP
import proofs.«178677_j88021059764894_2_alg».proof.Proof.Spec
import proofs.«178677_j88021059764894_2_alg».proof.Proof.RefRowsA

noncomputable section

namespace Cert.RefRows

open Idealize.ShloMosaic Idealize.ShloMosaic.ValueIdx
open Cert.ReferenceIdeal Cert.ReferenceIdeal.Gen Cert.ReferenceIdeal.ReadP

/-! ## The log-softmax -/

/-- The broadcast row maximum at row `r` is the specification's. -/
theorem rowMax_read (x0 : (⟨S4096x32000, .f32⟩ : BufTy).Contents (Elt Ideal)) (r : Fin 4096) :
    val_main_call0_v2 (F := Ideal) x0 (ix1 r) = Cert.Spec.rowMax x0 r := by
  rw [val_main_call0_v2_apply, val_main_call0_v1_apply, val_main_call0_cst_0_apply]
  show max (Ideal.ofBits .f32 0xFF800000#32) (val_main_call0_v0 (F := Ideal) x0 (ix1 r)) = _
  unfold val_main_call0_v0
  rw [show val_main_call0_cst (F := Ideal) = constant (F := Ideal) S_ .f32 0xFF800000#32 from rfl]
  rw [reduce_max_row x0 reducesTo_S4096x32000_S4096_d1 (by decide) h_S_ r, ofBits_negInf]
  exact max_eq_right bot_le

/-- The row index a column-broadcast reads at (r, c). -/
theorem idx_v3_v4 (r : Fin 4096) (c : Fin 32000) : idx_main_call0_v3 (idx_main_call0_v4 (ix2 r c)) = ix1 r := by
  funext a; match a with | ⟨0, _⟩ => rfl
theorem idx_v8_v10 (r : Fin 4096) (c : Fin 32000) : idx_main_call0_v8 (idx_main_call0_v10 (ix2 r c)) = ix1 r := by
  funext a; match a with | ⟨0, _⟩ => rfl
theorem idx_v7 (r : Fin 4096) (k : Fin 32000) : idx_main_call0_v7 (ix1 r) k = ix2 r k := by
  funext a; match a with | ⟨0, _⟩ => rfl | ⟨1, _⟩ => rfl

/-- The row's sum of shifted exponentials is the specification's. -/
theorem rowSum_read (x0 : (⟨S4096x32000, .f32⟩ : BufTy).Contents (Elt Ideal)) (r : Fin 4096) :
    val_main_call0_v7 (F := Ideal) x0 (ix1 r) = Cert.Spec.rowSum x0 r := by
  rw [val_main_call0_v7_apply]
  rw [show val_main_call0_cst_1 (F := Ideal) (Shape.Idx.first h_S_) = (0 : EReal) from ofBits_zero, zero_add]
  unfold Cert.Spec.rowSum
  refine Finset.sum_congr rfl fun k _ => ?_
  rw [idx_v7 r k, val_main_call0_v6_apply, val_main_call0_v5_apply, val_main_call0_v4_apply, val_main_call0_v3_apply,
    idx_v3_v4 r k, rowMax_read]
  rfl

/-- The log-softmax at (r, c): the shifted logit less the logarithm of the row's sum. -/
theorem lsm_read (x0 : (⟨S4096x32000, .f32⟩ : BufTy).Contents (Elt Ideal)) (r : Fin 4096) (c : Fin 32000) :
    val_main_v1 (F := Ideal) x0 (ix2 r c)
      = FloatOps.subf (F := Ideal) (φ := .f32) (FloatOps.subf (F := Ideal) (φ := .f32) (x0 (ix2 r c)) (Cert.Spec.rowMax x0 r))
          (FloatOps.hostUnary (F := Ideal) (φ := .f32) .log (Cert.Spec.rowSum x0 r)) := by
  rw [val_main_v1_apply, val_main_call0_v5_apply, val_main_call0_v4_apply, val_main_call0_v3_apply,
    val_main_call0_v10_apply, val_main_call0_v9_apply, val_main_call0_v8_apply,
    idx_v3_v4 r c, idx_v8_v10 r c, rowMax_read, rowSum_read]

/-! ## The index arrays and the gathers -/

section Gathers
variable {α : Type}

/-- A vector broadcast to one column, read at (r, 0), is the vector at `r`. -/
theorem bcol_apply (A : S4096.Idx → α) (r : Fin 4096) :
    broadcastInDim S4096x1 ![0] bcast_S4096_S4096x1_0 A (ix2 r 0) = A (ix1 r) :=
  broadcastInDim_apply _ bcast_S4096_S4096x1_0 A (ix2 r 0) (ix1 r) (fun a => match a with
    | ⟨0, _⟩ => by show r.val = if (4096 : Nat) = 1 then 0 else r.val; rw [if_neg (by decide)])

/-- The gather out of the [4096, 32000] array at the pairs (row word, column word), at a row whose row word is the
    row's number and whose column word is in range: the array at (r, that column). -/
theorem gather_rows (x : S4096x32000.Idx → α) (A B : S4096.Idx → BitVec 32) (r : Fin 4096) (w : BitVec 32)
    (hA : A (ix1 r) = BitVec.ofNat 32 r.val) (hB : B (ix1 r) = w) (hw : Cert.Spec.InRange w) :
    Host.gather gather_S4096x32000_S4096x2_S4096_n_01_n_n_01_1_11 x
      (concatenate S4096x2 1 [⟨S4096x1, broadcastInDim S4096x1 ![0] bcast_S4096_S4096x1_0 A⟩,
        ⟨S4096x1, broadcastInDim S4096x1 ![0] bcast_S4096_S4096x1_0 B⟩] concatenates_S4096x1_S4096x1_S4096x2_d1) (ix1 r)
      = x (ix2 r (Cert.Spec.col w)) := by
  refine (gather_pair_apply (N0 := 4096) (N1 := 32000) (R := 4096) (by decide) (by decide)
    gather_S4096x32000_S4096x2_S4096_n_01_n_n_01_1_11_wf x _ r).trans (congrArg x ?_)
  funext a
  match a with
  | ⟨0, _⟩ =>
    refine Fin.ext ?_
    show min (_ : BitVec 32).toInt.toNat (4096 - 1) = r.val
    rw [concat_cols_apply0, bcol_apply, hA]
    exact clamp_row r
  | ⟨1, _⟩ =>
    refine Fin.ext ?_
    show min (_ : BitVec 32).toInt.toNat (32000 - 1) = (Cert.Spec.col w).val
    rw [concat_cols_apply1, bcol_apply, hB]
    exact clamp_col w hw

/-- The gather out of a one-row [1, 32000] table at the pairs (0, column word), the column word in range: the table at
    (0, that column). -/
theorem gather_row0 (x : S1x32000.Idx → α) (A B : S4096.Idx → BitVec 32) (r : Fin 4096) (w : BitVec 32)
    (hA : A (ix1 r) = 0#32) (hB : B (ix1 r) = w) (hw : Cert.Spec.InRange w) :
    Host.gather gather_S1x32000_S4096x2_S4096_n_01_n_n_01_1_11 x
      (concatenate S4096x2 1 [⟨S4096x1, broadcastInDim S4096x1 ![0] bcast_S4096_S4096x1_0 A⟩,
        ⟨S4096x1, broadcastInDim S4096x1 ![0] bcast_S4096_S4096x1_0 B⟩] concatenates_S4096x1_S4096x1_S4096x2_d1) (ix1 r)
      = x (ix2 0 (Cert.Spec.col w)) := by
  refine (gather_pair_apply (N0 := 1) (N1 := 32000) (R := 4096) (by decide) (by decide)
    gather_S1x32000_S4096x2_S4096_n_01_n_n_01_1_11_wf x _ r).trans (congrArg x ?_)
  funext a
  match a with
  | ⟨0, _⟩ =>
    refine Fin.ext ?_
    show min (_ : BitVec 32).toInt.toNat (1 - 1) = 0
    rw [concat_cols_apply0, bcol_apply, hA]
    exact clamp_zero
  | ⟨1, _⟩ =>
    refine Fin.ext ?_
    show min (_ : BitVec 32).toInt.toNat (32000 - 1) = (Cert.Spec.col w).val
    rw [concat_cols_apply1, bcol_apply, hB]
    exact clamp_col w hw

end Gathers

/-! ## The index words of the program at a row -/

/-- The reads of the index arithmetic: the row numbers, the constants, and the compare / add / select that wraps a
    negative word around. -/
macro "read_words" : tactic => `(tactic| simp only [
    val_main_v0_apply, val_main_c_apply, val_main_v2_apply, val_main_v3_apply, val_main_v4_apply, val_main_v5_apply,
    val_main_v6_apply, val_main_c_0_apply, val_main_c_1_apply, val_main_c_2_apply, val_main_v7_apply, val_main_v8_apply,
    val_main_v9_apply, val_main_v10_apply, val_main_v11_apply, val_main_c_3_apply, val_main_c_4_apply, val_main_v17_apply,
    val_main_v18_apply, val_main_v19_apply, val_main_v20_apply, val_main_v21_apply, val_main_c_5_apply, val_main_v22_apply,
    val_main_v23_apply, val_main_c_6_apply, val_main_c_7_apply, val_main_v28_apply, val_main_v29_apply, val_main_v30_apply,
    val_main_v31_apply, val_main_v32_apply, val_main_c_8_apply, val_main_v33_apply, val_main_v34_apply, val_main_c_9_apply,
    val_main_c_10_apply, val_main_v39_apply, val_main_v40_apply, val_main_v41_apply, val_main_v42_apply, val_main_v43_apply,
    val_main_c_11_apply, val_main_v44_apply, val_main_v45_apply, val_main_c_12_apply, val_main_c_13_apply, val_main_v50_apply,
    val_main_v51_apply, val_main_v52_apply, val_main_v53_apply, val_main_v54_apply, val_main_c_14_apply, val_main_v55_apply,
    val_main_v56_apply, val_main_c_15_apply, val_main_c_16_apply, val_main_v61_apply, val_main_v62_apply, val_main_v63_apply,
    val_main_v64_apply, val_main_v65_apply, val_main_c_17_apply, val_main_c_18_apply, val_main_v66_apply, val_main_v67_apply,
    val_main_v68_apply, val_main_v69_apply, val_main_v70_apply, val_main_c_19_apply, val_main_c_20_apply, val_main_v76_apply,
    val_main_v77_apply, val_main_v78_apply, val_main_v79_apply, val_main_v80_apply, val_main_c_21_apply, val_main_c_22_apply,
    val_main_v81_apply, val_main_v82_apply, val_main_v83_apply, val_main_v84_apply, val_main_v85_apply])

theorem inRange_lt {w : BitVec 32} (h : Cert.Spec.InRange w) : w.toNat < 2 ^ 31 := by
  unfold Cert.Spec.InRange at h; omega

theorem rowWord_lt (r : Fin 4096) : (BitVec.ofNat 32 r.val).toNat < 2 ^ 31 := by
  rw [BitVec.toNat_ofNat]; have := r.isLt; omega

theorem rowWord_v6 (r : Fin 4096) : val_main_v6 (F := Ideal) (ix1 r) = BitVec.ofNat 32 r.val := by
  read_words; exact wrap_nonneg _ _ (rowWord_lt r)
theorem rowWord_v65 (r : Fin 4096) : val_main_v65 (F := Ideal) (ix1 r) = BitVec.ofNat 32 r.val := by
  read_words; exact wrap_nonneg _ _ (rowWord_lt r)
theorem rowWord_v80 (r : Fin 4096) : val_main_v80 (F := Ideal) (ix1 r) = BitVec.ofNat 32 r.val := by
  read_words; exact wrap_nonneg _ _ (rowWord_lt r)

theorem tgtWord_v11 (x1 : (⟨S4096, .i32⟩ : BufTy).Contents (Elt Ideal)) (r : Fin 4096) (ht : Cert.Spec.InRange (x1 (ix1 r))) :
    val_main_v11 (F := Ideal) x1 (ix1 r) = x1 (ix1 r) := by
  read_words; exact wrap_nonneg _ _ (inRange_lt ht)
theorem tgtWord_v21 (x1 : (⟨S4096, .i32⟩ : BufTy).Contents (Elt Ideal)) (r : Fin 4096) (ht : Cert.Spec.InRange (x1 (ix1 r))) :
    val_main_v21 (F := Ideal) x1 (ix1 r) = x1 (ix1 r) := by
  read_words; exact wrap_nonneg _ _ (inRange_lt ht)
theorem tgtWord_v32 (x1 : (⟨S4096, .i32⟩ : BufTy).Contents (Elt Ideal)) (r : Fin 4096) (ht : Cert.Spec.InRange (x1 (ix1 r))) :
    val_main_v32 (F := Ideal) x1 (ix1 r) = x1 (ix1 r) := by
  read_words; exact wrap_nonneg _ _ (inRange_lt ht)
theorem tgtWord_v43 (x1 : (⟨S4096, .i32⟩ : BufTy).Contents (Elt Ideal)) (r : Fin 4096) (ht : Cert.Spec.InRange (x1 (ix1 r))) :
    val_main_v43 (F := Ideal) x1 (ix1 r) = x1 (ix1 r) := by
  read_words; exact wrap_nonneg _ _ (inRange_lt ht)
theorem tgtWord_v54 (x1 : (⟨S4096, .i32⟩ : BufTy).Contents (Elt Ideal)) (r : Fin 4096) (ht : Cert.Spec.InRange (x1 (ix1 r))) :
    val_main_v54 (F := Ideal) x1 (ix1 r) = x1 (ix1 r) := by
  read_words; exact wrap_nonneg _ _ (inRange_lt ht)

theorem zeroWord_v23 (r : Fin 4096) : val_main_v23 (F := Ideal) (ix1 r) = 0#32 := by
  read_words
theorem zeroWord_v34 (r : Fin 4096) : val_main_v34 (F := Ideal) (ix1 r) = 0#32 := by
  read_words
theorem zeroWord_v45 (r : Fin 4096) : val_main_v45 (F := Ideal) (ix1 r) = 0#32 := by
  read_words
theorem zeroWord_v56 (r : Fin 4096) : val_main_v56 (F := Ideal) (ix1 r) = 0#32 := by
  read_words

/-! ## The gathered table entries, weights and log-softmax values at a row -/

/-- The first class table at the row's target. -/
theorem y1_read (x1 : (⟨S4096, .i32⟩ : BufTy).Contents (Elt Ideal)) (x3 : (⟨S1x32000, .i32⟩ : BufTy).Contents (Elt Ideal)) (r : Fin 4096) (ht : Cert.Spec.InRange (x1 (ix1 r))) :
    val_main_v27 (F := Ideal) x1 x3 (ix1 r) = x3 (ix2 0 (Cert.Spec.tcol x1 r)) := by
  unfold val_main_v27 val_main_v26 val_main_v25 val_main_v24
  exact gather_row0 x3 _ _ r _ (zeroWord_v23 r) (tgtWord_v21 x1 r ht) ht

/-- The second class table at the row's target. -/
theorem y2_read (x1 : (⟨S4096, .i32⟩ : BufTy).Contents (Elt Ideal)) (x5 : (⟨S1x32000, .i32⟩ : BufTy).Contents (Elt Ideal)) (r : Fin 4096) (ht : Cert.Spec.InRange (x1 (ix1 r))) :
    val_main_v38 (F := Ideal) x1 x5 (ix1 r) = x5 (ix2 0 (Cert.Spec.tcol x1 r)) := by
  unfold val_main_v38 val_main_v37 val_main_v36 val_main_v35
  exact gather_row0 x5 _ _ r _ (zeroWord_v34 r) (tgtWord_v32 x1 r ht) ht

/-- The first weight at the row's target. -/
theorem w1_read (x1 : (⟨S4096, .i32⟩ : BufTy).Contents (Elt Ideal)) (x2 : (⟨S1x32000, .f32⟩ : BufTy).Contents (Elt Ideal)) (r : Fin 4096) (ht : Cert.Spec.InRange (x1 (ix1 r))) :
    val_main_v49 (F := Ideal) x1 x2 (ix1 r) = x2 (ix2 0 (Cert.Spec.tcol x1 r)) := by
  unfold val_main_v49 val_main_v48 val_main_v47 val_main_v46
  exact gather_row0 x2 _ _ r _ (zeroWord_v45 r) (tgtWord_v43 x1 r ht) ht

/-- The second weight at the row's target. -/
theorem w2_read (x1 : (⟨S4096, .i32⟩ : BufTy).Contents (Elt Ideal)) (x4 : (⟨S1x32000, .f32⟩ : BufTy).Contents (Elt Ideal)) (r : Fin 4096) (ht : Cert.Spec.InRange (x1 (ix1 r))) :
    val_main_v60 (F := Ideal) x1 x4 (ix1 r) = x4 (ix2 0 (Cert.Spec.tcol x1 r)) := by
  unfold val_main_v60 val_main_v59 val_main_v58 val_main_v57
  exact gather_row0 x4 _ _ r _ (zeroWord_v56 r) (tgtWord_v54 x1 r ht) ht

theorem y1Word_v70 (x1 : (⟨S4096, .i32⟩ : BufTy).Contents (Elt Ideal)) (x3 : (⟨S1x32000, .i32⟩ : BufTy).Contents (Elt Ideal)) (r : Fin 4096)
    (ht : Cert.Spec.InRange (x1 (ix1 r))) (hy : Cert.Spec.InRange (x3 (ix2 0 (Cert.Spec.tcol x1 r)))) :
    val_main_v70 (F := Ideal) x1 x3 (ix1 r) = x3 (ix2 0 (Cert.Spec.tcol x1 r)) := by
  read_words; rw [y1_read x1 x3 r ht]; exact wrap_nonneg _ _ (inRange_lt hy)

theorem y2Word_v85 (x1 : (⟨S4096, .i32⟩ : BufTy).Contents (Elt Ideal)) (x5 : (⟨S1x32000, .i32⟩ : BufTy).Contents (Elt Ideal)) (r : Fin 4096)
    (ht : Cert.Spec.InRange (x1 (ix1 r))) (hy : Cert.Spec.InRange (x5 (ix2 0 (Cert.Spec.tcol x1 r)))) :
    val_main_v85 (F := Ideal) x1 x5 (ix1 r) = x5 (ix2 0 (Cert.Spec.tcol x1 r)) := by
  read_words; rw [y2_read x1 x5 r ht]; exact wrap_nonneg _ _ (inRange_lt hy)

/-- The log-softmax gathered at the row's target. -/
theorem lt_read (x0 : (⟨S4096x32000, .f32⟩ : BufTy).Contents (Elt Ideal)) (x1 : (⟨S4096, .i32⟩ : BufTy).Contents (Elt Ideal)) (r : Fin 4096) (ht : Cert.Spec.InRange (x1 (ix1 r))) :
    val_main_v15 (F := Ideal) x0 x1 (ix1 r) = val_main_v1 (F := Ideal) x0 (ix2 r (Cert.Spec.tcol x1 r)) := by
  unfold val_main_v15 val_main_v14 val_main_v13 val_main_v12
  exact gather_rows (val_main_v1 (F := Ideal) x0) _ _ r _ (rowWord_v6 r) (tgtWord_v11 x1 r ht) ht

/-- The log-softmax gathered at the row's first correlated class. -/
theorem l1_read (x0 : (⟨S4096x32000, .f32⟩ : BufTy).Contents (Elt Ideal)) (x1 : (⟨S4096, .i32⟩ : BufTy).Contents (Elt Ideal)) (x3 : (⟨S1x32000, .i32⟩ : BufTy).Contents (Elt Ideal)) (r : Fin 4096)
    (ht : Cert.Spec.InRange (x1 (ix1 r))) (hy : Cert.Spec.InRange (x3 (ix2 0 (Cert.Spec.tcol x1 r)))) :
    val_main_v74 (F := Ideal) x0 x1 x3 (ix1 r) = val_main_v1 (F := Ideal) x0 (ix2 r (Cert.Spec.ycol x3 x1 r)) := by
  unfold val_main_v74 val_main_v73 val_main_v72 val_main_v71
  exact gather_rows (val_main_v1 (F := Ideal) x0) _ _ r _ (rowWord_v65 r) (y1Word_v70 x1 x3 r ht hy) hy

/-- The log-softmax gathered at the row's second correlated class. -/
theorem l2_read (x0 : (⟨S4096x32000, .f32⟩ : BufTy).Contents (Elt Ideal)) (x1 : (⟨S4096, .i32⟩ : BufTy).Contents (Elt Ideal)) (x5 : (⟨S1x32000, .i32⟩ : BufTy).Contents (Elt Ideal)) (r : Fin 4096)
    (ht : Cert.Spec.InRange (x1 (ix1 r))) (hy : Cert.Spec.InRange (x5 (ix2 0 (Cert.Spec.tcol x1 r)))) :
    val_main_v89 (F := Ideal) x0 x1 x5 (ix1 r) = val_main_v1 (F := Ideal) x0 (ix2 r (Cert.Spec.ycol x5 x1 r)) := by
  unfold val_main_v89 val_main_v88 val_main_v87 val_main_v86
  exact gather_rows (val_main_v1 (F := Ideal) x0) _ _ r _ (rowWord_v80 r) (y2Word_v85 x1 x5 r ht hy) hy

/-- Any two indices of the one-element shape are equal. -/
theorem s1_idx_eq (i j : S1.Idx) : i = j := by
  funext a
  match a with
  | ⟨0, h⟩ =>
    have h1 : (i ⟨0, h⟩).val < 1 := (i ⟨0, h⟩).isLt
    have h2 : (j ⟨0, h⟩).val < 1 := (j ⟨0, h⟩).isLt
    exact Fin.ext (by omega)

/-- The temperature, reshaped to a scalar and broadcast, is the one-element array's entry at every row. -/
theorem T_read (x6 : (⟨S1, .f32⟩ : BufTy).Contents (Elt Ideal)) (r : Fin 4096) : val_main_v95 (F := Ideal) x6 (ix1 r) = x6 (ix1 0) := by
  rw [val_main_v95_apply]
  show x6 _ = x6 _
  exact congrArg x6 (s1_idx_eq _ _)

end Cert.RefRows

end
-- ==== Proof.RefRows.lean ====
/-
  The reference's four results as the shared specification's sums over the rows: each per-row summand of the
  program is the specification's term of the row's three probabilities, two weights and the temperature.
-/
import proofs.«178677_j88021059764894_2_alg».proof.Proof.RefReadP
import proofs.«178677_j88021059764894_2_alg».proof.Proof.Spec
import proofs.«178677_j88021059764894_2_alg».proof.Proof.RefRowsB

noncomputable section

namespace Cert.RefRows

open Idealize.ShloMosaic Idealize.ShloMosaic.ValueIdx
open Cert.ReferenceIdeal Cert.ReferenceIdeal.Gen Cert.ReferenceIdeal.ReadP

/-! ## Sums over a rank-1 index set -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row's probabilities, weights and temperature -/

section Rows
variable (x0 : (⟨S4096x32000, .f32⟩ : BufTy).Contents (Elt Ideal)) (x1 : (⟨S4096, .i32⟩ : BufTy).Contents (Elt Ideal))
    (x2 : (⟨S1x32000, .f32⟩ : BufTy).Contents (Elt Ideal)) (x3 : (⟨S1x32000, .i32⟩ : BufTy).Contents (Elt Ideal))
    (x4 : (⟨S1x32000, .f32⟩ : BufTy).Contents (Elt Ideal)) (x5 : (⟨S1x32000, .i32⟩ : BufTy).Contents (Elt Ideal))
    (x6 : (⟨S1, .f32⟩ : BufTy).Contents (Elt Ideal))
  (h1 : ∀ i, Cert.Spec.InRange (x1 i)) (h3 : ∀ i, Cert.Spec.InRange (x3 i)) (h5 : ∀ i, Cert.Spec.InRange (x5 i)) (r : Fin 4096)
include h1 h3 h5

theorem pt_read : val_main_v16 (F := Ideal) x0 x1 (ix1 r) = (Cert.Spec.refRow x0 x1 x2 x3 x4 x5 x6 r).pt := by
  rw [val_main_v16_apply, lt_read x0 x1 r (h1 _), lsm_read]
  rfl

theorem P1_read : val_main_v75 (F := Ideal) x0 x1 x3 (ix1 r) = (Cert.Spec.refRow x0 x1 x2 x3 x4 x5 x6 r).P1 := by
  rw [val_main_v75_apply, l1_read x0 x1 x3 r (h1 _) (h3 _), lsm_read]
  rfl

theorem P2_read : val_main_v90 (F := Ideal) x0 x1 x5 (ix1 r) = (Cert.Spec.refRow x0 x1 x2 x3 x4 x5 x6 r).P2 := by
  rw [val_main_v90_apply, l2_read x0 x1 x5 r (h1 _) (h5 _), lsm_read]
  rfl

/-- The correction term T·(x₁·P₁ + x₂·P₂) of the row. -/
theorem c_read : val_main_v96 (F := Ideal) x0 x1 x2 x3 x4 x5 x6 (ix1 r) = (Cert.Spec.refRow x0 x1 x2 x3 x4 x5 x6 r).c := by
  rw [val_main_v96_apply, val_main_v94_apply, val_main_v92_apply, val_main_v93_apply, T_read,
    w1_read x1 x2 r (h1 _), w2_read x1 x4 r (h1 _), P1_read x0 x1 x2 x3 x4 x5 x6 h1 h3 h5 r,
    P2_read x0 x1 x2 x3 x4 x5 x6 h1 h3 h5 r]
  rfl

/-! ## The four per-row terms -/

theorem loss_read : val_main_v104 (F := Ideal) x0 x1 x2 x3 x4 x5 x6 (ix1 r)
    = Cert.Spec.lossTerm (Cert.Spec.refRow x0 x1 x2 x3 x4 x5 x6 r).pt (Cert.Spec.refRow x0 x1 x2 x3 x4 x5 x6 r).c := by
  simp only [val_main_v104_apply, val_main_v97_apply, val_main_v101_apply, val_main_v100_apply, val_main_v99_apply,
    val_main_v98_apply, val_main_call1_v1_apply, val_main_call1_v0_apply, val_main_cst_apply, val_main_v103_apply,
    val_main_v102_apply, pt_read x0 x1 x2 x3 x4 x5 x6 h1 h3 h5 r, c_read x0 x1 x2 x3 x4 x5 x6 h1 h3 h5 r]
  rfl

theorem k_read : val_main_v114 (F := Ideal) x0 x1 x2 x3 x4 x5 x6 (ix1 r)
    = Cert.Spec.kTerm (Cert.Spec.refRow x0 x1 x2 x3 x4 x5 x6 r).pt (Cert.Spec.refRow x0 x1 x2 x3 x4 x5 x6 r).c (Cert.Spec.refRow x0 x1 x2 x3 x4 x5 x6 r).P1 (Cert.Spec.refRow x0 x1 x2 x3 x4 x5 x6 r).P2 := by
  simp only [val_main_v114_apply, val_main_v110_apply, val_main_v109_apply, val_main_v106_apply, val_main_v108_apply,
    val_main_v105_apply, val_main_v107_apply, val_main_cst_23_apply, val_main_cst_24_apply, val_main_v97_apply,
    pt_read x0 x1 x2 x3 x4 x5 x6 h1 h3 h5 r, c_read x0 x1 x2 x3 x4 x5 x6 h1 h3 h5 r,
    P1_read x0 x1 x2 x3 x4 x5 x6 h1 h3 h5 r, P2_read x0 x1 x2 x3 x4 x5 x6 h1 h3 h5 r]
  rfl

theorem z_read : val_main_v113 (F := Ideal) x0 x1 x2 x3 x4 x5 x6 (ix1 r)
    = Cert.Spec.zTerm (Cert.Spec.refRow x0 x1 x2 x3 x4 x5 x6 r).pt (Cert.Spec.refRow x0 x1 x2 x3 x4 x5 x6 r).c (Cert.Spec.refRow x0 x1 x2 x3 x4 x5 x6 r).P1 (Cert.Spec.refRow x0 x1 x2 x3 x4 x5 x6 r).P2 := by
  simp only [val_main_v113_apply, val_main_v112_apply, val_main_v111_apply, val_main_call3_v1_apply, val_main_call3_v0_apply,
    val_main_cst_25_apply, val_main_call4_v1_apply, val_main_call4_v0_apply, val_main_cst_26_apply,
    val_main_v110_apply, val_main_v109_apply, val_main_v106_apply, val_main_v108_apply,
    val_main_v105_apply, val_main_v107_apply, val_main_cst_23_apply, val_main_cst_24_apply, val_main_v97_apply,
    pt_read x0 x1 x2 x3 x4 x5 x6 h1 h3 h5 r, c_read x0 x1 x2 x3 x4 x5 x6 h1 h3 h5 r,
    P1_read x0 x1 x2 x3 x4 x5 x6 h1 h3 h5 r, P2_read x0 x1 x2 x3 x4 x5 x6 h1 h3 h5 r]
  rfl

theorem j_read : val_main_v116 (F := Ideal) x0 x1 x2 x3 x4 x5 x6 (ix1 r)
    = Cert.Spec.jTerm (Cert.Spec.refRow x0 x1 x2 x3 x4 x5 x6 r).pt (Cert.Spec.refRow x0 x1 x2 x3 x4 x5 x6 r).c := by
  simp only [val_main_v116_apply, val_main_v115_apply, val_main_v97_apply,
    pt_read x0 x1 x2 x3 x4 x5 x6 h1 h3 h5 r, c_read x0 x1 x2 x3 x4 x5 x6 h1 h3 h5 r]
  rfl

end Rows

/-! ## The four results -/

open Cert.ReferenceIdeal Cert.ReferenceIdeal.ReadP in
theorem results (x0 : (⟨S4096x32000, .f32⟩ : BufTy).Contents (Elt Ideal)) (x1 : (⟨S4096, .i32⟩ : BufTy).Contents (Elt Ideal))
    (x2 : (⟨S1x32000, .f32⟩ : BufTy).Contents (Elt Ideal)) (x3 : (⟨S1x32000, .i32⟩ : BufTy).Contents (Elt Ideal))
    (x4 : (⟨S1x32000, .f32⟩ : BufTy).Contents (Elt Ideal)) (x5 : (⟨S1x32000, .i32⟩ : BufTy).Contents (Elt Ideal))
    (x6 : (⟨S1, .f32⟩ : BufTy).Contents (Elt Ideal))
    (h1 : ∀ i, Cert.Spec.InRange (x1 i)) (h3 : ∀ i, Cert.Spec.InRange (x3 i)) (h5 : ∀ i, Cert.Spec.InRange (x5 i)) :
    val_main_v118 (F := Ideal) x0 x1 x2 x3 x4 x5 x6 = (fun _ => Cert.Spec.resLoss (Cert.Spec.refRow x0 x1 x2 x3 x4 x5 x6))
    ∧ val_main_v119 (F := Ideal) x0 x1 x2 x3 x4 x5 x6 = (fun _ => Cert.Spec.resK (Cert.Spec.refRow x0 x1 x2 x3 x4 x5 x6))
    ∧ val_main_v120 (F := Ideal) x0 x1 x2 x3 x4 x5 x6 = (fun _ => Cert.Spec.resZ (Cert.Spec.refRow x0 x1 x2 x3 x4 x5 x6))
    ∧ val_main_v121 (F := Ideal) x0 x1 x2 x3 x4 x5 x6 = (fun _ => Cert.Spec.resJ (Cert.Spec.refRow x0 x1 x2 x3 x4 x5 x6)) := by
  refine ⟨?_, ?_, ?_, ?_⟩
  · funext i
    rw [val_main_v118_apply, val_main_v117_apply, val_main_cst_28_apply, val_main_cst_27_apply, sum_idx1]
    simp only [loss_read x0 x1 x2 x3 x4 x5 x6 h1 h3 h5]
    rfl
  · funext i
    rw [val_main_v119_apply, val_main_cst_29_apply, sum_idx1]
    simp only [k_read x0 x1 x2 x3 x4 x5 x6 h1 h3 h5]
    rfl
  · funext i
    rw [val_main_v120_apply, val_main_cst_30_apply, sum_idx1]
    simp only [z_read x0 x1 x2 x3 x4 x5 x6 h1 h3 h5]
    rfl
  · funext i
    rw [val_main_v121_apply, val_main_cst_31_apply, sum_idx1]
    simp only [j_read x0 x1 x2 x3 x4 x5 x6 h1 h3 h5]
    rfl

end Cert.RefRows

end
-- ==== Proof.PreDecode.lean ====
/-
  The precondition, read back. The printed predicate is a conjunction of seven `all`s: |x| < +∞ for every
  element of the four float inputs, and 0 ≤ w < 32000 (signed) for every word of the three index inputs. It being
  true says, of the logits, that every element is a real number (an extended real whose absolute value is below
  +∞ is neither +∞ nor −∞), and of each index word that, read unsigned, it is below 32000 (a word that is
  nonnegative signed reads the same unsigned).
-/
import Idealize.ShloMosaic.Lib.ReduceAll
import Idealize.ShloMosaic.Lib.ValueIdx
import Idealize.ShloMosaic.PureOps.Ideal
import proofs.«178677_j88021059764894_2_alg».proof.Pre_finite_inputs
import proofs.«178677_j88021059764894_2_alg».proof.Proof.Spec

noncomputable section

namespace Cert.PreDecode

open Idealize.ShloMosaic Idealize.ShloMosaic.ValueIdx Cert.Pre_finite_inputs

/-- The rank-0 shape has one index. -/
instance : Subsingleton S_.Idx := ⟨fun a b => funext fun d => d.elim0⟩

/-- The pattern 0x7F800000 is +∞. -/
theorem inf_eq : Ideal.ofBits .f32 0x7F800000#32 = (⊤ : EReal) := by
  simp [Ideal.ofBits, Ideal.ieee]

/-- An extended real whose absolute value is below +∞ is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  change Ideal.cmp .olt (max x (-x)) (Ideal.ofBits .f32 0x7F800000#32) = 1#1 at h
  rw [inf_eq] at h
  induction x using EReal.rec with
  | bot => simp [Ideal.cmp] at h
  | coe r => exact ⟨r, rfl⟩
  | top => simp [Ideal.cmp] at h

/-- A word with 0 ≤ w and w < 32000, both signed, is below 32000 unsigned. -/
theorem inRange (w : BitVec 32) (h0 : IntOp.cmpi .sge w 0#32 = 1#1) (h1 : IntOp.cmpi .slt w 32000#32 = 1#1) :
    Cert.Spec.InRange w := by
  rw [IntOp.cmpi_sge] at h0
  rw [IntOp.cmpi_slt] at h1
  have z : (0#32 : BitVec 32).toInt = 0 := by decide
  have t : (32000#32 : BitVec 32).toInt = 32000 := by decide
  rw [z] at h0
  rw [t] at h1
  have hlt := w.isLt
  have hc := BitVec.toInt_eq_toNat_cond w
  unfold Cert.Spec.InRange
  split_ifs at hc <;> omega

/-- The precondition true: every logit is a real number, and every word of the three index inputs is in range. -/
theorem decode [Cert.Pre_finite_inputs.Facts] (a0 : FVec Ideal S4096x32000 .f32) (a1 : IVec S4096 32) (a2 : FVec Ideal S1x32000 .f32)
    (a3 : IVec S1x32000 32) (a4 : FVec Ideal S1x32000 .f32) (a5 : IVec S1x32000 32) (a6 : FVec Ideal S1 .f32)
    (h : Cert.Pre_finite_inputs.fn (F := Ideal) a0 a1 a2 a3 a4 a5 a6 = (fun _ => 1#1)) :
    (∀ i, ∃ r : ℝ, a0 i = (r : EReal)) ∧ (∀ i, Cert.Spec.InRange (a1 i)) ∧ (∀ i, Cert.Spec.InRange (a3 i)) ∧ (∀ i, Cert.Spec.InRange (a5 i)) := by
  have e := congrFun h ix0
  dsimp only [Cert.Pre_finite_inputs.fn, Cert.Pre_finite_inputs.fn_part1, Cert.Pre_finite_inputs.fn_part2] at e
  obtain ⟨e, h38⟩ := IntOp.andi_eq_one.1 e
  obtain ⟨e, h31⟩ := IntOp.andi_eq_one.1 e
  obtain ⟨e, h24⟩ := IntOp.andi_eq_one.1 e
  obtain ⟨e, -⟩ := IntOp.andi_eq_one.1 e
  obtain ⟨e, -⟩ := IntOp.andi_eq_one.1 e
  obtain ⟨h3, -⟩ := IntOp.andi_eq_one.1 e
  have k3 := Host.reduce_andi_all _ _ _ _ ix0 h3
  have k24 := Host.reduce_andi_all _ _ _ _ ix0 h24
  have k31 := Host.reduce_andi_all _ _ _ _ ix0 h31
  have k38 := Host.reduce_andi_all _ _ _ _ ix0 h38
  refine ⟨fun i => real_of_abs_lt (a0 i) (k3 i), fun i => ?_, fun i => ?_, fun i => ?_⟩
  · obtain ⟨g0, g1⟩ := IntOp.andi_eq_one.1 (k24 i)
    exact inRange (a1 i) g0 g1
  · obtain ⟨g0, g1⟩ := IntOp.andi_eq_one.1 (k31 i)
    exact inRange (a3 i) g0 g1
  · obtain ⟨g0, g1⟩ := IntOp.andi_eq_one.1 (k38 i)
    exact inRange (a5 i) g0 g1

end Cert.PreDecode

end
-- ==== Proof.lean ====
/-
  The certificate of the correlation cross-entropy loss: a Pallas kernel streams the logits once and leaves each row's
  log-sum-exp (an online maximum and sum over ten column blocks), the host then gathers three logits per row and forms the
  loss's four sums; the reference takes a log-softmax and forms the same sums. At the extended reals, with finite
  logits and index words inside the tables, the streamed log-sum-exp is max + log Σ exp(x − max), a probability
  exp(x − lse) is exp((x − max) − log Σ), and the four sums agree. The three frames: both kernel programs by the frame
  run around a region with a host tail, the reference by its run.
-/
import proofs.«178677_j88021059764894_2_alg».proof.Defs
import proofs.«178677_j88021059764894_2_alg».proof.Proof.Gen.Kernel
import proofs.«178677_j88021059764894_2_alg».proof.Proof.Gen.KernelIdeal
import proofs.«178677_j88021059764894_2_alg».proof.Proof.Gen.ReferenceIdeal
import proofs.«178677_j88021059764894_2_alg».proof.Proof.Gen.Pre_finite_inputs
import proofs.«178677_j88021059764894_2_alg».proof.Proof.KBClaim
import proofs.«178677_j88021059764894_2_alg».proof.Proof.KIResults
import proofs.«178677_j88021059764894_2_alg».proof.Proof.RefClaim
import proofs.«178677_j88021059764894_2_alg».proof.Proof.RefRows
import proofs.«178677_j88021059764894_2_alg».proof.Proof.PreDecode

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ => Cert.ReferenceIdeal.Cl.frame m ρ

/-- Both idealized programs end at the loss's four sums of the launch memory (the rows spelt as the reference spells
    them): the kernel program by its run and the bridge between the two spellings of a probability, the reference by its
    run read stage by stage. -/
theorem algebraic : Cert.algebraic_KernelIdeal_ReferenceIdeal := by
  intro m ρ m' ρ' hpre hagree
  have hd := fun c => Cert.PreDecode.decode _ _ _ _ _ _ _ (hpre c)
  refine ⟨fun c => fun _ => Cert.Spec.resLoss (Cert.KernelIdeal.Res.rowsOf m c), fun c => fun _ => Cert.Spec.resK (Cert.KernelIdeal.Res.rowsOf m c),
    fun c => fun _ => Cert.Spec.resZ (Cert.KernelIdeal.Res.rowsOf m c), fun c => fun _ => Cert.Spec.resJ (Cert.KernelIdeal.Res.rowsOf m c), ?_, ?_⟩
  · exact Cert.KernelIdeal.Res.run m ρ (fun c => (hd c).1) (fun c => (hd c).2.1) (fun c => (hd c).2.2.1) (fun c => (hd c).2.2.2)
  · refine (θ_run Cert.ReferenceIdeal.defs _ _).mono (fun _ h c => ?_) (Cert.ReferenceIdeal.RunH.run m' ρ')
    obtain ⟨a0, a1, a2, a3, a4, a5, a6⟩ := hagree c
    have hr := Cert.RefRows.results (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      (by rw [a1]; exact (hd c).2.1) (by rw [a3]; exact (hd c).2.2.1) (by rw [a5]; exact (hd c).2.2.2)
    refine ⟨(h c).1.trans (hr.1.trans ?_), (h c).2.1.trans (hr.2.1.trans ?_), (h c).2.2.1.trans (hr.2.2.1.trans ?_), (h c).2.2.2.1.trans (hr.2.2.2.trans ?_), (h c).2.2.2.2⟩
    all_goals (rw [a0, a1, a2, a3, a4, a5, a6]; first | done | rfl)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
